-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S1x3072 : Shape := ⟨2, ![1, 3072]⟩
abbrev S8192x1024 : Shape := ⟨2, ![8192, 1024]⟩
abbrev S512x1024 : Shape := ⟨2, ![512, 1024]⟩
abbrev S512x3072 : Shape := ⟨2, ![512, 3072]⟩
abbrev S1x1024x1024 : Shape := ⟨3, ![1, 1024, 1024]⟩
abbrev S1024x1 : Shape := ⟨2, ![1024, 1]⟩

abbrev nBuf : Space → Nat
  | .hbm => 19
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S3072x1024, .f32⟩
  | .hbm, ⟨8, _⟩ => ⟨S3072x1024, .bf16⟩
  | .hbm, ⟨9, _⟩ => ⟨S3072, .f32⟩
  | .hbm, ⟨10, _⟩ => ⟨S1x3072, .f32⟩
  | .hbm, ⟨11, _⟩ => ⟨S8192x1024, .f32⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S4x2048x1024, .bf16⟩
  | .hbm, ⟨16, _⟩ => ⟨S4x2048x1024, .bf16⟩
  | .hbm, ⟨17, _⟩ => ⟨S4x2048x1024, .bf16⟩
  | .hbm, ⟨18, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .f32⟩
  | .local _ .vmem, ⟨17, _⟩ => ⟨S1x1024x1024, .f32⟩
  | .local _ .vmem, ⟨18, _⟩ => ⟨S1024x1, .f32⟩
  | .local _ .vmem, ⟨19, _⟩ => ⟨S1024x1, .f32⟩
  | .local _ .vmem, ⟨20, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![4, 2, 2], ![false, false, false]⟩

def k1_cond3 (i : grid1.Coords) : BitVec 1 :=
  let arg2 : BitVec 32 := BitVec.ofNat 32 (i 2).val
  let c1_i32_4 : BitVec 32 := 1#32
  let v10 : BitVec 1 := Scalar.cmpi .eq arg2 c1_i32_4
  let v11 : BitVec 32 := Scalar.extui v10
  let c0_i32_5 : BitVec 32 := 0#32
  let v12 : BitVec 1 := Scalar.cmpi .ne v11 c0_i32_5
  v12

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  concatenates_S1024x1024_S1024x1024_S1024x1024_S3072x1024_d0 : Shape.Concatenates [S1024x1024, S1024x1024, S1024x1024] S3072x1024 0
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1x1024x1024 : S1024x1024.ShapeCasts S1x1024x1024
  dot_S512x1024_S3072x1024_S512x3072_1_1_0_0_n_n_wf : DotDims.WF S512x1024 S3072x1024 S512x3072 [1] [1] [0] [0] [] []
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x2048x1024.size a
  hwx1_1 : ∀ i : grid1.Coords, EltTy.bits .bf16 = 32 ∨ (Rect.block (s := S4x2048x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x2048x1024.size a
  hwx1_2 : ∀ i : grid1.Coords, EltTy.bits .bf16 = 32 ∨ (Rect.block (s := S4x2048x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v4) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S2048x2048 : Shape := ⟨2, ![2048, 2048]⟩
abbrev S4x2048 : Shape := ⟨2, ![4, 2048]⟩
abbrev S4x2048x1 : Shape := ⟨3, ![4, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S_, .i1⟩
  | .hbm, ⟨25, _⟩ => ⟨S2048x2048, .i1⟩
  | .hbm, ⟨26, _⟩ => ⟨S2048x2048, .i32⟩
  | .hbm, ⟨27, _⟩ => ⟨S_, .i32⟩
  | .hbm, ⟨28, _⟩ => ⟨S2048x2048, .i32⟩
  | .hbm, ⟨29, _⟩ => ⟨S2048x2048, .i32⟩
  | .hbm, ⟨30, _⟩ => ⟨S2048x2048, .i32⟩
  | .hbm, ⟨31, _⟩ => ⟨S2048x2048, .i1⟩
  | .hbm, ⟨32, _⟩ => ⟨S_, .i1⟩
  | .hbm, ⟨33, _⟩ => ⟨S2048x2048, .i1⟩
  | .hbm, ⟨34, _⟩ => ⟨S2048x2048, .i1⟩
  | .hbm, ⟨35, _⟩ => ⟨S_, .f32⟩
  | .hbm, ⟨36, _⟩ => ⟨S_, .f32⟩
  | .hbm, ⟨37, _⟩ => ⟨S4x2048x2048, .i1⟩
  | .hbm, ⟨38, _⟩ => ⟨S4x2048x2048, .f32⟩
  | .hbm, ⟨39, _⟩ => ⟨S4x2048x2048, .f32⟩
  | .hbm, ⟨40, _⟩ => ⟨S_, .f32⟩
  | .hbm, ⟨41, _⟩ => ⟨S4x2048, .f32⟩
  | .hbm, ⟨42, _⟩ => ⟨S_, .f32⟩
  | .hbm, ⟨43, _⟩ => ⟨S4x2048, .f32⟩
  | .hbm, ⟨44, _⟩ => ⟨S4x2048, .f32⟩
  | .hbm, ⟨45, _⟩ => ⟨S4x2048x1, .f32⟩
  | .hbm, ⟨46, _⟩ => ⟨S4x2048x2048, .f32⟩
  | .hbm, ⟨47, _⟩ => ⟨S4x2048x2048, .f32⟩
  | .hbm, ⟨48, _⟩ => ⟨S4x2048x2048, .f32⟩
  | .hbm, ⟨49, _⟩ => ⟨S_, .f32⟩
  | .hbm, ⟨50, _⟩ => ⟨S4x2048, .f32⟩
  | .hbm, ⟨51, _⟩ => ⟨S4x2048x1, .f32⟩
  | .hbm, ⟨52, _⟩ => ⟨S4x2048x2048, .f32⟩
  | .hbm, ⟨53, _⟩ => ⟨S4x2048x2048, .f32⟩
  | .hbm, ⟨54, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_c_0 : Ref sig .tc := ⟨.hbm, 32, rfl⟩
abbrev main_call0_v5 : Ref sig .tc := ⟨.hbm, 33, rfl⟩
abbrev main_v17 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S4x2048x2048_1_2 : S2048x2048.BroadcastsInDim S4x2048x2048 (![1, 2] : Fin 2 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.BFrame0.lean ====
import proofs.«158006_j27814208209133_2_alg».proof.Proof.Gen.Kernel.Launch
import proofs.«158006_j27814208209133_2_alg».proof.Proof.Gen.Kernel.Skeleton
import proofs.«158006_j27814208209133_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The projection region: one block of 512 rows per grid point

The body reads a block of rows of the reshaped input, the whole stacked weight table and the whole stacked bias row,
and writes one block of rows of each of the three projections. Nothing is kept between points. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev rX : Rect S512x1024 := Rect.unit (s := S512x1024) ![0, 0] S512x1024.size inb_S512x1024_S512x1024_0_0
abbrev rW : Rect S3072x1024 := Rect.unit (s := S3072x1024) ![0, 0] S3072x1024.size inb_S3072x1024_S3072x1024_0_0
abbrev rB : Rect S1x3072 := Rect.unit (s := S1x3072) ![0, 0] S1x3072.size inb_S1x3072_S1x3072_0_0

/-- What the body leaves in each output window's buffer: its one whole-block store. -/
def out0_3 (x0 : Vec F S512x1024 .f32) (x1 : Vec F S3072x1024 .bf16) (x2 : Vec F S1x3072 .f32) : Vec F S512x1024 .bf16 :=
  View.canon [⟨rX, k0_pay2 (View.ld x0 rX) (View.ld x1 rW) (View.ld x2 rB)⟩]
def out0_4 (x0 : Vec F S512x1024 .f32) (x1 : Vec F S3072x1024 .bf16) (x2 : Vec F S1x3072 .f32) : Vec F S512x1024 .bf16 :=
  View.canon [⟨rX, k0_pay3 (View.ld x0 rX) (View.ld x1 rW) (View.ld x2 rB)⟩]
def out0_5 (x0 : Vec F S512x1024 .f32) (x1 : Vec F S3072x1024 .bf16) (x2 : Vec F S1x3072 .f32) : Vec F S512x1024 .bf16 :=
  View.canon [⟨rX, k0_pay4 (View.ld x0 rX) (View.ld x1 rW) (View.ld x2 rB)⟩]

theorem cover0 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

set_option maxHeartbeats 2000000 in
/-- The body on whole staging memrefs: the inputs' kept, each output's at its one store over the inputs'. -/
theorem sound_kernel0 (c : Dev nD) (E : Set ℕ) (i : grid0.Coords)
    (arg1 : Memref sig .tc .vmem S512x1024 .f32) (harg1 : arg1.IsWhole) (arg2 : Memref sig .tc .vmem S3072x1024 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S3072x1024 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The proof data of the projection region -/

/-- The arrays as the region finds them; after the body each input's buffer at its block, each output's at its store. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.BRuns1.lean ====
import proofs.«158006_j27814208209133_2_alg».proof.Proof.Gen.Kernel.Launch
import proofs.«158006_j27814208209133_2_alg».proof.Proof.Gen.Kernel.Skeleton
import proofs.«158006_j27814208209133_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: the body's three control cases

A grid point is a triple (batch entry, row tile, column tile). The body clears its three carried buffers (running
maximum, running denominator, running weighted sum) when the column tile is the first; adds the tile's contribution
unless the tile lies wholly above the diagonal; and divides and stores the block when the column tile is the last. -/

/-- The column tile is the first. -/
abbrev cond1_0 (i : grid1.Coords) : Prop := (Scalar.cmpi .ne (Scalar.extui (Scalar.cmpi .eq (BitVec.ofNat 32 (i 2).val) 0#32)) 0#32) = 1#1
/-- The column tile starts no later than the row tile ends. -/
abbrev cond1_1 (i : grid1.Coords) : Prop := (Scalar.cmpi .ne (Scalar.extui (Scalar.cmpi .sle (Scalar.muli (BitVec.ofNat 32 (i 2).val) 1024#32) (Scalar.subi (Scalar.addi (Scalar.muli (BitVec.ofNat 32 (i 1).val) 1024#32) 1024#32) 1#32))) 0#32) = 1#1
/-- The column tile is the last. -/
abbrev cond1_2 (i : grid1.Coords) : Prop := k1_cond3 i = 1#1

theorem hcond1_0 : ∀ t : Fin cfg1.N, cond1_0 (grid1.coords t) ↔ t.val % 2 = 0 :=
  (by decide +kernel : ∀ t : Fin grid1.N, cond1_0 (grid1.coords t) ↔ t.val % 2 = 0)
theorem hcond1_1 : ∀ t : Fin cfg1.N, cond1_1 (grid1.coords t) ↔ ¬ t.val % 4 = 1 :=
  (by decide +kernel : ∀ t : Fin grid1.N, cond1_1 (grid1.coords t) ↔ ¬ t.val % 4 = 1)
theorem hcond1_2 : ∀ t : Fin cfg1.N, cond1_2 (grid1.coords t) ↔ t.val % 2 = 1 :=
  (by decide +kernel : ∀ t : Fin grid1.N, cond1_2 (grid1.coords t) ↔ t.val % 2 = 1)

set_option maxHeartbeats 4000000 in
/-- First column tile (clear, then add the tile; nothing stored to the output). -/
noncomputable def kernelRun1_A (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 x1 x2 : Vec F S1x1024x1024 .bf16) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

set_option maxHeartbeats 4000000 in
/-- Last column tile, wholly above the diagonal (nothing added; divide and store the block). -/
noncomputable def kernelRun1_B (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : cond1_2 i)
    (x0 x1 x2 : Vec F S1x1024x1024 .bf16) (xs0 xs1 : Vec F S1024x1 .f32) (xs2 : Vec F S1024x1024 .f32) :
    { L3 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

set_option maxHeartbeats 4000000 in
/-- Last column tile on the diagonal (add the tile, then divide and store the block). -/
noncomputable def kernelRun1_C (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 x1 x2 : Vec F S1x1024x1024 .bf16) (xs0 xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.BFrame1.lean ====
import proofs.«158006_j27814208209133_2_alg».proof.Proof.Gen.Kernel.Launch
import proofs.«158006_j27814208209133_2_alg».proof.Proof.Gen.Kernel.Skeleton
import proofs.«158006_j27814208209133_2_alg».proof.Proof.Gen.Kernel.Points
import proofs.«158006_j27814208209133_2_alg».proof.Proof.BRuns1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: what its buffers hold point by point, and the body obligation

The grid's 16 points run in the order (batch entry, row tile, column tile), two column tiles per row tile. After a
point the three carried buffers hold that case's result over what the point before left; the output window is
stored at the odd points only. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The memrefs the body is called with -/

abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VO1_3 : View sig .tc .vmem S1x1024x1024 .f32 := (Memref.whole cc1_stg3_0 : Memref sig .tc .vmem S1x1024x1024 .f32).view
abbrev VS1_0 : View sig .tc .vmem S1024x1 .f32 := scM1_0.view
abbrev VS1_1 : View sig .tc .vmem S1024x1 .f32 := scM1_1.view
abbrev VS1_2 : View sig .tc .vmem S1024x1024 .f32 := scM1_2.view

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, t.val % 2 = 0 → cfg1.idle 3 (grid1.coords t) = true :=
  (by decide +kernel : ∀ t : Fin grid1.N, t.val % 2 = 0 → cfg1.idle 3 (grid1.coords t) = true)
theorem liveAt1_3 : ∀ t : Fin cfg1.N, t.val % 2 = 1 → cfg1.idle 3 (grid1.coords t) = false :=
  (by decide +kernel : ∀ t : Fin grid1.N, t.val % 2 = 1 → cfg1.idle 3 (grid1.coords t) = false)
theorem noFlush1_3 (t : Fin cfg1.N) (h : t.val % 2 = 0) : (cfg1.win 3).flush t = false := by
  cases hf : (cfg1.win 3).flush t
  · rfl
  · have := (flush1_3 t).mp hf; omega

/-! ## The region invariant's parts -/

/-- The core's scoped buffers that are neither this region's staging buffers nor its three carried buffers. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The class invariant, with the three carried buffers named. -/
theorem PhiA1_split (c : Dev nD) :
    (Pipeline.ΦA spec1 c : sProp 𝕄) ⊢ iprop(rest1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  unfold Pipeline.ΦA rest1; rw [scopedRest1_eq]; simp only [scM1_0, scM1_1, scM1_2, owns_whole]
  iintro ⟨⟨A0, A1, A2, A3, A4, A5, A6, A7, A8, A9, S0, S1, S2⟩, Hp⟩
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  isplitl [S0]; · iexact S0
  isplitl [S1]; · iexact S1
  isplitl [S2]; · iexact S2
  iexact Hp

theorem PhiA1_join (c : Dev nD) :
    iprop(rest1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) ⊢ (Pipeline.ΦA spec1 c : sProp 𝕄) := by
  unfold Pipeline.ΦA rest1; rw [scopedRest1_eq]; simp only [scM1_0, scM1_1, scM1_2, owns_whole]
  iintro ⟨⟨A0, A1, A2, A3, A4, A5, A6, A7, A8, A9⟩, S0, S1, S2, Hp⟩
  isplitr [Hp]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [S0]; · iexact S0
    isplitl [S1]; · iexact S1
    iexact S2
  iexact Hp

/-! ## What a case leaves, at a point's memrefs -/

/-- The output staging buffer's and the three carried buffers' contents. -/
abbrev St (F : FTy → Type) : Type := Vec F S1x1024x1024 .f32 × Vec F S1024x1 .f32 × Vec F S1024x1 .f32 × Vec F S1024x1024 .f32

/-- Contents of the output buffer at a point that stores nothing into it (never consulted). -/
def junk3 : Vec F S1x1024x1024 .f32 := VO1_3.read (Elt F) VO1_3.junk

/-- First column tile: the carried buffers cleared and the tile added. -/
def stA (c : Dev nD) (t : Fin cfg1.N) (h0 : t.val % 2 = 0) (x0 x1 x2 : Vec F S1x1024x1024 .bf16) : St F :=
  (junk3,
   VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (fun h => by omega)) (fun h => by have := (hcond1_2 t).mp h; omega) x0 x1 x2).1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (fun h => by omega)) (fun h => by have := (hcond1_2 t).mp h; omega) x0 x1 x2).2.1),
   VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (fun h => by omega)) (fun h => by have := (hcond1_2 t).mp h; omega) x0 x1 x2).2.2.1))

/-- Last column tile above the diagonal: the block stored, the carried buffers as found. -/
def stB (c : Dev nD) (t : Fin cfg1.N) (h1 : t.val % 4 = 1) (x0 x1 x2 : Vec F S1x1024x1024 .bf16) (s : St F) : St F :=
  (VO1_3.read (Elt F) (VO1_3.writes (Elt F) VO1_3.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) (fun h => (hcond1_1 t).mp h h1) ((hcond1_2 t).mpr (by omega)) x0 x1 x2 s.2.1 s.2.2.1 s.2.2.2).1),
   s.2.1, s.2.2.1, s.2.2.2)

/-- Last column tile on the diagonal: the tile added, the block stored. -/
def stC (c : Dev nD) (t : Fin cfg1.N) (h0 : ¬t.val % 2 = 0) (h1 : ¬t.val % 4 = 1) (x0 x1 x2 : Vec F S1x1024x1024 .bf16) (s : St F) : St F :=
  (VO1_3.read (Elt F) (VO1_3.writes (Elt F) VO1_3.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) ((hcond1_2 t).mpr (by omega)) x0 x1 x2 s.2.1 s.2.2.1 s.2.2.2).1),
   VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) ((hcond1_2 t).mpr (by omega)) x0 x1 x2 s.2.1 s.2.2.1 s.2.2.2).2.1),
   VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) ((hcond1_2 t).mpr (by omega)) x0 x1 x2 s.2.1 s.2.2.1 s.2.2.2).2.2.1),
   VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) ((hcond1_2 t).mpr (by omega)) x0 x1 x2 s.2.1 s.2.2.1 s.2.2.2).2.2.2.1))

/-! ### The stores cover the buffers -/

theorem scoverA_0 (c : Dev nD) (t : Fin cfg1.N) (h0 : t.val % 2 = 0) (x0 x1 x2 : Vec F S1x1024x1024 .bf16) (y : S1024x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (fun h => by omega)) (fun h => by have := (hcond1_2 t).mp h; omega) x0 x1 x2).1, y ∈ pc.1.set :=
  View.cover_of_tiledL _ S1024x1.size (by sl_kernel_rfl) y
theorem scoverA_1 (c : Dev nD) (t : Fin cfg1.N) (h0 : t.val % 2 = 0) (x0 x1 x2 : Vec F S1x1024x1024 .bf16) (y : S1024x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (fun h => by omega)) (fun h => by have := (hcond1_2 t).mp h; omega) x0 x1 x2).2.1, y ∈ pc.1.set :=
  View.cover_of_tiledL _ S1024x1.size (by sl_kernel_rfl) y
theorem scoverA_2 (c : Dev nD) (t : Fin cfg1.N) (h0 : t.val % 2 = 0) (x0 x1 x2 : Vec F S1x1024x1024 .bf16) (y : S1024x1024.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (fun h => by omega)) (fun h => by have := (hcond1_2 t).mp h; omega) x0 x1 x2).2.2.1, y ∈ pc.1.set :=
  View.cover_of_tiledL _ S1024x1024.size (by sl_kernel_rfl) y
theorem coverB_3 (c : Dev nD) (t : Fin cfg1.N) (h1 : t.val % 4 = 1) (x0 x1 x2 : Vec F S1x1024x1024 .bf16) (xs0 xs1 : Vec F S1024x1 .f32) (xs2 : Vec F S1024x1024 .f32) (y : S1x1024x1024.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) (fun h => (hcond1_1 t).mp h h1) ((hcond1_2 t).mpr (by omega)) x0 x1 x2 xs0 xs1 xs2).1, y ∈ pc.1.set :=
  View.cover_of_tiledL _ S1x1024x1024.size (by sl_kernel_rfl) y
theorem coverC_3 (c : Dev nD) (t : Fin cfg1.N) (h0 : ¬t.val % 2 = 0) (h1 : ¬t.val % 4 = 1) (x0 x1 x2 : Vec F S1x1024x1024 .bf16) (xs0 xs1 : Vec F S1024x1 .f32) (xs2 : Vec F S1024x1024 .f32) (y : S1x1024x1024.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) ((hcond1_2 t).mpr (by omega)) x0 x1 x2 xs0 xs1 xs2).1, y ∈ pc.1.set :=
  View.cover_of_tiledL _ S1x1024x1024.size (by sl_kernel_rfl) y
theorem scoverC_0 (c : Dev nD) (t : Fin cfg1.N) (h0 : ¬t.val % 2 = 0) (h1 : ¬t.val % 4 = 1) (x0 x1 x2 : Vec F S1x1024x1024 .bf16) (xs0 xs1 : Vec F S1024x1 .f32) (xs2 : Vec F S1024x1024 .f32) (y : S1024x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) ((hcond1_2 t).mpr (by omega)) x0 x1 x2 xs0 xs1 xs2).2.1, y ∈ pc.1.set :=
  View.cover_of_tiledL _ S1024x1.size (by sl_kernel_rfl) y
theorem scoverC_1 (c : Dev nD) (t : Fin cfg1.N) (h0 : ¬t.val % 2 = 0) (h1 : ¬t.val % 4 = 1) (x0 x1 x2 : Vec F S1x1024x1024 .bf16) (xs0 xs1 : Vec F S1024x1 .f32) (xs2 : Vec F S1024x1024 .f32) (y : S1024x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) ((hcond1_2 t).mpr (by omega)) x0 x1 x2 xs0 xs1 xs2).2.2.1, y ∈ pc.1.set :=
  View.cover_of_tiledL _ S1024x1.size (by sl_kernel_rfl) y
theorem scoverC_2 (c : Dev nD) (t : Fin cfg1.N) (h0 : ¬t.val % 2 = 0) (h1 : ¬t.val % 4 = 1) (x0 x1 x2 : Vec F S1x1024x1024 .bf16) (xs0 xs1 : Vec F S1024x1 .f32) (xs2 : Vec F S1024x1024 .f32) (y : S1024x1024.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) ((hcond1_2 t).mpr (by omega)) x0 x1 x2 xs0 xs1 xs2).2.2.2.1, y ∈ pc.1.set :=
  View.cover_of_tiledL _ S1024x1024.size (by sl_kernel_rfl) y

/-! ## The accumulation over the points -/

/-- What the output buffer and the carried buffers hold after the body at position `n`. -/
def outsAt1 (c : Dev nD) : (n : ℕ) → n < cfg1.N → St F
  | 0, hn => stA c ⟨0, hn⟩ (Nat.zero_mod _) (iblk1 V c 0 ⟨0, hn⟩) (iblk1 V c 1 ⟨0, hn⟩) (iblk1 V c 2 ⟨0, hn⟩)
  | n + 1, hn =>
    if h0 : (n + 1) % 2 = 0 then
      stA c ⟨n + 1, hn⟩ h0 (iblk1 V c 0 ⟨n + 1, hn⟩) (iblk1 V c 1 ⟨n + 1, hn⟩) (iblk1 V c 2 ⟨n + 1, hn⟩)
    else if h1 : (n + 1) % 4 = 1 then
      stB c ⟨n + 1, hn⟩ h1 (iblk1 V c 0 ⟨n + 1, hn⟩) (iblk1 V c 1 ⟨n + 1, hn⟩) (iblk1 V c 2 ⟨n + 1, hn⟩) (outsAt1 c n (Nat.lt_of_succ_lt hn))
    else
      stC c ⟨n + 1, hn⟩ h0 h1 (iblk1 V c 0 ⟨n + 1, hn⟩) (iblk1 V c 1 ⟨n + 1, hn⟩) (iblk1 V c 2 ⟨n + 1, hn⟩) (outsAt1 c n (Nat.lt_of_succ_lt hn))

theorem outsAt1_A (c : Dev nD) (t : Fin cfg1.N) (h0 : t.val % 2 = 0) :
    outsAt1 V c t.val t.isLt = stA c t h0 (iblk1 V c 0 t) (iblk1 V c 1 t) (iblk1 V c 2 t) := by
  obtain ⟨n, hn⟩ := t
  cases n with
  | zero => rfl
  | succ n => exact (dif_pos h0).trans rfl

theorem outsAt1_B (c : Dev nD) (t : Fin cfg1.N) (h1 : t.val % 4 = 1) :
    outsAt1 V c t.val t.isLt = stB c t h1 (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by have h : (0 : ℕ) % 4 = 1 := h1; omega)
  | succ n => exact (dif_neg (show ¬(n + 1) % 2 = 0 by have : (n + 1) % 4 = 1 := h1; omega)).trans ((dif_pos h1).trans rfl)

theorem outsAt1_C (c : Dev nD) (t : Fin cfg1.N) (h0 : ¬t.val % 2 = 0) (h1 : ¬t.val % 4 = 1) :
    outsAt1 V c t.val t.isLt = stC c t h0 h1 (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

/-- The region invariant before position `n`: before the first point the class's; afterwards the carried buffers at
    what the point before left. -/
def PhiS1 (c : Dev nD) : (n : ℕ) → n ≤ cfg1.N → sProp 𝕄
  | 0, _ => Pipeline.ΦA spec1 c
  | n + 1, hn => iprop(rest1 (F := F) c ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(rest1 (F := F) c ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ (∃ r, prngReg c r)) := rfl
theorem PhiS1_pos (c : Dev nD) (n : ℕ) (h : n ≤ cfg1.N) (hz : n ≠ 0) :
    PhiS1 V c n h = iprop(rest1 (F := F) c ∗ owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2 ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- Before any point the carried buffers are held at SOME contents. -/
theorem PhiS1_weaken (c : Dev nD) (n : ℕ) (h : n ≤ cfg1.N) :
    PhiS1 V c n h ⊢ iprop(rest1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  cases n with
  | zero => exact PhiA1_split c
  | succ n =>
    rw [PhiS1_succ]
    iintro ⟨Hr, HS0, HS1, HS2, Hg⟩
    isplitl [Hr]; · iexact Hr
    isplitl [HS0]; · iexists _; iexact HS0
    isplitl [HS1]; · iexists _; iexact HS1
    isplitl [HS2]; · iexists _; iexact HS2
    iexact Hg

theorem le1_0 (c : Dev nD) (t : Fin cfg1.N) : (dat1 V c).leavesExact 0 t = owns (c : Thread nD τ) (ms1_0 t) fullShare (iblk1 V c 0 t) := by
  unfold Dat.leavesExact; rw [liveAt1_0 t, after1_0]
theorem le1_1 (c : Dev nD) (t : Fin cfg1.N) : (dat1 V c).leavesExact 1 t = owns (c : Thread nD τ) (ms1_1 t) fullShare (iblk1 V c 1 t) := by
  unfold Dat.leavesExact; rw [liveAt1_1 t, after1_1]
theorem le1_2 (c : Dev nD) (t : Fin cfg1.N) : (dat1 V c).leavesExact 2 t = owns (c : Thread nD τ) (ms1_2 t) fullShare (iblk1 V c 2 t) := by
  unfold Dat.leavesExact; rw [liveAt1_2 t, after1_2]
theorem le1_3 (c : Dev nD) (t : Fin cfg1.N) (h : t.val % 2 = 1) : (dat1 V c).leavesExact 3 t = owns (c : Thread nD τ) (ms1_3 t) fullShare (outsAt1 V c t.val t.isLt).1 := by
  unfold Dat.leavesExact; rw [liveAt1_3 t h, after1_3]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [le1_0, le1_1, le1_2]
  have hN : t.val < 16 := lt_of_lt_of_eq t.isLt (show cfg1.N = 16 from N_1)
  by_cases h0 : t.val % 2 = 0
  · rw [Dat.leavesExact_idle (dat1 V c) 3 t (idleAt1_3 t h0) (noFlush1_3 t h0)]
    rw [outsAt1_A V c t h0]
    unfold stA; dsimp only
    rw [PhiS1_castSucc V c t]
    iintro ⟨HΦ, Ho, ⟨%d0, H0⟩, ⟨%d1, H1⟩, ⟨%d2, H2⟩, ⟨%d3, H3⟩⟩
    ihave HΦ' := (PhiS1_weaken V c t.val (Nat.le_of_lt t.isLt)) $$ HΦ
    icases HΦ' with ⟨Hr, HS0, HS1, HS2, Hg⟩
    iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (fun h => by omega)) (fun h => by have := (hcond1_2 t).mp h; omega) (iblk1 V c 0 t) (iblk1 V c 1 t) (iblk1 V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%e0, HS0⟩, ⟨%e1, HS1⟩, ⟨%e2, HS2⟩⟩
    isplitl [Hr HS0 HS1 HS2 Hg]
    · isplitl [Hr]; · iexact Hr
      isplitl [HS0]
      · unfold owns; iexists _; isplitr
        swap; · iexact HS0
        ipureintro; exact View.read_writes_of_cover _ _ _ _ _ (scoverA_0 c t h0 _ _ _)
      isplitl [HS1]
      · unfold owns; iexists _; isplitr
        swap; · iexact HS1
        ipureintro; exact View.read_writes_of_cover _ _ _ _ _ (scoverA_1 c t h0 _ _ _)
      isplitl [HS2]
      · unfold owns; iexists _; isplitr
        swap; · iexact HS2
        ipureintro; exact View.read_writes_of_cover _ _ _ _ _ (scoverA_2 c t h0 _ _ _)
      iexact Hg
    isplitl [Ho]; · iexact Ho
    isplitl [H0]; · iexact H0
    isplitl [H1]; · iexact H1
    isplitl [H2]; · iexact H2
    iexists _; iexact H3
  · have hodd : t.val % 2 = 1 := by omega
    have hz : t.val ≠ 0 := by omega
    rw [le1_3 V c t hodd]
    rw [PhiS1_castSucc V c t, PhiS1_pos V c _ _ hz]
    by_cases h1 : t.val % 4 = 1
    · rw [outsAt1_B V c t h1]
      unfold stB; dsimp only
      iintro ⟨⟨Hr, HS0, HS1, HS2, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) (fun h => (hcond1_1 t).mp h h1) ((hcond1_2 t).mpr (by omega)) (iblk1 V c 0 t) (iblk1 V c 1 t) (iblk1 V c 2 t) _ _ _).2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, HS0, HS1, HS2⟩
      isplitl [Hr HS0 HS1 HS2 Hg]
      · isplitl [Hr]; · iexact Hr
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverB_3 c t h1 _ _ _ _ _ _)
    · rw [outsAt1_C V c t h0 h1]
      unfold stC; dsimp only
      iintro ⟨⟨Hr, HS0, HS1, HS2, Hg⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) ((hcond1_2 t).mpr (by omega)) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%e0, HS0⟩, ⟨%e1, HS1⟩, ⟨%e2, HS2⟩⟩
      isplitl [Hr HS0 HS1 HS2 Hg]
      · isplitl [Hr]; · iexact Hr
        isplitl [HS0]
        · unfold owns; iexists _; isplitr
          swap; · iexact HS0
          ipureintro; exact View.read_writes_of_cover _ _ _ _ _ (scoverC_0 c t h0 h1 _ _ _ _ _ _)
        isplitl [HS1]
        · unfold owns; iexists _; isplitr
          swap; · iexact HS1
          ipureintro; exact View.read_writes_of_cover _ _ _ _ _ (scoverC_1 c t h0 h1 _ _ _ _ _ _)
        isplitl [HS2]
        · unfold owns; iexists _; isplitr
          swap; · iexact HS2
          ipureintro; exact View.read_writes_of_cover _ _ _ _ _ (scoverC_2 c t h0 h1 _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 c t h0 h1 _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact (PhiS1_weaken V c _ _).trans (PhiA1_join c)

end Region1

end Cert.Kernel.Hand

end
-- ==== Proof.BRun.lean ====
import proofs.«158006_j27814208209133_2_alg».proof.Proof.Gen.Kernel.Launch
import proofs.«158006_j27814208209133_2_alg».proof.Proof.Gen.Kernel.Skeleton
import proofs.«158006_j27814208209133_2_alg».proof.Proof.Gen.Kernel.Points
import proofs.«158006_j27814208209133_2_alg».proof.Proof.Gen.Kernel.Regions
import proofs.«158006_j27814208209133_2_alg».proof.Proof.BFrame0
import proofs.«158006_j27814208209133_2_alg».proof.Proof.BFrame1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run: host operations, the projection region, three reshapes, the attention region

The buffer contents at each boundary are a fold from the launch memory: a stretch of host operations applies them; a
region leaves its output arrays at what its write-backs wrote and every other buffer as it was. -/

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- Region 0 over the thread state: entered from every unscoped buffer at the contents before it, left at the contents after it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents after it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.Kernel.Hand

end
-- ==== Proof.KFrame0.lean ====
import proofs.«158006_j27814208209133_2_alg».proof.Proof.Gen.KernelIdeal.Launch
import proofs.«158006_j27814208209133_2_alg».proof.Proof.Gen.KernelIdeal.Skeleton
import proofs.«158006_j27814208209133_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The projection region: one block of 512 rows per grid point

The body reads a block of rows of the reshaped input, the whole stacked weight table and the whole stacked bias row,
and writes one block of rows of each of the three projections. Nothing is kept between points. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev rX : Rect S512x1024 := Rect.unit (s := S512x1024) ![0, 0] S512x1024.size inb_S512x1024_S512x1024_0_0
abbrev rW : Rect S3072x1024 := Rect.unit (s := S3072x1024) ![0, 0] S3072x1024.size inb_S3072x1024_S3072x1024_0_0
abbrev rB : Rect S1x3072 := Rect.unit (s := S1x3072) ![0, 0] S1x3072.size inb_S1x3072_S1x3072_0_0

/-- What the body leaves in each output window's buffer: its one whole-block store. -/
def out0_3 (x0 : Vec F S512x1024 .f32) (x1 : Vec F S3072x1024 .bf16) (x2 : Vec F S1x3072 .f32) : Vec F S512x1024 .bf16 :=
  View.canon [⟨rX, k0_pay2 (View.ld x0 rX) (View.ld x1 rW) (View.ld x2 rB)⟩]
def out0_4 (x0 : Vec F S512x1024 .f32) (x1 : Vec F S3072x1024 .bf16) (x2 : Vec F S1x3072 .f32) : Vec F S512x1024 .bf16 :=
  View.canon [⟨rX, k0_pay3 (View.ld x0 rX) (View.ld x1 rW) (View.ld x2 rB)⟩]
def out0_5 (x0 : Vec F S512x1024 .f32) (x1 : Vec F S3072x1024 .bf16) (x2 : Vec F S1x3072 .f32) : Vec F S512x1024 .bf16 :=
  View.canon [⟨rX, k0_pay4 (View.ld x0 rX) (View.ld x1 rW) (View.ld x2 rB)⟩]

theorem cover0 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

set_option maxHeartbeats 2000000 in
/-- The body on whole staging memrefs: the inputs' kept, each output's at its one store over the inputs'. -/
theorem sound_kernel0 (c : Dev nD) (E : Set ℕ) (i : grid0.Coords)
    (arg1 : Memref sig .tc .vmem S512x1024 .f32) (harg1 : arg1.IsWhole) (arg2 : Memref sig .tc .vmem S3072x1024 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S3072x1024 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The proof data of the projection region -/

/-- The arrays as the region finds them; after the body each input's buffer at its block, each output's at its store. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KRuns1.lean ====
import proofs.«158006_j27814208209133_2_alg».proof.Proof.Gen.KernelIdeal.Launch
import proofs.«158006_j27814208209133_2_alg».proof.Proof.Gen.KernelIdeal.Skeleton
import proofs.«158006_j27814208209133_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The attention region: the body's three control cases

A grid point is a triple (batch entry, row tile, column tile). The body clears its three carried buffers (running
maximum, running denominator, running weighted sum) when the column tile is the first; adds the tile's contribution
unless the tile lies wholly above the diagonal; and divides and stores the block when the column tile is the last. -/

/-- The column tile is the first. -/
abbrev cond1_0 (i : grid1.Coords) : Prop := (Scalar.cmpi .ne (Scalar.extui (Scalar.cmpi .eq (BitVec.ofNat 32 (i 2).val) 0#32)) 0#32) = 1#1
/-- The column tile starts no later than the row tile ends. -/
abbrev cond1_1 (i : grid1.Coords) : Prop := (Scalar.cmpi .ne (Scalar.extui (Scalar.cmpi .sle (Scalar.muli (BitVec.ofNat 32 (i 2).val) 1024#32) (Scalar.subi (Scalar.addi (Scalar.muli (BitVec.ofNat 32 (i 1).val) 1024#32) 1024#32) 1#32))) 0#32) = 1#1
/-- The column tile is the last. -/
abbrev cond1_2 (i : grid1.Coords) : Prop := k1_cond3 i = 1#1

theorem hcond1_0 : ∀ t : Fin cfg1.N, cond1_0 (grid1.coords t) ↔ t.val % 2 = 0 :=
  (by decide +kernel : ∀ t : Fin grid1.N, cond1_0 (grid1.coords t) ↔ t.val % 2 = 0)
theorem hcond1_1 : ∀ t : Fin cfg1.N, cond1_1 (grid1.coords t) ↔ ¬ t.val % 4 = 1 :=
  (by decide +kernel : ∀ t : Fin grid1.N, cond1_1 (grid1.coords t) ↔ ¬ t.val % 4 = 1)
theorem hcond1_2 : ∀ t : Fin cfg1.N, cond1_2 (grid1.coords t) ↔ t.val % 2 = 1 :=
  (by decide +kernel : ∀ t : Fin grid1.N, cond1_2 (grid1.coords t) ↔ t.val % 2 = 1)

set_option maxHeartbeats 4000000 in
/-- First column tile (clear, then add the tile; nothing stored to the output). -/
noncomputable def kernelRun1_A (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 x1 x2 : Vec F S1x1024x1024 .bf16) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

set_option maxHeartbeats 4000000 in
/-- Last column tile, wholly above the diagonal (nothing added; divide and store the block). -/
noncomputable def kernelRun1_B (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : cond1_2 i)
    (x0 x1 x2 : Vec F S1x1024x1024 .bf16) (xs0 xs1 : Vec F S1024x1 .f32) (xs2 : Vec F S1024x1024 .f32) :
    { L3 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

set_option maxHeartbeats 4000000 in
/-- Last column tile on the diagonal (add the tile, then divide and store the block). -/
noncomputable def kernelRun1_C (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 x1 x2 : Vec F S1x1024x1024 .bf16) (xs0 xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KFrame1.lean ====
import proofs.«158006_j27814208209133_2_alg».proof.Proof.Gen.KernelIdeal.Launch
import proofs.«158006_j27814208209133_2_alg».proof.Proof.Gen.KernelIdeal.Skeleton
import proofs.«158006_j27814208209133_2_alg».proof.Proof.Gen.KernelIdeal.Points
import proofs.«158006_j27814208209133_2_alg».proof.Proof.KRuns1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The attention region: what its buffers hold point by point, and the body obligation

The grid's 16 points run in the order (batch entry, row tile, column tile), two column tiles per row tile. After a
point the three carried buffers hold that case's result over what the point before left; the output window is
stored at the odd points only. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The memrefs the body is called with -/

abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VO1_3 : View sig .tc .vmem S1x1024x1024 .f32 := (Memref.whole cc1_stg3_0 : Memref sig .tc .vmem S1x1024x1024 .f32).view
abbrev VS1_0 : View sig .tc .vmem S1024x1 .f32 := scM1_0.view
abbrev VS1_1 : View sig .tc .vmem S1024x1 .f32 := scM1_1.view
abbrev VS1_2 : View sig .tc .vmem S1024x1024 .f32 := scM1_2.view

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, t.val % 2 = 0 → cfg1.idle 3 (grid1.coords t) = true :=
  (by decide +kernel : ∀ t : Fin grid1.N, t.val % 2 = 0 → cfg1.idle 3 (grid1.coords t) = true)
theorem liveAt1_3 : ∀ t : Fin cfg1.N, t.val % 2 = 1 → cfg1.idle 3 (grid1.coords t) = false :=
  (by decide +kernel : ∀ t : Fin grid1.N, t.val % 2 = 1 → cfg1.idle 3 (grid1.coords t) = false)
theorem noFlush1_3 (t : Fin cfg1.N) (h : t.val % 2 = 0) : (cfg1.win 3).flush t = false := by
  cases hf : (cfg1.win 3).flush t
  · rfl
  · have := (flush1_3 t).mp hf; omega

/-! ## The region invariant's parts -/

/-- The core's scoped buffers that are neither this region's staging buffers nor its three carried buffers. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The class invariant, with the three carried buffers named. -/
theorem PhiA1_split (c : Dev nD) :
    (Pipeline.ΦA spec1 c : sProp 𝕄) ⊢ iprop(rest1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  unfold Pipeline.ΦA rest1; rw [scopedRest1_eq]; simp only [scM1_0, scM1_1, scM1_2, owns_whole]
  iintro ⟨⟨A0, A1, A2, A3, A4, A5, A6, A7, A8, A9, S0, S1, S2⟩, Hp⟩
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  isplitl [S0]; · iexact S0
  isplitl [S1]; · iexact S1
  isplitl [S2]; · iexact S2
  iexact Hp

theorem PhiA1_join (c : Dev nD) :
    iprop(rest1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) ⊢ (Pipeline.ΦA spec1 c : sProp 𝕄) := by
  unfold Pipeline.ΦA rest1; rw [scopedRest1_eq]; simp only [scM1_0, scM1_1, scM1_2, owns_whole]
  iintro ⟨⟨A0, A1, A2, A3, A4, A5, A6, A7, A8, A9⟩, S0, S1, S2, Hp⟩
  isplitr [Hp]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [S0]; · iexact S0
    isplitl [S1]; · iexact S1
    iexact S2
  iexact Hp

/-! ## What a case leaves, at a point's memrefs -/

/-- The output staging buffer's and the three carried buffers' contents. -/
abbrev St (F : FTy → Type) : Type := Vec F S1x1024x1024 .f32 × Vec F S1024x1 .f32 × Vec F S1024x1 .f32 × Vec F S1024x1024 .f32

/-- Contents of the output buffer at a point that stores nothing into it (never consulted). -/
def junk3 : Vec F S1x1024x1024 .f32 := VO1_3.read (Elt F) VO1_3.junk

/-- First column tile: the carried buffers cleared and the tile added. -/
def stA (c : Dev nD) (t : Fin cfg1.N) (h0 : t.val % 2 = 0) (x0 x1 x2 : Vec F S1x1024x1024 .bf16) : St F :=
  (junk3,
   VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (fun h => by omega)) (fun h => by have := (hcond1_2 t).mp h; omega) x0 x1 x2).1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (fun h => by omega)) (fun h => by have := (hcond1_2 t).mp h; omega) x0 x1 x2).2.1),
   VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (fun h => by omega)) (fun h => by have := (hcond1_2 t).mp h; omega) x0 x1 x2).2.2.1))

/-- Last column tile above the diagonal: the block stored, the carried buffers as found. -/
def stB (c : Dev nD) (t : Fin cfg1.N) (h1 : t.val % 4 = 1) (x0 x1 x2 : Vec F S1x1024x1024 .bf16) (s : St F) : St F :=
  (VO1_3.read (Elt F) (VO1_3.writes (Elt F) VO1_3.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) (fun h => (hcond1_1 t).mp h h1) ((hcond1_2 t).mpr (by omega)) x0 x1 x2 s.2.1 s.2.2.1 s.2.2.2).1),
   s.2.1, s.2.2.1, s.2.2.2)

/-- Last column tile on the diagonal: the tile added, the block stored. -/
def stC (c : Dev nD) (t : Fin cfg1.N) (h0 : ¬t.val % 2 = 0) (h1 : ¬t.val % 4 = 1) (x0 x1 x2 : Vec F S1x1024x1024 .bf16) (s : St F) : St F :=
  (VO1_3.read (Elt F) (VO1_3.writes (Elt F) VO1_3.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) ((hcond1_2 t).mpr (by omega)) x0 x1 x2 s.2.1 s.2.2.1 s.2.2.2).1),
   VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) ((hcond1_2 t).mpr (by omega)) x0 x1 x2 s.2.1 s.2.2.1 s.2.2.2).2.1),
   VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) ((hcond1_2 t).mpr (by omega)) x0 x1 x2 s.2.1 s.2.2.1 s.2.2.2).2.2.1),
   VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) ((hcond1_2 t).mpr (by omega)) x0 x1 x2 s.2.1 s.2.2.1 s.2.2.2).2.2.2.1))

/-! ### The stores cover the buffers -/

theorem scoverA_0 (c : Dev nD) (t : Fin cfg1.N) (h0 : t.val % 2 = 0) (x0 x1 x2 : Vec F S1x1024x1024 .bf16) (y : S1024x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (fun h => by omega)) (fun h => by have := (hcond1_2 t).mp h; omega) x0 x1 x2).1, y ∈ pc.1.set :=
  View.cover_of_tiledL _ S1024x1.size (by sl_kernel_rfl) y
theorem scoverA_1 (c : Dev nD) (t : Fin cfg1.N) (h0 : t.val % 2 = 0) (x0 x1 x2 : Vec F S1x1024x1024 .bf16) (y : S1024x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (fun h => by omega)) (fun h => by have := (hcond1_2 t).mp h; omega) x0 x1 x2).2.1, y ∈ pc.1.set :=
  View.cover_of_tiledL _ S1024x1.size (by sl_kernel_rfl) y
theorem scoverA_2 (c : Dev nD) (t : Fin cfg1.N) (h0 : t.val % 2 = 0) (x0 x1 x2 : Vec F S1x1024x1024 .bf16) (y : S1024x1024.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (fun h => by omega)) (fun h => by have := (hcond1_2 t).mp h; omega) x0 x1 x2).2.2.1, y ∈ pc.1.set :=
  View.cover_of_tiledL _ S1024x1024.size (by sl_kernel_rfl) y
theorem coverB_3 (c : Dev nD) (t : Fin cfg1.N) (h1 : t.val % 4 = 1) (x0 x1 x2 : Vec F S1x1024x1024 .bf16) (xs0 xs1 : Vec F S1024x1 .f32) (xs2 : Vec F S1024x1024 .f32) (y : S1x1024x1024.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) (fun h => (hcond1_1 t).mp h h1) ((hcond1_2 t).mpr (by omega)) x0 x1 x2 xs0 xs1 xs2).1, y ∈ pc.1.set :=
  View.cover_of_tiledL _ S1x1024x1024.size (by sl_kernel_rfl) y
theorem coverC_3 (c : Dev nD) (t : Fin cfg1.N) (h0 : ¬t.val % 2 = 0) (h1 : ¬t.val % 4 = 1) (x0 x1 x2 : Vec F S1x1024x1024 .bf16) (xs0 xs1 : Vec F S1024x1 .f32) (xs2 : Vec F S1024x1024 .f32) (y : S1x1024x1024.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) ((hcond1_2 t).mpr (by omega)) x0 x1 x2 xs0 xs1 xs2).1, y ∈ pc.1.set :=
  View.cover_of_tiledL _ S1x1024x1024.size (by sl_kernel_rfl) y
theorem scoverC_0 (c : Dev nD) (t : Fin cfg1.N) (h0 : ¬t.val % 2 = 0) (h1 : ¬t.val % 4 = 1) (x0 x1 x2 : Vec F S1x1024x1024 .bf16) (xs0 xs1 : Vec F S1024x1 .f32) (xs2 : Vec F S1024x1024 .f32) (y : S1024x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) ((hcond1_2 t).mpr (by omega)) x0 x1 x2 xs0 xs1 xs2).2.1, y ∈ pc.1.set :=
  View.cover_of_tiledL _ S1024x1.size (by sl_kernel_rfl) y
theorem scoverC_1 (c : Dev nD) (t : Fin cfg1.N) (h0 : ¬t.val % 2 = 0) (h1 : ¬t.val % 4 = 1) (x0 x1 x2 : Vec F S1x1024x1024 .bf16) (xs0 xs1 : Vec F S1024x1 .f32) (xs2 : Vec F S1024x1024 .f32) (y : S1024x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) ((hcond1_2 t).mpr (by omega)) x0 x1 x2 xs0 xs1 xs2).2.2.1, y ∈ pc.1.set :=
  View.cover_of_tiledL _ S1024x1.size (by sl_kernel_rfl) y
theorem scoverC_2 (c : Dev nD) (t : Fin cfg1.N) (h0 : ¬t.val % 2 = 0) (h1 : ¬t.val % 4 = 1) (x0 x1 x2 : Vec F S1x1024x1024 .bf16) (xs0 xs1 : Vec F S1024x1 .f32) (xs2 : Vec F S1024x1024 .f32) (y : S1024x1024.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) ((hcond1_2 t).mpr (by omega)) x0 x1 x2 xs0 xs1 xs2).2.2.2.1, y ∈ pc.1.set :=
  View.cover_of_tiledL _ S1024x1024.size (by sl_kernel_rfl) y

/-! ## The accumulation over the points -/

/-- What the output buffer and the carried buffers hold after the body at position `n`. -/
def outsAt1 (c : Dev nD) : (n : ℕ) → n < cfg1.N → St F
  | 0, hn => stA c ⟨0, hn⟩ (Nat.zero_mod _) (iblk1 V c 0 ⟨0, hn⟩) (iblk1 V c 1 ⟨0, hn⟩) (iblk1 V c 2 ⟨0, hn⟩)
  | n + 1, hn =>
    if h0 : (n + 1) % 2 = 0 then
      stA c ⟨n + 1, hn⟩ h0 (iblk1 V c 0 ⟨n + 1, hn⟩) (iblk1 V c 1 ⟨n + 1, hn⟩) (iblk1 V c 2 ⟨n + 1, hn⟩)
    else if h1 : (n + 1) % 4 = 1 then
      stB c ⟨n + 1, hn⟩ h1 (iblk1 V c 0 ⟨n + 1, hn⟩) (iblk1 V c 1 ⟨n + 1, hn⟩) (iblk1 V c 2 ⟨n + 1, hn⟩) (outsAt1 c n (Nat.lt_of_succ_lt hn))
    else
      stC c ⟨n + 1, hn⟩ h0 h1 (iblk1 V c 0 ⟨n + 1, hn⟩) (iblk1 V c 1 ⟨n + 1, hn⟩) (iblk1 V c 2 ⟨n + 1, hn⟩) (outsAt1 c n (Nat.lt_of_succ_lt hn))

theorem outsAt1_A (c : Dev nD) (t : Fin cfg1.N) (h0 : t.val % 2 = 0) :
    outsAt1 V c t.val t.isLt = stA c t h0 (iblk1 V c 0 t) (iblk1 V c 1 t) (iblk1 V c 2 t) := by
  obtain ⟨n, hn⟩ := t
  cases n with
  | zero => rfl
  | succ n => exact (dif_pos h0).trans rfl

theorem outsAt1_B (c : Dev nD) (t : Fin cfg1.N) (h1 : t.val % 4 = 1) :
    outsAt1 V c t.val t.isLt = stB c t h1 (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by have h : (0 : ℕ) % 4 = 1 := h1; omega)
  | succ n => exact (dif_neg (show ¬(n + 1) % 2 = 0 by have : (n + 1) % 4 = 1 := h1; omega)).trans ((dif_pos h1).trans rfl)

theorem outsAt1_C (c : Dev nD) (t : Fin cfg1.N) (h0 : ¬t.val % 2 = 0) (h1 : ¬t.val % 4 = 1) :
    outsAt1 V c t.val t.isLt = stC c t h0 h1 (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

/-- The region invariant before position `n`: before the first point the class's; afterwards the carried buffers at
    what the point before left. -/
def PhiS1 (c : Dev nD) : (n : ℕ) → n ≤ cfg1.N → sProp 𝕄
  | 0, _ => Pipeline.ΦA spec1 c
  | n + 1, hn => iprop(rest1 (F := F) c ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(rest1 (F := F) c ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ (∃ r, prngReg c r)) := rfl
theorem PhiS1_pos (c : Dev nD) (n : ℕ) (h : n ≤ cfg1.N) (hz : n ≠ 0) :
    PhiS1 V c n h = iprop(rest1 (F := F) c ∗ owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2 ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- Before any point the carried buffers are held at SOME contents. -/
theorem PhiS1_weaken (c : Dev nD) (n : ℕ) (h : n ≤ cfg1.N) :
    PhiS1 V c n h ⊢ iprop(rest1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  cases n with
  | zero => exact PhiA1_split c
  | succ n =>
    rw [PhiS1_succ]
    iintro ⟨Hr, HS0, HS1, HS2, Hg⟩
    isplitl [Hr]; · iexact Hr
    isplitl [HS0]; · iexists _; iexact HS0
    isplitl [HS1]; · iexists _; iexact HS1
    isplitl [HS2]; · iexists _; iexact HS2
    iexact Hg

theorem le1_0 (c : Dev nD) (t : Fin cfg1.N) : (dat1 V c).leavesExact 0 t = owns (c : Thread nD τ) (ms1_0 t) fullShare (iblk1 V c 0 t) := by
  unfold Dat.leavesExact; rw [liveAt1_0 t, after1_0]
theorem le1_1 (c : Dev nD) (t : Fin cfg1.N) : (dat1 V c).leavesExact 1 t = owns (c : Thread nD τ) (ms1_1 t) fullShare (iblk1 V c 1 t) := by
  unfold Dat.leavesExact; rw [liveAt1_1 t, after1_1]
theorem le1_2 (c : Dev nD) (t : Fin cfg1.N) : (dat1 V c).leavesExact 2 t = owns (c : Thread nD τ) (ms1_2 t) fullShare (iblk1 V c 2 t) := by
  unfold Dat.leavesExact; rw [liveAt1_2 t, after1_2]
theorem le1_3 (c : Dev nD) (t : Fin cfg1.N) (h : t.val % 2 = 1) : (dat1 V c).leavesExact 3 t = owns (c : Thread nD τ) (ms1_3 t) fullShare (outsAt1 V c t.val t.isLt).1 := by
  unfold Dat.leavesExact; rw [liveAt1_3 t h, after1_3]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [le1_0, le1_1, le1_2]
  have hN : t.val < 16 := lt_of_lt_of_eq t.isLt (show cfg1.N = 16 from N_1)
  by_cases h0 : t.val % 2 = 0
  · rw [Dat.leavesExact_idle (dat1 V c) 3 t (idleAt1_3 t h0) (noFlush1_3 t h0)]
    rw [outsAt1_A V c t h0]
    unfold stA; dsimp only
    rw [PhiS1_castSucc V c t]
    iintro ⟨HΦ, Ho, ⟨%d0, H0⟩, ⟨%d1, H1⟩, ⟨%d2, H2⟩, ⟨%d3, H3⟩⟩
    ihave HΦ' := (PhiS1_weaken V c t.val (Nat.le_of_lt t.isLt)) $$ HΦ
    icases HΦ' with ⟨Hr, HS0, HS1, HS2, Hg⟩
    iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (fun h => by omega)) (fun h => by have := (hcond1_2 t).mp h; omega) (iblk1 V c 0 t) (iblk1 V c 1 t) (iblk1 V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%e0, HS0⟩, ⟨%e1, HS1⟩, ⟨%e2, HS2⟩⟩
    isplitl [Hr HS0 HS1 HS2 Hg]
    · isplitl [Hr]; · iexact Hr
      isplitl [HS0]
      · unfold owns; iexists _; isplitr
        swap; · iexact HS0
        ipureintro; exact View.read_writes_of_cover _ _ _ _ _ (scoverA_0 c t h0 _ _ _)
      isplitl [HS1]
      · unfold owns; iexists _; isplitr
        swap; · iexact HS1
        ipureintro; exact View.read_writes_of_cover _ _ _ _ _ (scoverA_1 c t h0 _ _ _)
      isplitl [HS2]
      · unfold owns; iexists _; isplitr
        swap; · iexact HS2
        ipureintro; exact View.read_writes_of_cover _ _ _ _ _ (scoverA_2 c t h0 _ _ _)
      iexact Hg
    isplitl [Ho]; · iexact Ho
    isplitl [H0]; · iexact H0
    isplitl [H1]; · iexact H1
    isplitl [H2]; · iexact H2
    iexists _; iexact H3
  · have hodd : t.val % 2 = 1 := by omega
    have hz : t.val ≠ 0 := by omega
    rw [le1_3 V c t hodd]
    rw [PhiS1_castSucc V c t, PhiS1_pos V c _ _ hz]
    by_cases h1 : t.val % 4 = 1
    · rw [outsAt1_B V c t h1]
      unfold stB; dsimp only
      iintro ⟨⟨Hr, HS0, HS1, HS2, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) (fun h => (hcond1_1 t).mp h h1) ((hcond1_2 t).mpr (by omega)) (iblk1 V c 0 t) (iblk1 V c 1 t) (iblk1 V c 2 t) _ _ _).2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, HS0, HS1, HS2⟩
      isplitl [Hr HS0 HS1 HS2 Hg]
      · isplitl [Hr]; · iexact Hr
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverB_3 c t h1 _ _ _ _ _ _)
    · rw [outsAt1_C V c t h0 h1]
      unfold stC; dsimp only
      iintro ⟨⟨Hr, HS0, HS1, HS2, Hg⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) ((hcond1_2 t).mpr (by omega)) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%e0, HS0⟩, ⟨%e1, HS1⟩, ⟨%e2, HS2⟩⟩
      isplitl [Hr HS0 HS1 HS2 Hg]
      · isplitl [Hr]; · iexact Hr
        isplitl [HS0]
        · unfold owns; iexists _; isplitr
          swap; · iexact HS0
          ipureintro; exact View.read_writes_of_cover _ _ _ _ _ (scoverC_0 c t h0 h1 _ _ _ _ _ _)
        isplitl [HS1]
        · unfold owns; iexists _; isplitr
          swap; · iexact HS1
          ipureintro; exact View.read_writes_of_cover _ _ _ _ _ (scoverC_1 c t h0 h1 _ _ _ _ _ _)
        isplitl [HS2]
        · unfold owns; iexists _; isplitr
          swap; · iexact HS2
          ipureintro; exact View.read_writes_of_cover _ _ _ _ _ (scoverC_2 c t h0 h1 _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 c t h0 h1 _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact (PhiS1_weaken V c _ _).trans (PhiA1_join c)

end Region1

end Cert.KernelIdeal.Hand

end
-- ==== Proof.KRun.lean ====
import proofs.«158006_j27814208209133_2_alg».proof.Proof.Gen.KernelIdeal.Launch
import proofs.«158006_j27814208209133_2_alg».proof.Proof.Gen.KernelIdeal.Skeleton
import proofs.«158006_j27814208209133_2_alg».proof.Proof.Gen.KernelIdeal.Points
import proofs.«158006_j27814208209133_2_alg».proof.Proof.Gen.KernelIdeal.Regions
import proofs.«158006_j27814208209133_2_alg».proof.Proof.KFrame0
import proofs.«158006_j27814208209133_2_alg».proof.Proof.KFrame1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The whole run: host operations, the projection region, three reshapes, the attention region

The buffer contents at each boundary are a fold from the launch memory: a stretch of host operations applies them; a
region leaves its output arrays at what its write-backs wrote and every other buffer as it was. -/

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- Region 0 over the thread state: entered from every unscoped buffer at the contents before it, left at the contents after it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents after it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.KernelIdeal.Hand

end
-- ==== Proof.KVal1.lean ====
import proofs.«158006_j27814208209133_2_alg».proof.Proof.Gen.KernelIdeal.Launch
import proofs.«158006_j27814208209133_2_alg».proof.Proof.Gen.KernelIdeal.Skeleton
import proofs.«158006_j27814208209133_2_alg».proof.Proof.Gen.KernelIdeal.Points
import proofs.«158006_j27814208209133_2_alg».proof.Proof.KFrame1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # What each control case leaves, as values

Each case's stores are whole-block stores, so what a buffer holds after the case is its last store's payload, the
payload's loads reading the buffers as the case found them (or as an earlier store of the same case left them). -/

theorem hz2 : (![0, 0] : Fin 2 → Nat) = fun _ => 0 := funext fun a => by fin_cases a <;> rfl
theorem hz3 : (![0, 0, 0] : Fin 3 → Nat) = fun _ => 0 := funext fun a => by fin_cases a <;> rfl

/-- Last column tile above the diagonal: the block stored is the weighted sum divided by the denominator. -/
theorem stB_out (c : Dev nD) (t : Fin cfg1.N) (h1 : t.val % 4 = 1) (x0 x1 x2 : Vec F S1x1024x1024 .bf16) (s : St F) :
    (stB c t h1 x0 x1 x2 s).1 = k1_pay6 s.2.2.2 s.2.2.1 := by
  unfold stB; dsimp only
  rw [View.read_writes_eq_canon _ _ _ (coverB_3 c t h1 x0 x1 x2 _ _ _)]
  unfold kernelRun1_B
  dsimp only
  rw [View.canon_unit_zero hz3]
  simp only [View.readAt_eq_ld, (Memref.isWhole_whole _).read_unread, View.ld_unit_zero (S := S1024x1024) hz2, View.ld_unit_zero (S := S1024x1) hz2]

/-- First column tile: the running maximum, -/
theorem stA_m (c : Dev nD) (t : Fin cfg1.N) (h0 : t.val % 2 = 0) (x0 x1 x2 : Vec F S1x1024x1024 .bf16) :
    (stA c t h0 x0 x1 x2).2.1 = k1_pay5 (k1_pay9 (BitVec.ofNat 32 ((grid1.coords t) 1).val) (BitVec.ofNat 32 ((grid1.coords t) 2).val) x0 x1 k1_pay1) := by
  unfold stA; dsimp only
  rw [View.read_writes_eq_canon _ _ _ (scoverA_0 c t h0 x0 x1 x2)]
  unfold kernelRun1_A
  dsimp only
  sl_unfold_words
  rw [View.canon_cons_unit_zero (S := S1024x1) hz2]
  simp only [View.readAt_eq_ld, (Memref.isWhole_whole _).read_unread, (hs1_0 t).read_unread, (hs1_1 t).read_unread, (hs1_2 t).read_unread, (hs1_3 t).read_unread, View.ld_unit_zero (S := S1024x1024) hz2, View.ld_unit_zero (S := S1024x1) hz2, View.ld_unit_zero (S := S1x1024x1024) hz3]
  simp only [View.readCov_unit_zero (S := S1024x1) _ hz2]

/-- the running denominator, -/
theorem stA_l (c : Dev nD) (t : Fin cfg1.N) (h0 : t.val % 2 = 0) (x0 x1 x2 : Vec F S1x1024x1024 .bf16) :
    (stA c t h0 x0 x1 x2).2.2.1 = k1_pay12 (BitVec.ofNat 32 ((grid1.coords t) 1).val) (BitVec.ofNat 32 ((grid1.coords t) 2).val) x0 x1 k1_pay1 k1_pay2 := by
  unfold stA; dsimp only
  rw [View.read_writes_eq_canon _ _ _ (scoverA_1 c t h0 x0 x1 x2)]
  unfold kernelRun1_A
  dsimp only
  sl_unfold_words
  rw [View.canon_cons_unit_zero (S := S1024x1) hz2]
  simp only [View.readAt_eq_ld, (Memref.isWhole_whole _).read_unread, (hs1_0 t).read_unread, (hs1_1 t).read_unread, (hs1_2 t).read_unread, (hs1_3 t).read_unread, View.ld_unit_zero (S := S1024x1024) hz2, View.ld_unit_zero (S := S1024x1) hz2, View.ld_unit_zero (S := S1x1024x1024) hz3]
  simp only [View.readCov_unit_zero (S := S1024x1) _ hz2]

/-- and the running weighted sum. -/
theorem stA_acc (c : Dev nD) (t : Fin cfg1.N) (h0 : t.val % 2 = 0) (x0 x1 x2 : Vec F S1x1024x1024 .bf16) :
    (stA c t h0 x0 x1 x2).2.2.2 = k1_pay4 (k1_pay7 x2) (k1_pay10 (BitVec.ofNat 32 ((grid1.coords t) 1).val) (BitVec.ofNat 32 ((grid1.coords t) 2).val) x0 x1 k1_pay1) (k1_pay11 (BitVec.ofNat 32 ((grid1.coords t) 1).val) (BitVec.ofNat 32 ((grid1.coords t) 2).val) x0 x1 k1_pay1) k1_pay3 := by
  unfold stA; dsimp only
  rw [View.read_writes_eq_canon _ _ _ (scoverA_2 c t h0 x0 x1 x2)]
  unfold kernelRun1_A
  dsimp only
  sl_unfold_words
  rw [View.canon_cons_unit_zero (S := S1024x1024) hz2]
  simp only [View.readAt_eq_ld, (Memref.isWhole_whole _).read_unread, (hs1_0 t).read_unread, (hs1_1 t).read_unread, (hs1_2 t).read_unread, (hs1_3 t).read_unread, View.ld_unit_zero (S := S1024x1024) hz2, View.ld_unit_zero (S := S1024x1) hz2, View.ld_unit_zero (S := S1x1024x1024) hz3]
  simp only [View.readCov_unit_zero (S := S1024x1024) _ hz2, View.readCov_unit_zero (S := S1024x1) _ hz2]

/-- Last column tile on the diagonal: the running maximum, -/
theorem stC_m (c : Dev nD) (t : Fin cfg1.N) (h0 : ¬t.val % 2 = 0) (h1 : ¬t.val % 4 = 1) (x0 x1 x2 : Vec F S1x1024x1024 .bf16) (s : St F) :
    (stC c t h0 h1 x0 x1 x2 s).2.1 = k1_pay5 (k1_pay9 (BitVec.ofNat 32 ((grid1.coords t) 1).val) (BitVec.ofNat 32 ((grid1.coords t) 2).val) x0 x1 s.2.1) := by
  unfold stC; dsimp only
  rw [View.read_writes_eq_canon _ _ _ (scoverC_0 c t h0 h1 x0 x1 x2 _ _ _)]
  unfold kernelRun1_C
  dsimp only
  sl_unfold_words
  rw [View.canon_unit_zero hz2]
  simp only [View.readAt_eq_ld, (Memref.isWhole_whole _).read_unread, (hs1_0 t).read_unread, (hs1_1 t).read_unread, (hs1_2 t).read_unread, (hs1_3 t).read_unread, View.ld_unit_zero (S := S1024x1024) hz2, View.ld_unit_zero (S := S1024x1) hz2, View.ld_unit_zero (S := S1x1024x1024) hz3]

/-- the running denominator, -/
theorem stC_l (c : Dev nD) (t : Fin cfg1.N) (h0 : ¬t.val % 2 = 0) (h1 : ¬t.val % 4 = 1) (x0 x1 x2 : Vec F S1x1024x1024 .bf16) (s : St F) :
    (stC c t h0 h1 x0 x1 x2 s).2.2.1 = (k1_pay12 (BitVec.ofNat 32 ((grid1.coords t) 1).val) (BitVec.ofNat 32 ((grid1.coords t) 2).val) x0 x1 s.2.1 s.2.2.1) := by
  unfold stC; dsimp only
  rw [View.read_writes_eq_canon _ _ _ (scoverC_1 c t h0 h1 x0 x1 x2 _ _ _)]
  unfold kernelRun1_C
  dsimp only
  sl_unfold_words
  rw [View.canon_unit_zero hz2]
  simp only [View.readAt_eq_ld, (Memref.isWhole_whole _).read_unread, (hs1_0 t).read_unread, (hs1_1 t).read_unread, (hs1_2 t).read_unread, (hs1_3 t).read_unread, View.ld_unit_zero (S := S1024x1024) hz2, View.ld_unit_zero (S := S1024x1) hz2, View.ld_unit_zero (S := S1x1024x1024) hz3]

/-- the running weighted sum, -/
theorem stC_acc (c : Dev nD) (t : Fin cfg1.N) (h0 : ¬t.val % 2 = 0) (h1 : ¬t.val % 4 = 1) (x0 x1 x2 : Vec F S1x1024x1024 .bf16) (s : St F) :
    (stC c t h0 h1 x0 x1 x2 s).2.2.2 = (k1_pay4 (k1_pay7 x2) (k1_pay10 (BitVec.ofNat 32 ((grid1.coords t) 1).val) (BitVec.ofNat 32 ((grid1.coords t) 2).val) x0 x1 s.2.1) (k1_pay11 (BitVec.ofNat 32 ((grid1.coords t) 1).val) (BitVec.ofNat 32 ((grid1.coords t) 2).val) x0 x1 s.2.1) s.2.2.2) := by
  unfold stC; dsimp only
  rw [View.read_writes_eq_canon _ _ _ (scoverC_2 c t h0 h1 x0 x1 x2 _ _ _)]
  unfold kernelRun1_C
  dsimp only
  sl_unfold_words
  rw [View.canon_unit_zero hz2]
  simp only [View.readAt_eq_ld, (Memref.isWhole_whole _).read_unread, (hs1_0 t).read_unread, (hs1_1 t).read_unread, (hs1_2 t).read_unread, (hs1_3 t).read_unread, View.ld_unit_zero (S := S1024x1024) hz2, View.ld_unit_zero (S := S1024x1) hz2, View.ld_unit_zero (S := S1x1024x1024) hz3]

/-- and the block stored: the new weighted sum divided by the new denominator. -/
theorem stC_out (c : Dev nD) (t : Fin cfg1.N) (h0 : ¬t.val % 2 = 0) (h1 : ¬t.val % 4 = 1) (x0 x1 x2 : Vec F S1x1024x1024 .bf16) (s : St F) :
    (stC c t h0 h1 x0 x1 x2 s).1 = k1_pay6 (k1_pay4 (k1_pay7 x2) (k1_pay10 (BitVec.ofNat 32 ((grid1.coords t) 1).val) (BitVec.ofNat 32 ((grid1.coords t) 2).val) x0 x1 s.2.1) (k1_pay11 (BitVec.ofNat 32 ((grid1.coords t) 1).val) (BitVec.ofNat 32 ((grid1.coords t) 2).val) x0 x1 s.2.1) s.2.2.2) (k1_pay12 (BitVec.ofNat 32 ((grid1.coords t) 1).val) (BitVec.ofNat 32 ((grid1.coords t) 2).val) x0 x1 s.2.1 s.2.2.1) := by
  unfold stC; dsimp only
  rw [View.read_writes_eq_canon _ _ _ (coverC_3 c t h0 h1 x0 x1 x2 _ _ _)]
  unfold kernelRun1_C
  dsimp only
  sl_unfold_words
  rw [View.canon_unit_zero hz3]
  simp only [View.readAt_eq_ld, (Memref.isWhole_whole _).read_unread, (hs1_0 t).read_unread, (hs1_1 t).read_unread, (hs1_2 t).read_unread, (hs1_3 t).read_unread, View.ld_unit_zero (S := S1024x1024) hz2, View.ld_unit_zero (S := S1024x1) hz2, View.ld_unit_zero (S := S1x1024x1024) hz3]
  simp only [View.readCov_unit_zero (S := S1024x1024) _ hz2, View.readCov_unit_zero (S := S1024x1) _ hz2]

end Cert.KernelIdeal.Hand

end
-- ==== Proof.KBlocks1.lean ====
import proofs.«158006_j27814208209133_2_alg».proof.Proof.Gen.KernelIdeal.Launch
import proofs.«158006_j27814208209133_2_alg».proof.Proof.Gen.KernelIdeal.Skeleton
import proofs.«158006_j27814208209133_2_alg».proof.Proof.Gen.KernelIdeal.Points
import proofs.«158006_j27814208209133_2_alg».proof.Proof.KRun
import proofs.«158006_j27814208209133_2_alg».proof.Proof.KVal1
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

/-! # Where the attention region's blocks sit in its arrays

Point `t = 4·b + 2·qi + ki` of the grid reads rows `1024·qi …` of batch entry `b` of the first array, rows
`1024·min(ki, qi) …` of the second and third, and writes rows `1024·qi …` of the result. -/

section Blocks
variable (V : (c : Dev nD) → (b : Ref sig .tc) → Buf (Elt F) ((c : Thread nD τ).loc b))

theorem idx1_facts : ∀ t : Fin cfg1.N,
    win1_0.index t (0 : Fin 3) = t.val / 4 ∧ win1_0.index t (1 : Fin 3) = (t.val / 2) % 2 ∧ win1_0.index t (2 : Fin 3) = 0
    ∧ win1_1.index t (0 : Fin 3) = t.val / 4 ∧ win1_1.index t (1 : Fin 3) = min (t.val % 2) ((t.val / 2) % 2) ∧ win1_1.index t (2 : Fin 3) = 0
    ∧ win1_2.index t (0 : Fin 3) = t.val / 4 ∧ win1_2.index t (1 : Fin 3) = min (t.val % 2) ((t.val / 2) % 2) ∧ win1_2.index t (2 : Fin 3) = 0
    ∧ win1_3.index t (0 : Fin 3) = t.val / 4 ∧ win1_3.index t (1 : Fin 3) = (t.val / 2) % 2 ∧ win1_3.index t (2 : Fin 3) = 0 :=
  (by decide +kernel : ∀ t : Fin grid1.N, _)

theorem coords1_facts : ∀ t : Fin cfg1.N, ((grid1.coords t) 1).val = (t.val / 2) % 2 ∧ ((grid1.coords t) 2).val = t.val % 2 :=
  (by decide +kernel : ∀ t : Fin grid1.N, _)

theorem iblk1_0_at (c : Dev nD) (t : Fin cfg1.N) (b : Fin 4) (qi ki : Fin 2) (ht : t.val = 4 * b.val + 2 * qi.val + ki.val) (r d : Fin 1024) :
    iblk1 V c 0 t (ix3 (0 : Fin 1) r d) = V c main_v6 (ix3 b ⟨1024 * qi.val + r.val, by have := qi.isLt; have := r.isLt; omega⟩ d) := by
  unfold iblk1
  rw [View.read_apply]
  show V c main_v6 _ = _
  refine congrArg (V c main_v6) (funext fun a => Fin.ext ?_)
  obtain ⟨e0, e1, e2, -⟩ := idx1_facts t
  have := b.isLt; have := qi.isLt; have := ki.isLt
  match a with
  | ⟨0, _⟩ => show win1_0.index t (0 : Fin 3) * 1 + 1 * 0 = b.val; omega
  | ⟨1, _⟩ => show win1_0.index t (1 : Fin 3) * 1024 + 1 * r.val = 1024 * qi.val + r.val; omega
  | ⟨2, _⟩ => show win1_0.index t (2 : Fin 3) * 1024 + 1 * d.val = d.val; omega

theorem iblk1_1_at (c : Dev nD) (t : Fin cfg1.N) (b : Fin 4) (qi ki : Fin 2) (ht : t.val = 4 * b.val + 2 * qi.val + ki.val) (cc d : Fin 1024) :
    iblk1 V c 1 t (ix3 (0 : Fin 1) cc d) = V c main_v7 (ix3 b ⟨1024 * (min ki.val qi.val) + cc.val, by have := qi.isLt; have := ki.isLt; have := cc.isLt; omega⟩ d) := by
  unfold iblk1
  rw [View.read_apply]
  show V c main_v7 _ = _
  refine congrArg (V c main_v7) (funext fun a => Fin.ext ?_)
  obtain ⟨-, -, -, e0, e1, e2, -⟩ := idx1_facts t
  have := b.isLt; have := qi.isLt; have := ki.isLt
  match a with
  | ⟨0, _⟩ => show win1_1.index t (0 : Fin 3) * 1 + 1 * 0 = b.val; omega
  | ⟨1, _⟩ => show win1_1.index t (1 : Fin 3) * 1024 + 1 * cc.val = 1024 * (min ki.val qi.val) + cc.val; omega
  | ⟨2, _⟩ => show win1_1.index t (2 : Fin 3) * 1024 + 1 * d.val = d.val; omega

theorem iblk1_2_at (c : Dev nD) (t : Fin cfg1.N) (b : Fin 4) (qi ki : Fin 2) (ht : t.val = 4 * b.val + 2 * qi.val + ki.val) (cc d : Fin 1024) :
    iblk1 V c 2 t (ix3 (0 : Fin 1) cc d) = V c main_v8 (ix3 b ⟨1024 * (min ki.val qi.val) + cc.val, by have := qi.isLt; have := ki.isLt; have := cc.isLt; omega⟩ d) := by
  unfold iblk1
  rw [View.read_apply]
  show V c main_v8 _ = _
  refine congrArg (V c main_v8) (funext fun a => Fin.ext ?_)
  obtain ⟨-, -, -, -, -, -, e0, e1, e2, -⟩ := idx1_facts t
  have := b.isLt; have := qi.isLt; have := ki.isLt
  match a with
  | ⟨0, _⟩ => show win1_2.index t (0 : Fin 3) * 1 + 1 * 0 = b.val; omega
  | ⟨1, _⟩ => show win1_2.index t (1 : Fin 3) * 1024 + 1 * cc.val = 1024 * (min ki.val qi.val) + cc.val; omega
  | ⟨2, _⟩ => show win1_2.index t (2 : Fin 3) * 1024 + 1 * d.val = d.val; omega

end Blocks

end Cert.KernelIdeal.Hand

end
-- ==== Proof.LibMaxReduce.lean ====
/-
  Maxima at the extended reals, for any shapes.

  A float maximum-reduction over ONE axis started from -inf (the word 0xFF800000), read at a reduced index, is the
  supremum over that axis's coordinates of the operand at the index with the coordinate put back. It rests on two
  small facts: the word 0xFF800000 denotes -inf, the least extended real, and a fold of max started from the least
  element over a whole finite range is the supremum over the range.
-/
import Idealize.ShloMosaic.PureOps.Ideal.Laws
import Idealize.ShloMosaic.PureOps.Reduce

noncomputable section

open scoped BigOperators

namespace Cert.Lib.MaxReduce

open Idealize.ShloMosaic

/-- The f32 word 0xFF800000 denotes -inf. -/
theorem ofBits_neg_inf_f32 : Ideal.ofBits .f32 0xFF800000#32 = (⊥ : EReal) := by
  simp [Ideal.ofBits, Ideal.ieee]

/-- A fold of max started from -inf over all of a finite index range is the supremum over the range. -/
theorem fold_max_bot_eq_iSup {K : Nat} (f : Fin K → EReal) :
    (Finset.univ : Finset (Fin K)).fold max (⊥ : EReal) f = ⨆ k, f k := by
  rw [← Finset.sup_univ_eq_iSup]
  rfl

/-- The host's one-operand reduce with a maximum body over one axis, its initial value the -inf constant, at reduced
    index j: the supremum over that axis's coordinates k of the operand at j with k put back (`h'` is the host's
    shape fact, `h` the lane form of the same fact, which names the index with the coordinate put back). -/
theorem hostMaxReduce_single {s t u : Shape} {a : Fin s.rank} (x : FVec Ideal s .f32) (h' : s.ReducesTo [a] t)
    (h : s.Reduces [a] t) (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu]
  show (Finset.univ : Finset (Fin (s.size a))).fold max (Ideal.ofBits .f32 0xFF800000#32) (fun k => x (h.lift j k)) = _
  rw [ofBits_neg_inf_f32]
  exact fold_max_bot_eq_iSup _

end Cert.Lib.MaxReduce

end
-- ==== Proof.LibMaxLane.lean ====
/-
  A lane maximum at the extended reals, for any shapes.

  A kernel's float maximum-reduction over ONE axis started from -inf (the word 0xFF800000), read at a reduced index,
  is the supremum over that axis's coordinates of the operand at the index with the coordinate put back: the mirror,
  for the lane reduction, of the host's maximum and of the lane minimum. It rests on the same two facts: the word
  0xFF800000 denotes -inf, and a fold of max started from the least element over a whole finite range is the supremum.
-/
import Idealize.ShloMosaic.PureOps.Ideal.Laws
import Idealize.ShloMosaic.PureOps.Reduce
import proofs.«158006_j27814208209133_2_alg».proof.Proof.LibMaxReduce

noncomputable section

open scoped BigOperators

namespace Cert.Lib.MaxLane

open Idealize.ShloMosaic

/-- A kernel's lane maximum over one axis started from -inf, at reduced index j: the supremum over that axis's
    coordinates k of the operand at j with k put back (`h.lift j k`). The accumulator's proof is taken as the
    printed program spells it. -/
theorem maxReduce_single {s t : Shape} {a : Fin s.rank} (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j = ⨆ k : Fin (s.size a), src (h.lift j k) := by
  refine (Ideal.multiReduction_maximumf_single src 0xFF800000#32 h hφ hacc j).trans ?_
  show (Finset.univ : Finset (Fin (s.size a))).fold max (Ideal.ofBits .f32 0xFF800000#32) (fun k => src (h.lift j k)) = _
  rw [Cert.Lib.MaxReduce.ofBits_neg_inf_f32]
  exact Cert.Lib.MaxReduce.fold_max_bot_eq_iSup _

end Cert.Lib.MaxLane

end
-- ==== Proof.LibOneAxisDot.lean ====
/-
  A matrix product that contracts ONE axis, read at one output index, at the extended reals.

  Whatever the dimension numbers are (which axis of each operand is contracted, in which order the free axes
  appear in the result), once the contraction has a single axis of extent K the product's entry at an output
  index j is a sum over k < K of a left entry times a right entry: the left operand read at the index the
  dimension numbers assign to (j, k), the right operand likewise. The two families of operand indices are
  parameters here; each concrete product supplies them (for x · wᵀ they are (r, k) and (c, k), for x · w they
  are (r, k) and (k, c)). No finiteness is asked of any entry: only the index set of the sum is renamed.
-/
import Idealize.ShloMosaic.PureOps.Ideal.Laws
import Idealize.ShloMosaic.Lib.ValueIdx

noncomputable section

open scoped BigOperators

namespace Cert.Lib.OneAxisDot

open Idealize.ShloMosaic Idealize.ShloMosaic.ValueIdx

/-- The contraction's sum, indexed by the dimension numbers' own one-axis contraction index, is the sum over
    k < K of l(li k) · r(ri k), when li k and ri k are the operand indices at the k-th contraction index. -/
theorem contraction_sum_at {sl sr so : Shape} (d : DotDims sl sr so) (K : Nat) (hr : d.contr.rank = 1)
    (hs : d.contr.size ⟨0, by omega⟩ = K) (l : sl.Idx → EReal) (r : sr.Idx → EReal) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    ∑ q : d.contr.Idx, l (d.lhsIdx j q) * r (d.rhsIdx j q) = ∑ k : Fin K, l (li k) * r (ri k) := by
  rw [← Equiv.sum_comp (contrEquiv1 d K hr hs).symm]
  exact Finset.sum_congr rfl fun k _ => by rw [hl k, hrr k]

/-- A matrix unit's product accumulated into the zero matrix, at output index j: the zero adds nothing, and the
    rest is the contraction's sum. -/
theorem matmul_zero_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    matmul d prec l r (constant so .f32 0x00000000#32) j = ∑ k : Fin K, l (li k) * r (ri k) :=
  (Ideal.matmul_constant_zero_apply d prec l r j).trans (contraction_sum_at d K hr hs l r j li ri hl hrr)

/-- The host's dot_general at output index j: the same sum, with no accumulator. -/
theorem dotGeneral_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    Host.dotGeneral d prec l r j = ∑ k : Fin K, l (li k) * r (ri k) :=
  (Ideal.dotGeneral_apply d prec .single l r j).trans (contraction_sum_at d K hr hs l r j li ri hl hrr)

end Cert.Lib.OneAxisDot

end
-- ==== Proof.LibDotFreeAxis.lean ====
/-
  The free (non-contracted, non-batch) axes of a matrix product's operand indices.

  A product's dimension numbers say, for every axis of each operand, where its coordinate comes from: a free axis of
  the left operand reads the output index at the axis's place among the left free axes (after the batch axes), a free
  axis of the right operand reads it after all of the left operand's. With no batch axes and one free axis on each
  side, the left operand's free coordinate is the output's coordinate 0 and the right operand's is the output's
  coordinate 1, whatever the contraction position is. These are the companions, for the free axes, of the
  library's statements about the single contracted axis.
-/
import Idealize.ShloMosaic.PureOps.Dims

namespace Cert.Lib.DotFreeAxis

open Idealize.ShloMosaic

variable {sl sr so : Shape} (d : DotDims sl sr so)

/-- No batch axes, one left free axis a: the left operand's coordinate on a is the output's coordinate 0. -/
theorem lhsIdx_val_of_free {a : Fin sl.rank} (hb : d.lhsBatch = []) (hn : d.lhsNonContracting = [a])
    (h0 : 0 < so.rank) (j : so.Idx) (k : d.contr.Idx) :
    (d.lhsIdx j k a).val = (j ⟨0, h0⟩).val := by
  have h1 : a ∉ d.lhsBatch := by rw [hb]; exact List.not_mem_nil
  have h2 : a ∈ d.lhsNonContracting := by rw [hn]; exact List.mem_singleton.mpr rfl
  unfold DotDims.lhsIdx
  rw [dif_neg h1, dif_pos h2]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- No batch axes, one free axis on each side: the right operand's coordinate on its free axis a is the output's
    coordinate 1. -/
theorem rhsIdx_val_of_free {a : Fin sr.rank} {a' : Fin sl.rank} (hb : d.lhsBatch = []) (hb' : d.rhsBatch = [])
    (hn' : d.lhsNonContracting = [a']) (hn : d.rhsNonContracting = [a])
    (h1 : 1 < so.rank) (j : so.Idx) (k : d.contr.Idx) :
    (d.rhsIdx j k a).val = (j ⟨1, h1⟩).val := by
  have h2 : a ∉ d.rhsBatch := by rw [hb']; exact List.not_mem_nil
  have h3 : a ∈ d.rhsNonContracting := by rw [hn]; exact List.mem_singleton.mpr rfl
  unfold DotDims.rhsIdx
  rw [dif_neg h2, dif_pos h3]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn', hn])

end Cert.Lib.DotFreeAxis
-- ==== Proof.LibKeepdimsColumn.lean ====
/-
  A per-row quantity carried back to a matrix's shape through a column.

  A reduction along the columns of an [a, b] matrix leaves a vector of a numbers, one per row. To combine it with the
  matrix again it is reshaped to an [a, 1] column and broadcast along the columns to [a, b]. Entry (p, q) of the
  result is the p-th number, whatever q: the reshape keeps the row-major position p, and the broadcast reads the
  column's only entry of row p. Stated for any extents a and b and any element type; nothing is computed.
-/
import Idealize.ShloMosaic.Lib.Pipeline.Value
import Idealize.ShloMosaic.Lib.ValueIdx

noncomputable section

namespace Cert.Lib.KeepdimsColumn

open Idealize.ShloMosaic Idealize.ShloMosaic.ValueIdx

/-- The [a] → [a, 1] reshape, entry (p, 0): the p-th number. -/
theorem column_cast_at {α : Type} {a : Nat} (u : (⟨1, ![a]⟩ : Shape).Idx → α)
    (h : (⟨1, ![a]⟩ : Shape).ShapeCasts ⟨2, ![a, 1]⟩) (p : Fin a) :
    shapeCast ⟨2, ![a, 1]⟩ u h (ix2 (n0 := a) (n1 := 1) p ⟨0, Nat.one_pos⟩) = u (ix1 p) :=
  shapeCast_apply u h _ (ix1 p) (by
    rw [Shape.rowMajor_val_one, Shape.rowMajor_val_two]
    show p.val = p.val * 1 + 0
    omega)

/-- The [a, 1] → [a, b] broadcast, entry (p, q): the column's entry of row p. -/
theorem column_broadcast_at {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 (n0 := a) (n1 := 1) p ⟨0, Nat.one_pos⟩) :=
  broadcastTo_apply v h (ix2 p q) _ (fun d => by
    match d with
    | ⟨0, _⟩ =>
      show p.val = if a = 1 then 0 else p.val
      split
      · have := p.isLt; omega
      · rfl
    | ⟨1, _⟩ =>
      show 0 = if (1 : Nat) = 1 then 0 else q.val
      rw [if_pos rfl])

/-- Both together: a vector of a numbers turned into a column and broadcast along the columns reads, at (p, q), the
    p-th number. -/
theorem column_at {α : Type} {a b : Nat} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) :=
  (column_broadcast_at _ hb p q).trans (column_cast_at u hc p)

end Cert.Lib.KeepdimsColumn

end
-- ==== Proof.LibSignedIndex.lean ====
/-
  32-bit indices read as signed integers: the facts a program that indexes with `x[idx]` or `x.at[idx]` leaves to prove.

  Such a program first wraps a negative index by adding the axis extent (select (idx < 0) (idx + extent) idx), and
  often masks an index to a range before using it (select (0 ≤ idx ∧ idx < bound) idx 0). Here, for 32-bit words:
    * a small natural number n (n < 2³¹) as a 32-bit word reads back, signed, as n; and a word equals it exactly when
      the word's signed reading is n;
    * the wrap leaves an index that is not negative alone, whatever the extent;
    * an index masked to [0, bound) — kept when in range, replaced by 0 otherwise — is never negative, whatever the bound.
-/
import Idealize.ShloMosaic.PureOps.Ideal

namespace Cert.Lib.SignedIndex

open Idealize.ShloMosaic

/-- A word is the natural number n < 2³¹ exactly when its signed reading is n. -/
theorem ofNat_eq_iff_toInt (v : BitVec 32) (n : Nat) (hn : n < 2147483648) : (BitVec.ofNat 32 n = v) ↔ v.toInt = (n : Int) := by
  have hc := BitVec.toInt_eq_toNat_cond v
  have hlt := v.isLt
  constructor
  · rintro rfl
    rw [hc, BitVec.toNat_ofNat, Nat.mod_eq_of_lt (by omega)]
    rw [if_pos (by omega)]
  · intro h
    apply BitVec.eq_of_toNat_eq
    rw [BitVec.toNat_ofNat, Nat.mod_eq_of_lt (by omega)]
    split_ifs at hc <;> omega

/-- The natural number n < 2³¹ as a word reads back, signed, as n. -/
theorem toInt_ofNat_small (n : Nat) (hn : n < 2147483648) : (BitVec.ofNat 32 n).toInt = (n : Int) :=
  (ofNat_eq_iff_toInt _ n hn).1 rfl

/-- Wrapping a negative index by the extent c does nothing to an index that is not negative. -/
theorem wrap_of_nonneg (v c : BitVec 32) (h : 0 ≤ v.toInt) :
    Scalar.select (IntOp.cmpi .slt v 0#32) (IntOp.addi v c) v = v := by
  have : IntOp.cmpi .slt v 0#32 = 0#1 := by
    simp only [IntOp.cmpi, BitVec.slt]
    have : ¬ v.toInt < 0 := by omega
    simp [this]
  rw [this]; rfl

/-- An index masked to [0, c) — itself when 0 ≤ v and v < c (signed), else 0 — is never negative. -/
theorem masked_nonneg (v c : BitVec 32) :
    0 ≤ (Scalar.select (IntOp.andi (IntOp.cmpi .sge v 0#32) (IntOp.cmpi .slt v c)) v 0#32).toInt := by
  unfold Scalar.select
  split
  · rename_i h
    simp only [IntOp.andi, IntOp.cmpi, BitVec.sle, BitVec.slt] at h
    by_cases h1 : 0 ≤ v.toInt
    · exact h1
    · simp [h1] at h
  · decide

end Cert.Lib.SignedIndex
-- ==== Proof.KPay.lean ====
/-
  The two kernel bodies' stored values, read at an index, at the extended reals.

  The attention body: the masked product of a row block against a column block, its running maximum, the two
  rescaling factors, the running denominator and the running weighted sum, the final division. The projection
  body: a slice of x · wᵀ + b, the first one scaled.
-/
import proofs.«158006_j27814208209133_2_alg».proof.Proof.Gen.KernelIdeal.Skeleton
import proofs.«158006_j27814208209133_2_alg».proof.Proof.LibMaxLane
import proofs.«158006_j27814208209133_2_alg».proof.Proof.LibOneAxisDot
import proofs.«158006_j27814208209133_2_alg».proof.Proof.LibDotFreeAxis
import proofs.«158006_j27814208209133_2_alg».proof.Proof.LibKeepdimsColumn
import proofs.«158006_j27814208209133_2_alg».proof.Proof.LibSignedIndex
import Idealize.ShloMosaic.Lib.Pipeline.Value
import Idealize.ShloMosaic.Lib.ValueLayout
import Idealize.ShloMosaic.Lib.ValueIdx
import Idealize.ShloMosaic.PureOps.Ideal.Laws
import Idealize.ShloMosaic.PureOps.IdealRules

noncomputable section

open scoped BigOperators

namespace Cert.KernelIdeal.KPay

open Cert.KernelIdeal Cert.KernelIdeal.Gen Idealize.ShloMosaic Idealize.ShloMosaic.ValueIdx

/-! ## Words: block offset plus position -/

/-- Block number times 1024 plus a position, computed on 32-bit words, is the word of the number. -/
theorem word_eq (k c : ℕ) :
    IntOp.addi (Scalar.muli (BitVec.ofNat 32 k) 1024#32) (BitVec.ofNat 32 c) = BitVec.ofNat 32 (1024 * k + c) := by
  show BitVec.ofNat 32 k * 1024#32 + BitVec.ofNat 32 c = _
  rw [show (1024#32 : BitVec 32) = BitVec.ofNat 32 1024 from rfl, ← BitVec.ofNat_mul, ← BitVec.ofNat_add, Nat.mul_comm]

/-- The signed comparison of two such words, for block numbers below 2 and positions below 1024, is the
    comparison of the numbers. -/
theorem causal_word (qi ki : ℕ) (hq : qi < 2) (hk : ki < 2) (r cc : Fin 1024) :
    IntOp.cmpi .sle (IntOp.addi (Scalar.muli (BitVec.ofNat 32 ki) 1024#32) (BitVec.ofNat 32 cc.val))
        (IntOp.addi (Scalar.muli (BitVec.ofNat 32 qi) 1024#32) (BitVec.ofNat 32 r.val))
      = if 1024 * ki + cc.val ≤ 1024 * qi + r.val then 1#1 else 0#1 := by
  rw [word_eq, word_eq]
  have h1 := Cert.Lib.SignedIndex.toInt_ofNat_small (1024 * ki + cc.val) (by omega)
  have h2 := Cert.Lib.SignedIndex.toInt_ofNat_small (1024 * qi + r.val) (by omega)
  simp only [IntOp.cmpi, BitVec.sle, h1, h2]
  by_cases h : 1024 * ki + cc.val ≤ 1024 * qi + r.val
  · have h' : ((1024 * ki + cc.val : ℕ) : Int) ≤ ((1024 * qi + r.val : ℕ) : Int) := Int.ofNat_le.2 h
    rw [if_pos h, decide_eq_true h']; rfl
  · have h' : ¬ ((1024 * ki + cc.val : ℕ) : Int) ≤ ((1024 * qi + r.val : ℕ) : Int) := fun hh => h (Int.ofNat_le.1 hh)
    rw [if_neg h, decide_eq_false h']; rfl

/-! ## The row-by-row product x · yᵀ -/

/-- The product contracting the second axis of both operands, into the zero matrix, at (p, q). -/
theorem matmul_nt_apply (l r : FVec Ideal S1024x1024 .bf16) (p q : Fin 1024) :
    matmul dot_S1024x1024_S1024x1024_S1024x1024_1_1_0_0_n_n none l r (constant (F := Ideal) S1024x1024 .f32 0x00000000#32) (ix2 p q)
      = ∑ k : Fin 1024, l (ix2 p k) * r (ix2 q k) :=
  Cert.Lib.OneAxisDot.matmul_zero_apply_at dot_S1024x1024_S1024x1024_S1024x1024_1_1_0_0_n_n 1024 rfl rfl none l r (ix2 p q)
    (fun k => ix2 p k) (fun k => ix2 q k)
    (fun k => funext fun a => Fin.ext (by
      match a with
      | ⟨0, _⟩ => exact Cert.Lib.DotFreeAxis.lhsIdx_val_of_free _ rfl rfl (by decide) _ _
      | ⟨1, _⟩ => exact (DotDims.lhsIdx_val_of_single _ rfl _ _).trans (contrEquiv1_symm_val _ 1024 rfl rfl k)))
    (fun k => funext fun a => Fin.ext (by
      match a with
      | ⟨0, _⟩ => exact Cert.Lib.DotFreeAxis.rhsIdx_val_of_free _ rfl rfl rfl rfl (by decide) _ _
      | ⟨1, _⟩ => exact (DotDims.rhsIdx_val_of_single _ rfl _ _).trans (contrEquiv1_symm_val _ 1024 rfl rfl k)))

/-! ## The attention body -/

/-- The value the mask puts above the diagonal is -∞. -/
theorem neg_big : Named.named (F := Ideal) κ "neg_big" (φ := .f32) 0xFF333332#32 = (⊥ : EReal) :=
  IdealRules.named_const.ideal_named_scalar _ _ _ _ rfl

/-- The masked product at (r, cc): inside the causal region the dot product of row r of the first block with
    row cc of the second, outside it -∞. -/
theorem pay8_eq (qi ki : ℕ) (hq : qi < 2) (hk : ki < 2) (kb qb : Vec Ideal S1x1024x1024 .bf16) (r cc : Fin 1024) :
    k1_pay8 (F := Ideal) (BitVec.ofNat 32 qi) (BitVec.ofNat 32 ki) kb qb (ix2 r cc)
      = if 1024 * ki + cc.val ≤ 1024 * qi + r.val then ∑ d : Fin 1024, kb (ix3 0 r d) * qb (ix3 0 cc d) else ⊥ := by
  unfold k1_pay8
  show Scalar.select (IntOp.cmpi .sle
        (IntOp.addi (Scalar.muli (BitVec.ofNat 32 ki) 1024#32) (iota .tc S1024x1024 32 [1] iota_S1024x1024_d1_w32 (ix2 r cc)))
        (IntOp.addi (Scalar.muli (BitVec.ofNat 32 qi) 1024#32) (iota .tc S1024x1024 32 [0] iota_S1024x1024_d0_w32 (ix2 r cc))))
      (matmul dot_S1024x1024_S1024x1024_S1024x1024_1_1_0_0_n_n none
        (shapeCast S1024x1024 kb shapeCasts_S1x1024x1024_S1024x1024) (shapeCast S1024x1024 qb shapeCasts_S1x1024x1024_S1024x1024)
        (constant (F := Ideal) S1024x1024 .f32 0x00000000#32) (ix2 r cc))
      (Named.named (F := Ideal) κ "neg_big" (φ := .f32) 0xFF333332#32) = _
  rw [iota_single_apply, iota_single_apply, matmul_nt_apply, neg_big]
  show Scalar.select (IntOp.cmpi .sle
        (IntOp.addi (Scalar.muli (BitVec.ofNat 32 ki) 1024#32) (BitVec.ofNat 32 cc.val))
        (IntOp.addi (Scalar.muli (BitVec.ofNat 32 qi) 1024#32) (BitVec.ofNat 32 r.val))) _ _ = _
  rw [causal_word qi ki hq hk]
  simp only [shapeCast_1ab_ab_apply]
  by_cases h : 1024 * ki + cc.val ≤ 1024 * qi + r.val
  · rw [if_pos h, if_pos h, select_one]
  · rw [if_neg h, if_neg h, select_zero]

/-- Row r of a 1024 × 1024 block with the column c put back is (r, c). -/
theorem lift_row {h : S1024x1024.Reduces [1] S1024} (r : Fin 1024) (c : Fin (S1024x1024.size 1)) :
    h.lift (ix1 r) c = ix2 r (c : Fin 1024) :=
  funext fun a => Fin.ext (by match a with | ⟨0, _⟩ => rfl | ⟨1, _⟩ => rfl)

/-- A row's lane maximum from -∞ is the supremum of the row. -/
theorem rowmax_at (src : FVec Ideal S1024x1024 .f32) (h : S1024x1024.Reduces [1] S1024) (hφ : FKind.Formats .f32)
    (hacc : (0xFF800000#32 : BitVec 32) = FKind.maximumf.neutral .f32 hφ) (r : Fin 1024) :
    multiReduction .maximumf [1] S1024 src 0xFF800000#32 h hφ hacc (ix1 r) = ⨆ c : Fin 1024, src (ix2 r c) :=
  (Cert.Lib.MaxLane.maxReduce_single src h hφ hacc (ix1 r)).trans
    (iSup_congr fun k => congrArg src (lift_row r k))

/-- A row's lane sum from zero is the sum of the row. -/
theorem rowsum_at (src : FVec Ideal S1024x1024 .f32) (h : S1024x1024.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ c : Fin 1024, src (ix2 r c) :=
  (Ideal.multiReduction_add_single src 0x00000000#32 h hφ hacc (ix1 r)).trans
    (Finset.sum_congr rfl fun k _ => congrArg src (lift_row r k))

/-- The new running maximum of row r: the old one against the supremum of the row's masked products. -/
theorem pay9_eq (a1 a2 : BitVec 32) (kb qb : Vec Ideal S1x1024x1024 .bf16) (m0 : Vec Ideal S1024x1 .f32) (r : Fin 1024) :
    k1_pay9 (F := Ideal) a1 a2 kb qb m0 (ix2 r 0)
      = max (m0 (ix2 r 0)) (⨆ cc : Fin 1024, k1_pay8 (F := Ideal) a1 a2 kb qb (ix2 r cc)) := by
  unfold k1_pay9
  exact congrArg (max (m0 (ix2 r 0)))
    ((Cert.Lib.KeepdimsColumn.column_cast_at _ _ r).trans (rowmax_at _ _ _ _ r))

/-- The factor the earlier state of row r is rescaled by. -/
theorem pay10_eq (a1 a2 : BitVec 32) (kb qb : Vec Ideal S1x1024x1024 .bf16) (m0 : Vec Ideal S1024x1 .f32) (r : Fin 1024) :
    k1_pay10 (F := Ideal) a1 a2 kb qb m0 (ix2 r 0)
      = Ideal.exp (m0 (ix2 r 0) - k1_pay9 (F := Ideal) a1 a2 kb qb m0 (ix2 r 0)) := rfl

/-- The weight of (r, cc) against the new running maximum of row r. -/
theorem pay11_eq (a1 a2 : BitVec 32) (kb qb : Vec Ideal S1x1024x1024 .bf16) (m0 : Vec Ideal S1024x1 .f32) (r cc : Fin 1024) :
    k1_pay11 (F := Ideal) a1 a2 kb qb m0 (ix2 r cc)
      = Ideal.exp (k1_pay8 (F := Ideal) a1 a2 kb qb (ix2 r cc) - k1_pay9 (F := Ideal) a1 a2 kb qb m0 (ix2 r 0)) := by
  unfold k1_pay11
  exact congrArg (fun z => Ideal.exp (k1_pay8 (F := Ideal) a1 a2 kb qb (ix2 r cc) - z))
    (Cert.Lib.KeepdimsColumn.column_broadcast_at _ _ r cc)

/-- The new running denominator of row r. -/
theorem pay12_eq (a1 a2 : BitVec 32) (kb qb : Vec Ideal S1x1024x1024 .bf16) (m0 l0 : Vec Ideal S1024x1 .f32) (r : Fin 1024) :
    k1_pay12 (F := Ideal) a1 a2 kb qb m0 l0 (ix2 r 0)
      = k1_pay10 (F := Ideal) a1 a2 kb qb m0 (ix2 r 0) * l0 (ix2 r 0)
        + ∑ cc : Fin 1024, k1_pay11 (F := Ideal) a1 a2 kb qb m0 (ix2 r cc) := by
  unfold k1_pay12
  refine (congrFun (shapeCast_self _ _) (ix2 r 0)).trans ?_
  exact congrArg (fun z => k1_pay10 (F := Ideal) a1 a2 kb qb m0 (ix2 r 0) * l0 (ix2 r 0) + z)
    ((Cert.Lib.KeepdimsColumn.column_cast_at _ _ r).trans (rowsum_at _ _ _ _ r))

/-! ## The product x · y and the weighted sum -/

/-- The product contracting the second axis of the left operand with the first of the right, into the zero
    matrix, at (p, q). -/
theorem matmul_nn_apply (l r : FVec Ideal S1024x1024 .bf16) (p q : Fin 1024) :
    matmul dot_S1024x1024_S1024x1024_S1024x1024_1_0_0_1_n_n none l r (constant (F := Ideal) S1024x1024 .f32 0x00000000#32) (ix2 p q)
      = ∑ k : Fin 1024, l (ix2 p k) * r (ix2 k q) :=
  Cert.Lib.OneAxisDot.matmul_zero_apply_at dot_S1024x1024_S1024x1024_S1024x1024_1_0_0_1_n_n 1024 rfl rfl none l r (ix2 p q)
    (fun k => ix2 p k) (fun k => ix2 k q)
    (fun k => funext fun a => Fin.ext (by
      match a with
      | ⟨0, _⟩ => exact Cert.Lib.DotFreeAxis.lhsIdx_val_of_free _ rfl rfl (by decide) _ _
      | ⟨1, _⟩ => exact (DotDims.lhsIdx_val_of_single _ rfl _ _).trans (contrEquiv1_symm_val _ 1024 rfl rfl k)))
    (fun k => funext fun a => Fin.ext (by
      match a with
      | ⟨0, _⟩ => exact (DotDims.rhsIdx_val_of_single _ rfl _ _).trans (contrEquiv1_symm_val _ 1024 rfl rfl k)
      | ⟨1, _⟩ => exact Cert.Lib.DotFreeAxis.rhsIdx_val_of_free _ rfl rfl rfl rfl (by decide) _ _))

/-- The new running weighted sum at (r, d): the old one rescaled by the row's factor plus the weights against
    the value block. -/
theorem pay4_eq (v18 : FVec Ideal S1024x1024 .bf16) (v36 : FVec Ideal S1024x1 .f32) (v39 : FVec Ideal S1024x1024 .f32)
    (v48 : Vec Ideal S1024x1024 .f32) (r d : Fin 1024) :
    k1_pay4 (F := Ideal) v18 v36 v39 v48 (ix2 r d)
      = v36 (ix2 r 0) * v48 (ix2 r d) + ∑ cc : Fin 1024, v39 (ix2 r cc) * v18 (ix2 cc d) := by
  unfold k1_pay4
  refine (congrFun (shapeCast_self _ _) (ix2 r d)).trans ?_
  show broadcastTo S1024x1024 v36 broadcasts_S1024x1_S1024x1024 (ix2 r d) * v48 (ix2 r d)
      + matmul dot_S1024x1024_S1024x1024_S1024x1024_1_0_0_1_n_n none (truncf .bf16 v39 bitsLt_bf16_f32) v18
          (constant (F := Ideal) S1024x1024 .f32 0x00000000#32) (ix2 r d) = _
  rw [Cert.Lib.KeepdimsColumn.column_broadcast_at, matmul_nn_apply]
  rfl

/-- The final division at (0, r, d). -/
theorem pay6_eq (acc : Vec Ideal S1024x1024 .f32) (l : Vec Ideal S1024x1 .f32) (r d : Fin 1024) :
    k1_pay6 (F := Ideal) acc l (ix3 0 r d) = Ideal.div (acc (ix2 r d)) (l (ix2 r 0)) := by
  unfold k1_pay6
  refine (shapeCast_ab_1ab_apply _ _ 0 r d).trans ?_
  exact congrArg (fun z => Ideal.div (acc (ix2 r d)) z) (Cert.Lib.KeepdimsColumn.column_broadcast_at _ _ r d)

/-! ## The re-laid blocks and the starting values -/

/-- The value block viewed as a matrix. -/
theorem pay7_eq (vb : Vec Ideal S1x1024x1024 .bf16) (cc d : Fin 1024) :
    k1_pay7 (F := Ideal) vb (ix2 cc d) = vb (ix3 0 cc d) := by
  unfold k1_pay7
  exact shapeCast_1ab_ab_apply _ _ cc d

/-- The stored running maximum is the computed one. -/
theorem pay5_eq (v34 : FVec Ideal S1024x1 .f32) : k1_pay5 (F := Ideal) v34 = v34 := by
  unfold k1_pay5
  exact shapeCast_self _ _

/-- The running maximum starts at -∞. -/
theorem pay1_eq (r : Fin 1024) : k1_pay1 (F := Ideal) (ix2 r 0) = (⊥ : EReal) := by
  unfold k1_pay1
  refine (congrFun (shapeCast_self _ _) (ix2 r 0)).trans ?_
  exact Cert.Lib.MaxReduce.ofBits_neg_inf_f32

/-- The running denominator starts at zero. -/
theorem pay2_eq (r : Fin 1024) : k1_pay2 (F := Ideal) (ix2 r 0) = (0 : EReal) := by
  unfold k1_pay2
  refine (congrFun (shapeCast_self _ _) (ix2 r 0)).trans ?_
  exact Ideal.ofBits_zero_f32

/-- The running weighted sum starts at zero. -/
theorem pay3_eq (r d : Fin 1024) : k1_pay3 (F := Ideal) (ix2 r d) = (0 : EReal) := by
  unfold k1_pay3
  refine (congrFun (shapeCast_self _ _) (ix2 r d)).trans ?_
  exact Ideal.ofBits_zero_f32

/-! ## The projection body -/

/-- x · wᵀ for a 512-row block against the stacked weights, into the zero matrix, at (p, q). -/
theorem matmul_proj_apply (l : FVec Ideal S512x1024 .bf16) (r : FVec Ideal S3072x1024 .bf16) (p : Fin 512) (q : Fin 3072) :
    matmul dot_S512x1024_S3072x1024_S512x3072_1_1_0_0_n_n none l r (constant (F := Ideal) S512x3072 .f32 0x00000000#32) (ix2 p q)
      = ∑ k : Fin 1024, l (ix2 p k) * r (ix2 q k) :=
  Cert.Lib.OneAxisDot.matmul_zero_apply_at dot_S512x1024_S3072x1024_S512x3072_1_1_0_0_n_n 1024 rfl rfl none l r (ix2 p q)
    (fun k => ix2 p k) (fun k => ix2 q k)
    (fun k => funext fun a => Fin.ext (by
      match a with
      | ⟨0, _⟩ => exact Cert.Lib.DotFreeAxis.lhsIdx_val_of_free _ rfl rfl (by decide) _ _
      | ⟨1, _⟩ => exact (DotDims.lhsIdx_val_of_single _ rfl _ _).trans (contrEquiv1_symm_val _ 1024 rfl rfl k)))
    (fun k => funext fun a => Fin.ext (by
      match a with
      | ⟨0, _⟩ => exact Cert.Lib.DotFreeAxis.rhsIdx_val_of_free _ rfl rfl rfl rfl (by decide) _ _
      | ⟨1, _⟩ => exact (DotDims.rhsIdx_val_of_single _ rfl _ _).trans (contrEquiv1_symm_val _ 1024 rfl rfl k)))

/-- The bias row broadcast down the 512 rows reads, at (p, q), the row's entry q. -/
theorem row_broadcast_at {α : Type} (v : S1x3072.Idx → α) (h : S1x3072.Broadcasts S512x3072) (p : Fin 512) (q : Fin 3072) :
    broadcastTo S512x3072 v h (ix2 p q) = v (ix2 (0 : Fin 1) q) :=
  broadcastTo_apply v h (ix2 p q) _ (fun d => by
    match d with
    | ⟨0, _⟩ =>
      show 0 = if (1 : Nat) = 1 then 0 else p.val
      rw [if_pos rfl]
    | ⟨1, _⟩ =>
      show q.val = if (3072 : Nat) = 1 then 0 else q.val
      rw [if_neg (by decide)])

/-- The three stacked linear layers at (rr, g). -/
theorem k0_pay1_eq (x0 : Vec Ideal S512x1024 .f32) (w : Vec Ideal S3072x1024 .bf16) (bb : Vec Ideal S1x3072 .f32)
    (rr : Fin 512) (g : Fin 3072) :
    k0_pay1 (F := Ideal) x0 w bb (ix2 rr g) = (∑ e : Fin 1024, x0 (ix2 rr e) * w (ix2 g e)) + bb (ix2 0 g) := by
  unfold k0_pay1
  show matmul dot_S512x1024_S3072x1024_S512x3072_1_1_0_0_n_n none
        (truncf .bf16 (shapeCast S512x1024 x0 shapeCasts_S512x1024_S512x1024) bitsLt_bf16_f32)
        (shapeCast S3072x1024 w shapeCasts_S3072x1024_S3072x1024) (constant (F := Ideal) S512x3072 .f32 0x00000000#32) (ix2 rr g)
      + broadcastTo S512x3072 (shapeCast S1x3072 bb shapeCasts_S1x3072_S1x3072) broadcasts_S1x3072_S512x3072 (ix2 rr g) = _
  rw [matmul_proj_apply, row_broadcast_at, shapeCast_self, shapeCast_self, shapeCast_self]
  rfl

/-- The first stored slice at (rr, f): the first layer, scaled by 1/32. -/
theorem k0_pay2_eq (x0 : Vec Ideal S512x1024 .f32) (w : Vec Ideal S3072x1024 .bf16) (bb : Vec Ideal S1x3072 .f32)
    (rr : Fin 512) (f : Fin 1024) :
    k0_pay2 (F := Ideal) x0 w bb (ix2 rr f)
      = ((∑ e : Fin 1024, x0 (ix2 rr e) * w (ix2 (⟨f.val, by omega⟩ : Fin 3072) e)) + bb (ix2 0 (⟨f.val, by omega⟩ : Fin 3072)))
        * Ideal.ofBits .f32 0x3D000000#32 := by
  unfold k0_pay2
  show extractStridedSlice S512x1024 ![0, 0] (k0_pay1 (F := Ideal) x0 w bb) slices_S512x3072_o0_0_S512x1024 (ix2 rr f)
      * Ideal.ofBits .f32 0x3D000000#32 = _
  rw [slice2_axis1_apply 0 _ _ rr f (⟨f.val, by omega⟩ : Fin 3072) (by simp), k0_pay1_eq]

/-- The second stored slice at (rr, f): the second layer. -/
theorem k0_pay3_eq (x0 : Vec Ideal S512x1024 .f32) (w : Vec Ideal S3072x1024 .bf16) (bb : Vec Ideal S1x3072 .f32)
    (rr : Fin 512) (f : Fin 1024) :
    k0_pay3 (F := Ideal) x0 w bb (ix2 rr f)
      = (∑ e : Fin 1024, x0 (ix2 rr e) * w (ix2 (⟨1024 + f.val, by omega⟩ : Fin 3072) e))
        + bb (ix2 0 (⟨1024 + f.val, by omega⟩ : Fin 3072)) := by
  unfold k0_pay3
  show extractStridedSlice S512x1024 ![0, 1024] (k0_pay1 (F := Ideal) x0 w bb) slices_S512x3072_o0_1024_S512x1024 (ix2 rr f) = _
  rw [slice2_axis1_apply 1024 _ _ rr f (⟨1024 + f.val, by omega⟩ : Fin 3072) rfl, k0_pay1_eq]

/-- The third stored slice at (rr, f): the third layer. -/
theorem k0_pay4_eq (x0 : Vec Ideal S512x1024 .f32) (w : Vec Ideal S3072x1024 .bf16) (bb : Vec Ideal S1x3072 .f32)
    (rr : Fin 512) (f : Fin 1024) :
    k0_pay4 (F := Ideal) x0 w bb (ix2 rr f)
      = (∑ e : Fin 1024, x0 (ix2 rr e) * w (ix2 (⟨2048 + f.val, by omega⟩ : Fin 3072) e))
        + bb (ix2 0 (⟨2048 + f.val, by omega⟩ : Fin 3072)) := by
  unfold k0_pay4
  show extractStridedSlice S512x1024 ![0, 2048] (k0_pay1 (F := Ideal) x0 w bb) slices_S512x3072_o0_2048_S512x1024 (ix2 rr f) = _
  rw [slice2_axis1_apply 2048 _ _ rr f (⟨2048 + f.val, by omega⟩ : Fin 3072) rfl, k0_pay1_eq]

end Cert.KernelIdeal.KPay

end
-- ==== Proof.Spec.lean ====
/-
  The mathematics of the certificate, with no program in sight: causal single-head attention
  over one batch entry, written twice.

  `K`, `Q`, `V` are the three linear projections of one batch entry, `2048` rows of `1024` features,
  as extended reals. Row `s` of the result attends to the rows `t ≤ s` (the roles of `K` and `Q` are
  those of the programs: the logit of the pair `(s, t)` is the dot product of row `s` of `K` with
  row `t` of `Q`, divided by `√1024 = 32`).

  * `refOut`: the one-pass form — mask the logits with `-∞` above the diagonal, subtract the row's
    maximum, exponentiate, divide every weight by the row's sum, then take the weighted sum of the
    rows of `V`.
  * `kerOut`: the streaming form over two tiles of `1024` columns — the scale `1/32` multiplied
    into `K` beforehand; a running maximum, a running denominator and a running unnormalised
    weighted sum, each rescaled by `exp (old maximum − new maximum)` when the next tile is added;
    rows `s < 1024` see the first tile only; one division at the end.

  `proj` is a linear layer `x · Wᵀ + b` read at one entry.
-/
import Idealize.ShloMosaic.PureOps.Ideal
import Idealize.ShloMosaic.Lib.ValueIdx

noncomputable section

open scoped BigOperators

namespace Cert.AttnSpec

open Idealize.ShloMosaic Idealize.ShloMosaic.ValueIdx

/-- Entry `(b, s, f)` of the linear layer `x · Wᵀ + bias`: `∑ e, x[b, s, e] · W[f, e] + bias[f]`. -/
def proj (x : (⟨3, ![4, 2048, 1024]⟩ : Shape).Idx → EReal) (W : (⟨2, ![1024, 1024]⟩ : Shape).Idx → EReal)
    (bias : (⟨1, ![1024]⟩ : Shape).Idx → EReal) (b : Fin 4) (s : Fin 2048) (f : Fin 1024) : EReal :=
  (∑ e : Fin 1024, x (ix3 b s e) * W (ix2 f e)) + bias (ix1 f)

/-- Column `c` of the first tile, as a row number. -/
def lo (c : Fin 1024) : Fin 2048 := ⟨c.val, by omega⟩
/-- Column `c` of the second tile, as a row number. -/
def hi (c : Fin 1024) : Fin 2048 := ⟨1024 + c.val, by omega⟩

section
variable (K Q V : Fin 2048 → Fin 1024 → EReal)

/-! ## The one-pass form -/

/-- The logit of the pair `(s, t)`: the dot product divided by `√1024`. -/
def simR (s t : Fin 2048) : EReal :=
  Ideal.div (∑ d : Fin 1024, K s d * Q t d) (Ideal.sqrt (Ideal.ofBits .f32 0x44800000#32))
/-- The causal mask: `-∞` above the diagonal. -/
def mskR (s t : Fin 2048) : EReal := if t.val ≤ s.val then simR K Q s t else ⊥
/-- The row's maximum (taken from `-∞`, and once more against `-∞`). -/
def maxR (s : Fin 2048) : EReal := max ⊥ (⨆ t : Fin 2048, mskR K Q s t)
/-- The unnormalised weight of the pair `(s, t)`. -/
def expR (s t : Fin 2048) : EReal := Ideal.exp (mskR K Q s t - maxR K Q s)
/-- The row's sum of weights (from zero). -/
def sumR (s : Fin 2048) : EReal := 0 + ∑ t : Fin 2048, expR K Q s t
/-- The one-pass result: each weight divided by the row's sum, against `V`. -/
def refOut (s : Fin 2048) (d : Fin 1024) : EReal :=
  ∑ t : Fin 2048, Ideal.div (expR K Q s t) (sumR K Q s) * V t d

/-! ## The streaming form -/

/-- The scale `1/32` as the programs spell it. -/
def c32 : EReal := Ideal.ofBits .f32 0x3D000000#32
/-- The logit with the scale multiplied into `K` first. -/
def simK (s t : Fin 2048) : EReal := ∑ d : Fin 1024, (K s d * c32) * Q t d
/-- The same mask. -/
def mskK (s t : Fin 2048) : EReal := if t.val ≤ s.val then simK K Q s t else ⊥
/-- After the first tile: the running maximum from `-∞`, -/
def m1 (s : Fin 2048) : EReal := max ⊥ (⨆ c : Fin 1024, mskK K Q s (lo c))
/-- the factor the earlier (empty) state is rescaled by, -/
def a1 (s : Fin 2048) : EReal := Ideal.exp (⊥ - m1 K Q s)
/-- the tile's weights, -/
def p1 (s : Fin 2048) (c : Fin 1024) : EReal := Ideal.exp (mskK K Q s (lo c) - m1 K Q s)
/-- the running denominator from zero, -/
def l1 (s : Fin 2048) : EReal := a1 K Q s * 0 + ∑ c : Fin 1024, p1 K Q s c
/-- and the running unnormalised weighted sum from zero. -/
def acc1 (s : Fin 2048) (d : Fin 1024) : EReal := a1 K Q s * 0 + ∑ c : Fin 1024, p1 K Q s c * V (lo c) d
/-- After the second tile: the same five quantities over the first tile's. -/
def m2 (s : Fin 2048) : EReal := max (m1 K Q s) (⨆ c : Fin 1024, mskK K Q s (hi c))
def a2 (s : Fin 2048) : EReal := Ideal.exp (m1 K Q s - m2 K Q s)
def p2 (s : Fin 2048) (c : Fin 1024) : EReal := Ideal.exp (mskK K Q s (hi c) - m2 K Q s)
def l2 (s : Fin 2048) : EReal := a2 K Q s * l1 K Q s + ∑ c : Fin 1024, p2 K Q s c
def acc2 (s : Fin 2048) (d : Fin 1024) : EReal :=
  a2 K Q s * acc1 K Q V s d + ∑ c : Fin 1024, p2 K Q s c * V (hi c) d
/-- The streaming result: rows of the first tile stop after it, the others after the second. -/
def kerOut (s : Fin 2048) (d : Fin 1024) : EReal :=
  if s.val < 1024 then Ideal.div (acc1 K Q V s d) (l1 K Q s) else Ideal.div (acc2 K Q V s d) (l2 K Q s)

end

end Cert.AttnSpec

end
-- ==== Proof.KTile.lean ====
/-
  The streaming form, one tile at a time.

  `stepM`, `stepL`, `stepAcc` are what one column tile does to the running maximum, the running denominator and the
  running weighted sum of a block of 1024 rows, given the tile's masked logits `S` and the tile's rows of values `vT`.
  The streaming result of the specification is one such step from the empty state for a row of the first tile, and a
  second step over the first for a row of the second tile.
-/
import proofs.«158006_j27814208209133_2_alg».proof.Proof.Spec

noncomputable section

open scoped BigOperators

namespace Cert.AttnSpec

open Idealize.ShloMosaic

/-- The running maximum after the tile. -/
def stepM (mp : Fin 1024 → EReal) (S : Fin 1024 → Fin 1024 → EReal) (r : Fin 1024) : EReal :=
  max (mp r) (⨆ cc : Fin 1024, S r cc)
/-- The factor the earlier state is rescaled by. -/
def stepA (mp : Fin 1024 → EReal) (S : Fin 1024 → Fin 1024 → EReal) (r : Fin 1024) : EReal :=
  Ideal.exp (mp r - stepM mp S r)
/-- The tile's weights against the new maximum. -/
def stepP (mp : Fin 1024 → EReal) (S : Fin 1024 → Fin 1024 → EReal) (r cc : Fin 1024) : EReal :=
  Ideal.exp (S r cc - stepM mp S r)
/-- The running denominator after the tile. -/
def stepL (mp lp : Fin 1024 → EReal) (S : Fin 1024 → Fin 1024 → EReal) (r : Fin 1024) : EReal :=
  stepA mp S r * lp r + ∑ cc : Fin 1024, stepP mp S r cc
/-- The running weighted sum after the tile. -/
def stepAcc (mp : Fin 1024 → EReal) (accp : Fin 1024 → Fin 1024 → EReal) (S : Fin 1024 → Fin 1024 → EReal)
    (vT : Fin 1024 → Fin 1024 → EReal) (r d : Fin 1024) : EReal :=
  stepA mp S r * accp r d + ∑ cc : Fin 1024, stepP mp S r cc * vT cc d

section
variable (K Q V : Fin 2048 → Fin 1024 → EReal)

/-- A row of the first tile: one step from the empty state. -/
theorem kerOut_lo (r d : Fin 1024) :
    kerOut K Q V (lo r) d
      = Ideal.div (stepAcc (fun _ => ⊥) (fun _ _ => 0) (fun r cc => mskK K Q (lo r) (lo cc)) (fun cc d => V (lo cc) d) r d)
          (stepL (fun _ => ⊥) (fun _ => 0) (fun r cc => mskK K Q (lo r) (lo cc)) r) := by
  unfold kerOut
  rw [if_pos (show (lo r).val < 1024 from r.isLt)]
  rfl

/-- A row of the second tile: a second step over the first. -/
theorem kerOut_hi (r d : Fin 1024) :
    kerOut K Q V (hi r) d
      = Ideal.div
          (stepAcc (stepM (fun _ => ⊥) (fun r cc => mskK K Q (hi r) (lo cc)))
            (stepAcc (fun _ => ⊥) (fun _ _ => 0) (fun r cc => mskK K Q (hi r) (lo cc)) (fun cc d => V (lo cc) d))
            (fun r cc => mskK K Q (hi r) (hi cc)) (fun cc d => V (hi cc) d) r d)
          (stepL (stepM (fun _ => ⊥) (fun r cc => mskK K Q (hi r) (lo cc)))
            (stepL (fun _ => ⊥) (fun _ => 0) (fun r cc => mskK K Q (hi r) (lo cc)))
            (fun r cc => mskK K Q (hi r) (hi cc)) r) := by
  unfold kerOut
  rw [if_neg (show ¬(hi r).val < 1024 from by show ¬(1024 + r.val < 1024); omega)]
  rfl

end

end Cert.AttnSpec

end
-- ==== Proof.KVec.lean ====
/-
  One column tile of the attention body, as the streaming step of the specification.

  The body's payloads, read at an index, are the step's running maximum, denominator and weighted sum over the tile's
  masked logits, with the state the body found in its three carried buffers as the earlier state.
-/
import proofs.«158006_j27814208209133_2_alg».proof.Proof.KPay
import proofs.«158006_j27814208209133_2_alg».proof.Proof.KTile

noncomputable section

open scoped BigOperators

namespace Cert.KernelIdeal.KVec

open Cert.KernelIdeal Cert.KernelIdeal.Gen Cert.KernelIdeal.KPay Cert.AttnSpec
open Idealize.ShloMosaic Idealize.ShloMosaic.ValueIdx

/-- The tile's masked logits, as the body computes them. -/
def tileS (a1 a2 : BitVec 32) (kb qb : Vec Ideal S1x1024x1024 .bf16) : Fin 1024 → Fin 1024 → EReal :=
  fun r cc => k1_pay8 (F := Ideal) a1 a2 kb qb (ix2 r cc)
/-- A column buffer as a function of the row. -/
def col (v : Vec Ideal S1024x1 .f32) : Fin 1024 → EReal := fun r => v (ix2 r (0 : Fin 1))
/-- A square buffer as a function of row and column. -/
def mat (v : Vec Ideal S1024x1024 .f32) : Fin 1024 → Fin 1024 → EReal := fun r d => v (ix2 r d)
/-- A block of rows of values. -/
def rows3 (vb : Vec Ideal S1x1024x1024 .bf16) : Fin 1024 → Fin 1024 → EReal := fun cc d => vb (ix3 (0 : Fin 1) cc d)

theorem vec_m (a1 a2 : BitVec 32) (kb qb : Vec Ideal S1x1024x1024 .bf16) (m0 : Vec Ideal S1024x1 .f32) (r : Fin 1024) :
    k1_pay5 (F := Ideal) (k1_pay9 (F := Ideal) a1 a2 kb qb m0) (ix2 r (0 : Fin 1)) = stepM (col m0) (tileS a1 a2 kb qb) r := by
  rw [pay5_eq, pay9_eq]; rfl

theorem vec_l (a1 a2 : BitVec 32) (kb qb : Vec Ideal S1x1024x1024 .bf16) (m0 l0 : Vec Ideal S1024x1 .f32) (r : Fin 1024) :
    k1_pay12 (F := Ideal) a1 a2 kb qb m0 l0 (ix2 r (0 : Fin 1)) = stepL (col m0) (col l0) (tileS a1 a2 kb qb) r := by
  rw [pay12_eq, pay10_eq]; simp only [pay11_eq, pay9_eq]; rfl

theorem vec_acc (a1 a2 : BitVec 32) (kb qb vb : Vec Ideal S1x1024x1024 .bf16) (m0 : Vec Ideal S1024x1 .f32)
    (acc0 : Vec Ideal S1024x1024 .f32) (r d : Fin 1024) :
    k1_pay4 (F := Ideal) (k1_pay7 (F := Ideal) vb) (k1_pay10 (F := Ideal) a1 a2 kb qb m0) (k1_pay11 (F := Ideal) a1 a2 kb qb m0) acc0 (ix2 r d)
      = stepAcc (col m0) (mat acc0) (tileS a1 a2 kb qb) (rows3 vb) r d := by
  rw [pay4_eq, pay10_eq]; simp only [pay11_eq, pay9_eq, pay7_eq]; rfl

theorem col_pay1 : col (k1_pay1 (F := Ideal)) = fun _ => (⊥ : EReal) := funext fun r => pay1_eq r
theorem col_pay2 : col (k1_pay2 (F := Ideal)) = fun _ => (0 : EReal) := funext fun r => pay2_eq r
theorem mat_pay3 : mat (k1_pay3 (F := Ideal)) = fun _ _ => (0 : EReal) := funext fun r => funext fun d => pay3_eq r d

end Cert.KernelIdeal.KVec

end
-- ==== Proof.KTile2.lean ====
/-
  The streaming form over a scaled first factor, row tile by row tile.

  `Ks` is the first projection with the scale already multiplied in. A row of the 2048 is `rowOf qi r`: row `r` of
  row tile `qi`. `outLo` is the result for a row of the first row tile (one step), `outHi` for a row of the second
  (two steps); the specification's streaming result is one or the other.
-/
import proofs.«158006_j27814208209133_2_alg».proof.Proof.KTile

noncomputable section

open scoped BigOperators

namespace Cert.AttnSpec

open Idealize.ShloMosaic

/-- Row `r` of row tile `qi`. -/
def rowOf (qi : Fin 2) (r : Fin 1024) : Fin 2048 := ⟨1024 * qi.val + r.val, by have := qi.isLt; have := r.isLt; omega⟩

theorem lo_eq (r : Fin 1024) : lo r = rowOf 0 r := Fin.ext (by show r.val = 1024 * 0 + r.val; omega)
theorem hi_eq (r : Fin 1024) : hi r = rowOf 1 r := Fin.ext (by show 1024 + r.val = 1024 * 1 + r.val; omega)

section
variable (Ks Q V : Fin 2048 → Fin 1024 → EReal)

/-- The logit over the scaled factor. -/
def simS (s t : Fin 2048) : EReal := ∑ d : Fin 1024, Ks s d * Q t d
/-- The causal mask. -/
def mskS (s t : Fin 2048) : EReal := if t.val ≤ s.val then simS Ks Q s t else ⊥

/-- The masked logits of row tile `qi` against column tile `ki`. -/
def tileOf (qi ki : Fin 2) : Fin 1024 → Fin 1024 → EReal := fun r cc => mskS Ks Q (rowOf qi r) (rowOf ki cc)
/-- The rows of values of column tile `ki`. -/
def valsOf (ki : Fin 2) : Fin 1024 → Fin 1024 → EReal := fun cc d => V (rowOf ki cc) d

/-- A row of the first row tile: one step from the empty state. -/
def outLo (r d : Fin 1024) : EReal :=
  Ideal.div (stepAcc (fun _ => ⊥) (fun _ _ => 0) (tileOf Ks Q 0 0) (valsOf V 0) r d)
    (stepL (fun _ => ⊥) (fun _ => 0) (tileOf Ks Q 0 0) r)

/-- A row of the second row tile: a second step over the first. -/
def outHi (r d : Fin 1024) : EReal :=
  Ideal.div
    (stepAcc (stepM (fun _ => ⊥) (tileOf Ks Q 1 0)) (stepAcc (fun _ => ⊥) (fun _ _ => 0) (tileOf Ks Q 1 0) (valsOf V 0))
      (tileOf Ks Q 1 1) (valsOf V 1) r d)
    (stepL (stepM (fun _ => ⊥) (tileOf Ks Q 1 0)) (stepL (fun _ => ⊥) (fun _ => 0) (tileOf Ks Q 1 0)) (tileOf Ks Q 1 1) r)

end

section
variable (K Q V : Fin 2048 → Fin 1024 → EReal)

theorem mskK_eq_mskS : mskK K Q = mskS (fun s d => K s d * c32) Q := rfl

theorem kerOut_rowOf_zero (r d : Fin 1024) : kerOut K Q V (rowOf 0 r) d = outLo (fun s d => K s d * c32) Q V r d := by
  rw [← lo_eq, kerOut_lo]
  unfold outLo tileOf valsOf
  simp only [mskK_eq_mskS, lo_eq]

theorem kerOut_rowOf_one (r d : Fin 1024) : kerOut K Q V (rowOf 1 r) d = outHi (fun s d => K s d * c32) Q V r d := by
  rw [← hi_eq, kerOut_hi]
  unfold outHi tileOf valsOf
  simp only [mskK_eq_mskS, lo_eq, hi_eq]

end

end Cert.AttnSpec

end
-- ==== Proof.KFinal1.lean ====
import proofs.«158006_j27814208209133_2_alg».proof.Proof.KBlocks1
import proofs.«158006_j27814208209133_2_alg».proof.Proof.KVec
import proofs.«158006_j27814208209133_2_alg».proof.Proof.KTile2
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.KernelIdeal.KPay Cert.KernelIdeal.KVec Cert.AttnSpec
open Idealize.ShloMosaic Idealize.ShloMosaic.TcCoe Idealize.ShloMosaic.ValueIdx
open Idealize.SL Idealize.SL.Sem
open Idealize.ShloMosaic.Pipeline (Dat)

/-! # The attention region's result array

At the extended reals, the block the region writes for row tile `qi` of batch entry `b` is the streaming form of
the specification over the three arrays the region finds: one step for the first row tile, two for the second. -/

/-! ## The result of a row, whichever its tile -/

/-- The streaming result at row `s`: one step if the row is in the first row tile, two otherwise. -/
def outRow (Ks Q V : Fin 2048 → Fin 1024 → EReal) (s : Fin 2048) (d : Fin 1024) : EReal :=
  if s.val < 1024 then outLo Ks Q V ⟨s.val % 1024, Nat.mod_lt _ (by decide)⟩ d else outHi Ks Q V ⟨s.val % 1024, Nat.mod_lt _ (by decide)⟩ d

theorem outRow_zero (Ks Q V : Fin 2048 → Fin 1024 → EReal) (r d : Fin 1024) : outRow Ks Q V (rowOf 0 r) d = outLo Ks Q V r d := by
  have hr := r.isLt
  unfold outRow
  rw [if_pos (show (rowOf 0 r).val < 1024 by show 1024 * 0 + r.val < 1024; omega)]
  exact congrArg (fun x => outLo Ks Q V x d) (Fin.ext (by show (1024 * 0 + r.val) % 1024 = r.val; omega))

theorem outRow_one (Ks Q V : Fin 2048 → Fin 1024 → EReal) (r d : Fin 1024) : outRow Ks Q V (rowOf 1 r) d = outHi Ks Q V r d := by
  have hr := r.isLt
  unfold outRow
  rw [if_neg (show ¬(rowOf 1 r).val < 1024 by show ¬(1024 * 1 + r.val < 1024); omega)]
  exact congrArg (fun x => outHi Ks Q V x d) (Fin.ext (by show (1024 * 1 + r.val) % 1024 = r.val; omega))

/-- The specification's streaming result is `outRow` over the scaled first factor. -/
theorem kerOut_eq_outRow (K Q V : Fin 2048 → Fin 1024 → EReal) (s : Fin 2048) (d : Fin 1024) :
    kerOut K Q V s d = outRow (fun s d => K s d * c32) Q V s d := by
  have hs := s.isLt
  by_cases h : s.val < 1024
  · have e : s = rowOf 0 ⟨s.val, h⟩ := Fin.ext (by show s.val = 1024 * 0 + s.val; omega)
    rw [e, kerOut_rowOf_zero, outRow_zero]
  · have e : s = rowOf 1 ⟨s.val - 1024, by omega⟩ := Fin.ext (by show s.val = 1024 * 1 + (s.val - 1024); omega)
    rw [e, kerOut_rowOf_one, outRow_one]

section Final1
variable (V : (c : Dev nD) → (b : Ref sig .tc) → Buf (Elt Ideal) ((c : Thread nD τ).loc b)) (c : Dev nD)

/-- Batch entry `b` of the three arrays the region reads. -/
def KS (b : Fin 4) : Fin 2048 → Fin 1024 → EReal := fun s d => V c main_v6 (ix3 b s d)
def QS (b : Fin 4) : Fin 2048 → Fin 1024 → EReal := fun s d => V c main_v7 (ix3 b s d)
def VS (b : Fin 4) : Fin 2048 → Fin 1024 → EReal := fun s d => V c main_v8 (ix3 b s d)

/-- The masked logits the body computes at point `4·b + 2·qi + ki` (with `ki ≤ qi`) are the specification's tile. -/
theorem tileS_eq (t : Fin cfg1.N) (b : Fin 4) (qi ki : Fin 2) (ht : t.val = 4 * b.val + 2 * qi.val + ki.val) (hle : ki.val ≤ qi.val) :
    tileS (BitVec.ofNat 32 ((grid1.coords t) 1).val) (BitVec.ofNat 32 ((grid1.coords t) 2).val) (iblk1 V c 0 t) (iblk1 V c 1 t)
      = tileOf (KS V c b) (QS V c b) qi ki := by
  have hb := b.isLt; have hq := qi.isLt; have hk := ki.isLt
  obtain ⟨e1, e2⟩ := coords1_facts t
  have e1' : ((grid1.coords t) 1).val = qi.val := by omega
  have e2' : ((grid1.coords t) 2).val = ki.val := by omega
  funext r cc
  unfold tileS tileOf mskS simS
  rw [e1', e2', pay8_eq qi.val ki.val hq hk]
  refine if_congr (by show _ ↔ 1024 * ki.val + cc.val ≤ 1024 * qi.val + r.val; exact Iff.rfl) ?_ rfl
  refine Finset.sum_congr rfl fun d _ => ?_
  rw [iblk1_0_at V c t b qi ki ht r d, iblk1_1_at V c t b qi ki ht cc d]
  unfold KS QS rowOf
  have hmin : min ki.val qi.val = ki.val := Nat.min_eq_left hle
  simp only [hmin]

/-- The rows of values the body reads there. -/
theorem rows3_eq (t : Fin cfg1.N) (b : Fin 4) (qi ki : Fin 2) (ht : t.val = 4 * b.val + 2 * qi.val + ki.val) (hle : ki.val ≤ qi.val) :
    rows3 (iblk1 V c 2 t) = valsOf (VS V c b) ki := by
  funext cc d
  unfold rows3 valsOf
  rw [iblk1_2_at V c t b qi ki ht cc d]
  unfold VS rowOf
  have hmin : min ki.val qi.val = ki.val := Nat.min_eq_left hle
  simp only [hmin]

/-- After the first column tile of row tile `qi` of batch entry `b` the carried buffers hold one step from the empty state. -/
theorem stateA (t : Fin cfg1.N) (b : Fin 4) (qi : Fin 2) (ht : t.val = 4 * b.val + 2 * qi.val + (0 : Fin 2).val) :
    col (outsAt1 V c t.val t.isLt).2.1 = stepM (fun _ => ⊥) (tileOf (KS V c b) (QS V c b) qi 0)
    ∧ col (outsAt1 V c t.val t.isLt).2.2.1 = stepL (fun _ => ⊥) (fun _ => 0) (tileOf (KS V c b) (QS V c b) qi 0)
    ∧ mat (outsAt1 V c t.val t.isLt).2.2.2 = stepAcc (fun _ => ⊥) (fun _ _ => 0) (tileOf (KS V c b) (QS V c b) qi 0) (valsOf (VS V c b) 0) := by
  have hq := qi.isLt
  have h0 : t.val % 2 = 0 := by have : (0 : Fin 2).val = 0 := rfl; omega
  rw [outsAt1_A V c t h0]
  have hT := tileS_eq V c t b qi 0 ht (Nat.zero_le _)
  have hR := rows3_eq V c t b qi 0 ht (Nat.zero_le _)
  refine ⟨funext fun r => ?_, funext fun r => ?_, funext fun r => funext fun d => ?_⟩
  · unfold col; rw [stA_m, vec_m, col_pay1, hT]
  · unfold col; rw [stA_l, vec_l, col_pay1, col_pay2, hT]
  · unfold mat; rw [stA_acc, vec_acc, col_pay1, mat_pay3, hT, hR]

/-- The block written for the first row tile of batch entry `b`: one step, divided. -/
theorem flushed1_lo (t : Fin cfg1.N) (b : Fin 4) (ht : t.val = 4 * b.val + 1) (r d : Fin 1024) :
    (dat1 V c).after 3 t (ix3 (0 : Fin 1) r d) = outLo (KS V c b) (QS V c b) (VS V c b) r d := by
  have hb := b.isLt
  have h1 : t.val % 4 = 1 := by omega
  have hprev : (⟨t.val - 1, Nat.lt_of_le_of_lt (Nat.sub_le _ _) t.isLt⟩ : Fin cfg1.N).val = 4 * b.val + 2 * (0 : Fin 2).val + (0 : Fin 2).val := by
    show t.val - 1 = 4 * b.val + 2 * 0 + 0; omega
  obtain ⟨-, hl, hacc⟩ := stateA V c ⟨t.val - 1, Nat.lt_of_le_of_lt (Nat.sub_le _ _) t.isLt⟩ b 0 hprev
  rw [after1_3, outsAt1_B V c t h1, stB_out, pay6_eq]
  unfold outLo
  exact congrArg₂ Ideal.div (congrFun (congrFun hacc r) d) (congrFun hl r)

/-- The block written for the second row tile of batch entry `b`: a second step over the first, divided. -/
theorem flushed1_hi (t : Fin cfg1.N) (b : Fin 4) (ht : t.val = 4 * b.val + 3) (r d : Fin 1024) :
    (dat1 V c).after 3 t (ix3 (0 : Fin 1) r d) = outHi (KS V c b) (QS V c b) (VS V c b) r d := by
  have hb := b.isLt
  have h0 : ¬t.val % 2 = 0 := by omega
  have h1 : ¬t.val % 4 = 1 := by omega
  have ht' : t.val = 4 * b.val + 2 * (1 : Fin 2).val + (1 : Fin 2).val := by show t.val = 4 * b.val + 2 * 1 + 1; omega
  have hprev : (⟨t.val - 1, Nat.lt_of_le_of_lt (Nat.sub_le _ _) t.isLt⟩ : Fin cfg1.N).val = 4 * b.val + 2 * (1 : Fin 2).val + (0 : Fin 2).val := by
    show t.val - 1 = 4 * b.val + 2 * 1 + 0; omega
  obtain ⟨hm, hl, hacc⟩ := stateA V c ⟨t.val - 1, Nat.lt_of_le_of_lt (Nat.sub_le _ _) t.isLt⟩ b 1 hprev
  have hT := tileS_eq V c t b 1 1 ht' (Nat.le_refl _)
  have hR := rows3_eq V c t b 1 1 ht' (Nat.le_refl _)
  rw [after1_3, outsAt1_C V c t h0 h1, stC_out, pay6_eq, vec_acc, vec_l, hT, hR]
  unfold outHi
  rw [← hm, ← hl, ← hacc]

/-! ## From the blocks to the array -/

/-- The result array: the streaming result of each row of each batch entry. -/
def G1 : S4x2048x1024.Idx → EReal := fun i => outRow (KS V c (i 0)) (QS V c (i 0)) (VS V c (i 0)) (i 1) (i 2)

/-- Where block `(0, r, d)` of point `4·b + 2·qi + 1` sits in the array. -/
theorem emb1_3 (t : Fin cfg1.N) (b : Fin 4) (qi : Fin 2) (ht : t.val = 4 * b.val + 2 * qi.val + 1) (r d : Fin 1024) :
    ((cfg1.win 3).blk t).view.emb (ix3 (0 : Fin 1) r d) = ix3 b (rowOf qi r) d := by
  have hb := b.isLt; have hq := qi.isLt
  obtain ⟨-, -, -, -, -, -, -, -, -, e0, e1, e2⟩ := idx1_facts t
  funext a
  apply Fin.ext
  match a with
  | ⟨0, _⟩ => show win1_3.index t (0 : Fin 3) * 1 + 1 * 0 = b.val; omega
  | ⟨1, _⟩ => show win1_3.index t (1 : Fin 3) * 1024 + 1 * r.val = 1024 * qi.val + r.val; omega
  | ⟨2, _⟩ => show win1_3.index t (2 : Fin 3) * 1024 + 1 * d.val = d.val; omega

/-- What an odd point writes back is its block of the result array. -/
theorem flushed1_eq (t : Fin cfg1.N) (hf : (cfg1.win 3).flush t = true) :
    (dat1 V c).flushed 3 t = ((cfg1.win 3).blk t).view.read (Elt Ideal) (G1 V c) := by
  have hN : t.val < 16 := lt_of_lt_of_eq t.isLt (show cfg1.N = 16 from N_1)
  have hodd : t.val % 2 = 1 := (flush1_3 t).mp hf
  funext y
  obtain ⟨z, r, d, rfl⟩ : ∃ (z : Fin 1) (r d : Fin 1024), y = ix3 z r d := ⟨y 0, y 1, y 2, eq_ix3 y⟩
  obtain rfl : z = 0 := Subsingleton.elim _ _
  rw [View.read_apply]
  show (dat1 V c).after 3 t (ix3 (0 : Fin 1) r d) = G1 V c (((cfg1.win 3).blk t).view.emb (ix3 (0 : Fin 1) r d))
  by_cases h1 : t.val % 4 = 1
  · have ht : t.val = 4 * (⟨t.val / 4, by omega⟩ : Fin 4).val + 2 * (0 : Fin 2).val + 1 := by show t.val = 4 * (t.val / 4) + 2 * 0 + 1; omega
    rw [emb1_3 t ⟨t.val / 4, by omega⟩ 0 ht r d]
    unfold G1
    show _ = outRow _ _ _ (rowOf 0 r) d
    rw [outRow_zero]
    exact flushed1_lo V c t ⟨t.val / 4, by omega⟩ (by show t.val = 4 * (t.val / 4) + 1; omega) r d
  · have ht : t.val = 4 * (⟨t.val / 4, by omega⟩ : Fin 4).val + 2 * (1 : Fin 2).val + 1 := by show t.val = 4 * (t.val / 4) + 2 * 1 + 1; omega
    rw [emb1_3 t ⟨t.val / 4, by omega⟩ 1 ht r d]
    unfold G1
    show _ = outRow _ _ _ (rowOf 1 r) d
    rw [outRow_one]
    exact flushed1_hi V c t ⟨t.val / 4, by omega⟩ (by show t.val = 4 * (t.val / 4) + 3; omega) r d

theorem mem_blk1_3 (t : Fin cfg1.N) (i : S4x2048x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v9).slice (win1_3.rect t)).set ↔ _
  rw [View.set_slice_whole, Rect.mem_set_unit]
  exact Iff.rfl

/-- Every entry of the result array is in some odd point's block. -/
theorem cover1_3 (i : S4x2048x1024.Idx) : ∃ t : Fin cfg1.N, (cfg1.win 3).flush t = true ∧ i ∈ ((cfg1.win 3).blk t).view.set := by
  have h0 : (i 0).val < 4 := (i 0).isLt
  have h1 : (i 1).val < 2048 := (i 1).isLt
  have h2 : (i 2).val < 1024 := (i 2).isLt
  have hN : cfg1.N = 16 := N_1
  refine ⟨⟨4 * (i 0).val + 2 * ((i 1).val / 1024) + 1, by rw [hN]; omega⟩, (flush1_3 _).mpr (by show (4 * (i 0).val + 2 * ((i 1).val / 1024) + 1) % 2 = 1; omega), ?_⟩
  rw [mem_blk1_3]
  obtain ⟨-, -, -, -, -, -, -, -, -, e0, e1, e2⟩ := idx1_facts ⟨4 * (i 0).val + 2 * ((i 1).val / 1024) + 1, by rw [hN]; omega⟩
  intro a
  match a with
  | ⟨0, _⟩ => show win1_3.index _ (0 : Fin 3) * 1 ≤ (i 0).val ∧ (i 0).val < win1_3.index _ (0 : Fin 3) * 1 + 1
              rw [e0]; dsimp only; omega
  | ⟨1, _⟩ => show win1_3.index _ (1 : Fin 3) * 1024 ≤ (i 1).val ∧ (i 1).val < win1_3.index _ (1 : Fin 3) * 1024 + 1024
              rw [e1]; dsimp only; omega
  | ⟨2, _⟩ => show win1_3.index _ (2 : Fin 3) * 1024 ≤ (i 2).val ∧ (i 2).val < win1_3.index _ (2 : Fin 3) * 1024 + 1024
              rw [e2]; omega

/-- The result array after the region. -/
theorem final1 : (dat1 V c).arrAt 3 cfg1.N = G1 V c :=
  (dat1 V c).arrAt_eq_of_cover 3 (G1 V c) (flushed1_eq V c) (cover1_3)

end Final1

end Cert.KernelIdeal.Hand

end
-- ==== Proof.KVal0.lean ====
/-
  The projection region, from blocks to arrays.

  Point t of the region's sixteen writes rows 512·t … 512·t + 511 of each of the three projections. Each
  projection array therefore ends holding, at every (row, f), the linear layer of row `row` of the reshaped
  input against row f (the first projection), 1024 + f (the second) or 2048 + f (the third) of the stacked
  weights, plus the matching entry of the stacked bias row; the first projection scaled by 1/32.
-/
import proofs.«158006_j27814208209133_2_alg».proof.Proof.KFrame0
import proofs.«158006_j27814208209133_2_alg».proof.Proof.KPay
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.KernelIdeal.KPay
open Idealize.ShloMosaic Idealize.ShloMosaic.TcCoe Idealize.ShloMosaic.ValueIdx Idealize.SL.Sem
open Idealize.ShloMosaic.Pipeline (Dat)

section Arrays0
variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the sixteen points: the input rows and the three outputs move with the point,
    the weights and the bias row stay. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The input window's block at point t is rows 512·t … 512·t + 511 of the reshaped input. -/
theorem iblk0_0_apply (c : Dev nD) (t : Fin cfg0.N) (x : S512x1024.Idx) (k : S8192x1024.Idx)
    (hk0 : (k 0).val = 512 * t.val + (x 0).val) (hk1 : (k 1).val = (x 1).val) :
    (iblk0 V c 0 t : Vec Ideal S512x1024 .f32) x = (V c main_v4 : S8192x1024.Idx → EReal) k := by
  obtain ⟨e0, e1, -⟩ := index_facts0 t
  unfold iblk0
  rw [View.read_apply]
  show V c main_v4 _ = V c main_v4 _
  congr 1
  funext a
  apply Fin.ext
  match a with
  | ⟨0, _⟩ => show win0_0.index t 0 * 512 + 1 * (x 0).val = (k 0).val; rw [e0, hk0]; omega
  | ⟨1, _⟩ => show win0_0.index t 1 * 1024 + 1 * (x 1).val = (k 1).val; rw [e1, hk1]; omega

/-- The weight window's block at every point is the whole stacked weight table. -/
theorem iblk0_1_apply (c : Dev nD) (t : Fin cfg0.N) (x : S3072x1024.Idx) :
    (iblk0 V c 1 t : Vec Ideal S3072x1024 .bf16) x = (V c main_v1 : S3072x1024.Idx → EReal) x := by
  obtain ⟨-, -, e0, e1, -⟩ := index_facts0 t
  unfold iblk0
  rw [View.read_apply]
  show V c main_v1 _ = V c main_v1 _
  congr 1
  funext a
  apply Fin.ext
  match a with
  | ⟨0, _⟩ => show win0_1.index t 0 * 3072 + 1 * (x 0).val = (x 0).val; rw [e0]; omega
  | ⟨1, _⟩ => show win0_1.index t 1 * 1024 + 1 * (x 1).val = (x 1).val; rw [e1]; omega

/-- The bias window's block at every point is the whole stacked bias row. -/
theorem iblk0_2_apply (c : Dev nD) (t : Fin cfg0.N) (x : S1x3072.Idx) :
    (iblk0 V c 2 t : Vec Ideal S1x3072 .f32) x = (V c main_v3 : S1x3072.Idx → EReal) x := by
  obtain ⟨-, -, -, -, e0, e1, -⟩ := index_facts0 t
  unfold iblk0
  rw [View.read_apply]
  show V c main_v3 _ = V c main_v3 _
  congr 1
  funext a
  apply Fin.ext
  match a with
  | ⟨0, _⟩ => show win0_2.index t 0 * 1 + 1 * (x 0).val = (x 0).val; rw [e0]; omega
  | ⟨1, _⟩ => show win0_2.index t 1 * 3072 + 1 * (x 1).val = (x 1).val; rw [e1]; omega

/-! ## The three projections as whole-array functions -/

/-- The linear layer of row `row` of X against row g of W, plus entry g of the row B. -/
def lin (X : S8192x1024.Idx → EReal) (W : S3072x1024.Idx → EReal) (B : S1x3072.Idx → EReal)
    (row : Fin 8192) (g : Fin 3072) : EReal :=
  (∑ e : Fin 1024, X (ix2 row e) * W (ix2 g e)) + B (ix2 0 g)

/-- The first projection array: the first layer, scaled by 1/32. -/
def proj0 (X : S8192x1024.Idx → EReal) (W : S3072x1024.Idx → EReal) (B : S1x3072.Idx → EReal) : S8192x1024.Idx → EReal :=
  fun i => lin X W B ⟨(i 0).val, (i 0).isLt⟩ ⟨(i 1).val, by have : (i 1).val < 1024 := (i 1).isLt; omega⟩ * Ideal.ofBits .f32 0x3D000000#32
/-- The second projection array: the second layer. -/
def proj1 (X : S8192x1024.Idx → EReal) (W : S3072x1024.Idx → EReal) (B : S1x3072.Idx → EReal) : S8192x1024.Idx → EReal :=
  fun i => lin X W B ⟨(i 0).val, (i 0).isLt⟩ ⟨1024 + (i 1).val, by have : (i 1).val < 1024 := (i 1).isLt; omega⟩
/-- The third projection array: the third layer. -/
def proj2 (X : S8192x1024.Idx → EReal) (W : S3072x1024.Idx → EReal) (B : S1x3072.Idx → EReal) : S8192x1024.Idx → EReal :=
  fun i => lin X W B ⟨(i 0).val, (i 0).isLt⟩ ⟨2048 + (i 1).val, by have : (i 1).val < 1024 := (i 1).isLt; omega⟩

/-- The linear layer over blocks that read the arrays: row p of the first block is row `row` of X, the other two
    blocks are W and B. -/
theorem lin_of_blocks (X : S8192x1024.Idx → EReal) (W : S3072x1024.Idx → EReal) (B : S1x3072.Idx → EReal)
    (x0 : Vec Ideal S512x1024 .f32) (x1 : Vec Ideal S3072x1024 .bf16) (x2 : Vec Ideal S1x3072 .f32)
    (p : Fin 512) (g : Fin 3072) (row : Fin 8192)
    (h0 : ∀ e : Fin 1024, x0 (ix2 p e) = X (ix2 row e)) (h1 : ∀ e : Fin 1024, x1 (ix2 g e) = W (ix2 g e))
    (h2 : x2 (ix2 0 g) = B (ix2 0 g)) :
    (∑ e : Fin 1024, x0 (ix2 p e) * x1 (ix2 g e)) + x2 (ix2 0 g) = lin X W B row g := by
  unfold lin
  rw [h2]
  exact congrArg (· + _) (Finset.sum_congr rfl fun e _ => by rw [h0 e, h1 e])

/-- At point t, the linear layer over the point's three blocks at (p, g) is the one over the arrays at (512·t + p, g). -/
theorem lin_blocks (c : Dev nD) (t : Fin cfg0.N) (p : Fin 512) (g : Fin 3072) (row : Fin 8192) (hrow : row.val = 512 * t.val + p.val)
    (x0 : Vec Ideal S512x1024 .f32) (x1 : Vec Ideal S3072x1024 .bf16) (x2 : Vec Ideal S1x3072 .f32)
    (hx0 : x0 = iblk0 V c 0 t) (hx1 : x1 = iblk0 V c 1 t) (hx2 : x2 = iblk0 V c 2 t) :
    (∑ e : Fin 1024, x0 (ix2 p e) * x1 (ix2 g e)) + x2 (ix2 0 g)
      = lin (V c main_v4) (V c main_v1) (V c main_v3) row g := by
  subst hx0 hx1 hx2
  exact lin_of_blocks _ _ _ _ _ _ p g row (fun e => iblk0_0_apply V c t (ix2 p e) (ix2 row e) hrow rfl)
    (fun e => iblk0_1_apply V c t (ix2 g e)) (iblk0_2_apply V c t (ix2 0 g))

/-! ## What each point writes back -/

/-- Point t writes back block t of the first projection array. -/
theorem flushed0_3_eq (c : Dev nD) (t : Fin cfg0.N) :
    (dat0 (F := Ideal) V c).flushed 3 t
      = ((cfg0.win 3).blk t).view.read (Elt Ideal) (proj0 (V c main_v4) (V c main_v1) (V c main_v3)) := by
  show (cfg0.win 3).cut (grid0.coords t) ((dat0 V c).after 3 t) = _
  rw [after0_3]
  unfold out0_3
  rw [View.canon_unit_zero zero_offsets]
  simp only [View.ld_unit_zero (S := S512x1024) zero_offsets, View.ld_unit_zero (S := S3072x1024) zero_offsets,
    View.ld_unit_zero (S := S1x3072) zero_offsets]
  obtain ⟨-, -, -, -, -, -, e30, e31, e40, e41, e50, e51⟩ := index_facts0 t
  funext j
  obtain ⟨p, q, rfl⟩ : ∃ (p : Fin 512) (q : Fin 1024), j = ix2 p q := ⟨j 0, j 1, eq_ix2 j⟩
  refine (k0_pay2_eq (iblk0 V c 0 t) (iblk0 V c 1 t) (iblk0 V c 2 t) p q).trans ?_
  show _ = proj0 (V c main_v4) (V c main_v1) (V c main_v3) (((cfg0.win 3).blk t).view.emb (ix2 p q))
  unfold proj0
  rw [lin_blocks V c t p (⟨q.val, by omega⟩ : Fin 3072)
    ⟨(((cfg0.win 3).blk t).view.emb (ix2 p q) 0).val, (((cfg0.win 3).blk t).view.emb (ix2 p q) 0).isLt⟩
    (by show win0_3.index t 0 * 512 + 1 * p.val = 512 * t.val + p.val; rw [e30]; omega) _ _ _ rfl rfl rfl]
  have hq : (((cfg0.win 3).blk t).view.emb (ix2 p q) 1).val = q.val := by
    show win0_3.index t 1 * 1024 + 1 * q.val = q.val; rw [e31]; omega
  simp only [hq]

/-- Point t writes back block t of the second projection array. -/
theorem flushed0_4_eq (c : Dev nD) (t : Fin cfg0.N) :
    (dat0 (F := Ideal) V c).flushed 4 t
      = ((cfg0.win 4).blk t).view.read (Elt Ideal) (proj1 (V c main_v4) (V c main_v1) (V c main_v3)) := by
  show (cfg0.win 4).cut (grid0.coords t) ((dat0 V c).after 4 t) = _
  rw [after0_4]
  unfold out0_4
  rw [View.canon_unit_zero zero_offsets]
  simp only [View.ld_unit_zero (S := S512x1024) zero_offsets, View.ld_unit_zero (S := S3072x1024) zero_offsets,
    View.ld_unit_zero (S := S1x3072) zero_offsets]
  obtain ⟨-, -, -, -, -, -, e30, e31, e40, e41, e50, e51⟩ := index_facts0 t
  funext j
  obtain ⟨p, q, rfl⟩ : ∃ (p : Fin 512) (q : Fin 1024), j = ix2 p q := ⟨j 0, j 1, eq_ix2 j⟩
  refine (k0_pay3_eq (iblk0 V c 0 t) (iblk0 V c 1 t) (iblk0 V c 2 t) p q).trans ?_
  show _ = proj1 (V c main_v4) (V c main_v1) (V c main_v3) (((cfg0.win 4).blk t).view.emb (ix2 p q))
  unfold proj1
  rw [lin_blocks V c t p (⟨1024 + q.val, by omega⟩ : Fin 3072)
    ⟨(((cfg0.win 4).blk t).view.emb (ix2 p q) 0).val, (((cfg0.win 4).blk t).view.emb (ix2 p q) 0).isLt⟩
    (by show win0_4.index t 0 * 512 + 1 * p.val = 512 * t.val + p.val; rw [e40]; omega) _ _ _ rfl rfl rfl]
  have hq : (((cfg0.win 4).blk t).view.emb (ix2 p q) 1).val = q.val := by
    show win0_4.index t 1 * 1024 + 1 * q.val = q.val; rw [e41]; omega
  simp only [hq]

/-- Point t writes back block t of the third projection array. -/
theorem flushed0_5_eq (c : Dev nD) (t : Fin cfg0.N) :
    (dat0 (F := Ideal) V c).flushed 5 t
      = ((cfg0.win 5).blk t).view.read (Elt Ideal) (proj2 (V c main_v4) (V c main_v1) (V c main_v3)) := by
  show (cfg0.win 5).cut (grid0.coords t) ((dat0 V c).after 5 t) = _
  rw [after0_5]
  unfold out0_5
  rw [View.canon_unit_zero zero_offsets]
  simp only [View.ld_unit_zero (S := S512x1024) zero_offsets, View.ld_unit_zero (S := S3072x1024) zero_offsets,
    View.ld_unit_zero (S := S1x3072) zero_offsets]
  obtain ⟨-, -, -, -, -, -, e30, e31, e40, e41, e50, e51⟩ := index_facts0 t
  funext j
  obtain ⟨p, q, rfl⟩ : ∃ (p : Fin 512) (q : Fin 1024), j = ix2 p q := ⟨j 0, j 1, eq_ix2 j⟩
  refine (k0_pay4_eq (iblk0 V c 0 t) (iblk0 V c 1 t) (iblk0 V c 2 t) p q).trans ?_
  show _ = proj2 (V c main_v4) (V c main_v1) (V c main_v3) (((cfg0.win 5).blk t).view.emb (ix2 p q))
  unfold proj2
  rw [lin_blocks V c t p (⟨2048 + q.val, by omega⟩ : Fin 3072)
    ⟨(((cfg0.win 5).blk t).view.emb (ix2 p q) 0).val, (((cfg0.win 5).blk t).view.emb (ix2 p q) 0).isLt⟩
    (by show win0_5.index t 0 * 512 + 1 * p.val = 512 * t.val + p.val; rw [e50]; omega) _ _ _ rfl rfl rfl]
  have hq : (((cfg0.win 5).blk t).view.emb (ix2 p q) 1).val = q.val := by
    show win0_5.index t 1 * 1024 + 1 * q.val = q.val; rw [e51]; omega
  simp only [hq]

/-! ## The blocks tile the arrays -/

/-- An index of the array is in point t's block of output 1 iff each coordinate is in the block's range. -/
theorem mem_blk0_3 (t : Fin cfg0.N) (i : S8192x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v5_0).slice (win0_3.rect t)).set ↔ _
  rw [View.set_slice_whole, Rect.mem_set_unit]
  exact Iff.rfl

/-- Every index of the array is in the block of the point its row falls in, and every point writes back. -/
theorem cover0_3 (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 16 := N_0
  refine ⟨⟨(i 0).val / 512, by rw [hN]; omega⟩, flush0_3 _, ?_⟩
  rw [mem_blk0_3]
  obtain ⟨-, -, -, -, -, -, e30, e31, e40, e41, e50, e51⟩ := index_facts0 ⟨(i 0).val / 512, by rw [hN]; omega⟩
  intro a
  match a with
  | ⟨0, _⟩ =>
    show win0_3.index _ (0 : Fin 2) * 512 ≤ (i 0).val ∧ (i 0).val < win0_3.index _ (0 : Fin 2) * 512 + 512
    rw [e30]
    show (i 0).val / 512 * 512 ≤ (i 0).val ∧ (i 0).val < (i 0).val / 512 * 512 + 512
    omega
  | ⟨1, _⟩ =>
    show win0_3.index _ (1 : Fin 2) * 1024 ≤ (i 1).val ∧ (i 1).val < win0_3.index _ (1 : Fin 2) * 1024 + 1024
    rw [e31]
    omega

/-- An index of the array is in point t's block of output 2 iff each coordinate is in the block's range. -/
theorem mem_blk0_4 (t : Fin cfg0.N) (i : S8192x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v5_1).slice (win0_4.rect t)).set ↔ _
  rw [View.set_slice_whole, Rect.mem_set_unit]
  exact Iff.rfl

/-- Every index of the array is in the block of the point its row falls in, and every point writes back. -/
theorem cover0_4 (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  have hN : cfg0.N = 16 := N_0
  refine ⟨⟨(i 0).val / 512, by rw [hN]; omega⟩, flush0_4 _, ?_⟩
  rw [mem_blk0_4]
  obtain ⟨-, -, -, -, -, -, e30, e31, e40, e41, e50, e51⟩ := index_facts0 ⟨(i 0).val / 512, by rw [hN]; omega⟩
  intro a
  match a with
  | ⟨0, _⟩ =>
    show win0_4.index _ (0 : Fin 2) * 512 ≤ (i 0).val ∧ (i 0).val < win0_4.index _ (0 : Fin 2) * 512 + 512
    rw [e40]
    show (i 0).val / 512 * 512 ≤ (i 0).val ∧ (i 0).val < (i 0).val / 512 * 512 + 512
    omega
  | ⟨1, _⟩ =>
    show win0_4.index _ (1 : Fin 2) * 1024 ≤ (i 1).val ∧ (i 1).val < win0_4.index _ (1 : Fin 2) * 1024 + 1024
    rw [e41]
    omega

/-- An index of the array is in point t's block of output 3 iff each coordinate is in the block's range. -/
theorem mem_blk0_5 (t : Fin cfg0.N) (i : S8192x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v5_2).slice (win0_5.rect t)).set ↔ _
  rw [View.set_slice_whole, Rect.mem_set_unit]
  exact Iff.rfl

/-- Every index of the array is in the block of the point its row falls in, and every point writes back. -/
theorem cover0_5 (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 16 := N_0
  refine ⟨⟨(i 0).val / 512, by rw [hN]; omega⟩, flush0_5 _, ?_⟩
  rw [mem_blk0_5]
  obtain ⟨-, -, -, -, -, -, e30, e31, e40, e41, e50, e51⟩ := index_facts0 ⟨(i 0).val / 512, by rw [hN]; omega⟩
  intro a
  match a with
  | ⟨0, _⟩ =>
    show win0_5.index _ (0 : Fin 2) * 512 ≤ (i 0).val ∧ (i 0).val < win0_5.index _ (0 : Fin 2) * 512 + 512
    rw [e50]
    show (i 0).val / 512 * 512 ≤ (i 0).val ∧ (i 0).val < (i 0).val / 512 * 512 + 512
    omega
  | ⟨1, _⟩ =>
    show win0_5.index _ (1 : Fin 2) * 1024 ≤ (i 1).val ∧ (i 1).val < win0_5.index _ (1 : Fin 2) * 1024 + 1024
    rw [e51]
    omega

/-! ## The arrays after the region -/

/-- The linear layer, spelt out. -/
theorem lin_apply (X : S8192x1024.Idx → EReal) (W : S3072x1024.Idx → EReal) (B : S1x3072.Idx → EReal)
    (row : Fin 8192) (g : Fin 3072) :
    lin X W B row g = (∑ e : Fin 1024, X (ix2 row e) * W (ix2 g e)) + B (ix2 0 g) := rfl

/-- The first projection array after the region: the first layer scaled by 1/32, at every index. -/
theorem final0_3_fun (c : Dev nD) :
    (dat0 (F := Ideal) V c).arrAt 3 cfg0.N = proj0 (V c main_v4) (V c main_v1) (V c main_v3) :=
  (dat0 (F := Ideal) V c).arrAt_eq_of_cover 3 (proj0 (V c main_v4) (V c main_v1) (V c main_v3))
    (fun t _ => flushed0_3_eq V c t) cover0_3

/-- The same at row r and feature f. -/
theorem final0_3_row (c : Dev nD) (r : Fin 8192) (f : Fin 1024) :
    (dat0 (F := Ideal) V c).arrAt 3 cfg0.N (ix2 r f)
      = lin (V c main_v4) (V c main_v1) (V c main_v3) r (⟨f.val, by omega⟩ : Fin 3072) * Ideal.ofBits .f32 0x3D000000#32 :=
  (congrFun (final0_3_fun V c) (ix2 r f)).trans rfl

/-- The same at row 2048·b + s, the row of position s of batch entry b. -/
theorem final0_3 (c : Dev nD) (b : Fin 4) (s : Fin 2048) (f : Fin 1024) :
    (dat0 (F := Ideal) V c).arrAt 3 cfg0.N (ix2 (⟨2048 * b.val + s.val, by omega⟩ : Fin 8192) f)
      = lin (V c main_v4) (V c main_v1) (V c main_v3) (⟨2048 * b.val + s.val, by omega⟩ : Fin 8192)
          (⟨f.val, by omega⟩ : Fin 3072) * Ideal.ofBits .f32 0x3D000000#32 :=
  final0_3_row V c _ f

/-- The second projection array after the region: the second layer, at every index. -/
theorem final0_4_fun (c : Dev nD) :
    (dat0 (F := Ideal) V c).arrAt 4 cfg0.N = proj1 (V c main_v4) (V c main_v1) (V c main_v3) :=
  (dat0 (F := Ideal) V c).arrAt_eq_of_cover 4 (proj1 (V c main_v4) (V c main_v1) (V c main_v3))
    (fun t _ => flushed0_4_eq V c t) cover0_4

/-- The same at row r and feature f. -/
theorem final0_4_row (c : Dev nD) (r : Fin 8192) (f : Fin 1024) :
    (dat0 (F := Ideal) V c).arrAt 4 cfg0.N (ix2 r f)
      = lin (V c main_v4) (V c main_v1) (V c main_v3) r (⟨1024 + f.val, by omega⟩ : Fin 3072) :=
  (congrFun (final0_4_fun V c) (ix2 r f)).trans rfl

/-- The same at row 2048·b + s, the row of position s of batch entry b. -/
theorem final0_4 (c : Dev nD) (b : Fin 4) (s : Fin 2048) (f : Fin 1024) :
    (dat0 (F := Ideal) V c).arrAt 4 cfg0.N (ix2 (⟨2048 * b.val + s.val, by omega⟩ : Fin 8192) f)
      = lin (V c main_v4) (V c main_v1) (V c main_v3) (⟨2048 * b.val + s.val, by omega⟩ : Fin 8192)
          (⟨1024 + f.val, by omega⟩ : Fin 3072) :=
  final0_4_row V c _ f

/-- The third projection array after the region: the third layer, at every index. -/
theorem final0_5_fun (c : Dev nD) :
    (dat0 (F := Ideal) V c).arrAt 5 cfg0.N = proj2 (V c main_v4) (V c main_v1) (V c main_v3) :=
  (dat0 (F := Ideal) V c).arrAt_eq_of_cover 5 (proj2 (V c main_v4) (V c main_v1) (V c main_v3))
    (fun t _ => flushed0_5_eq V c t) cover0_5

/-- The same at row r and feature f. -/
theorem final0_5_row (c : Dev nD) (r : Fin 8192) (f : Fin 1024) :
    (dat0 (F := Ideal) V c).arrAt 5 cfg0.N (ix2 r f)
      = lin (V c main_v4) (V c main_v1) (V c main_v3) r (⟨2048 + f.val, by omega⟩ : Fin 3072) :=
  (congrFun (final0_5_fun V c) (ix2 r f)).trans rfl

/-- The same at row 2048·b + s, the row of position s of batch entry b. -/
theorem final0_5 (c : Dev nD) (b : Fin 4) (s : Fin 2048) (f : Fin 1024) :
    (dat0 (F := Ideal) V c).arrAt 5 cfg0.N (ix2 (⟨2048 * b.val + s.val, by omega⟩ : Fin 8192) f)
      = lin (V c main_v4) (V c main_v1) (V c main_v3) (⟨2048 * b.val + s.val, by omega⟩ : Fin 8192)
          (⟨2048 + f.val, by omega⟩ : Fin 3072) :=
  final0_5_row V c _ f

end Arrays0

end Cert.KernelIdeal.Hand

end
-- ==== Proof.KHost.lean ====
/-
  What the two stretches of host operations around the two kernel regions leave in each buffer, read at an index,
  for an arbitrary starting valuation.

  * Before the first region: the three weight matrices stacked by rows (rows `0 … 1023` the first, `1024 … 2047` the
    second, `2048 … 3071` the third) and converted to the narrower format (the identity on extended reals); the three
    bias vectors laid end to end and given a leading unit axis; the input `[4, 2048, 1024]` flattened to
    `[8192, 1024]`, row `2048 · b + s` holding entry `(b, s)`.
  * Between the regions: the three `[8192, 1024]` results unflattened to `[4, 2048, 1024]` the same way.

  Everything is by position in row-major order: a reshape keeps it, and a concatenation along the leading axis reads
  the piece whose span of rows holds the row.
-/
import proofs.«158006_j27814208209133_2_alg».proof.Proof.Gen.KernelIdeal.Launch
import Idealize.ShloMosaic.Lib.StableHlo.Run
import Idealize.ShloMosaic.Lib.Pipeline.Value
import Idealize.ShloMosaic.Lib.ValueIdx

noncomputable section

namespace Cert.KernelIdeal.KHost

open Idealize.ShloMosaic Idealize.ShloMosaic.TcCoe Idealize.SL.Sem Idealize.ShloMosaic.ValueIdx
open Cert.KernelIdeal Cert.KernelIdeal.Gen

/-! ## Three pieces stacked along the leading axis, read at an index -/

section pieces

variable {α : Type}

/-- Rows `0 … 1023` of three stacked `1024 × 1024` matrices are the first matrix. -/
theorem cat_rows_0 (x0 x1 x2 : S1024x1024.Idx → α)
    (h : Shape.Concatenates [S1024x1024, S1024x1024, S1024x1024] S3072x1024 0) (f e : Fin 1024) :
    concatenate S3072x1024 0 [⟨S1024x1024, x0⟩, ⟨S1024x1024, x1⟩, ⟨S1024x1024, x2⟩] h
        (ix2 (⟨f.val, Nat.lt_trans f.isLt (by decide)⟩ : Fin 3072) e) = x0 (ix2 f e) :=
  concatenate_apply_piece (t := S3072x1024) 0 [⟨S1024x1024, x0⟩, ⟨S1024x1024, x1⟩, ⟨S1024x1024, x2⟩] h _ 0 (show (0 : ℕ) < 3 by decide) S1024x1024 x0 rfl rfl 0 rfl (ix2 f e)
    (fun (b : Fin 2) hb => match b, hb with
      | ⟨0, _⟩, hb => absurd rfl hb
      | ⟨1, _⟩, _ => rfl)
    (Nat.zero_add _)

/-- Rows `1024 … 2047` are the second matrix. -/
theorem cat_rows_1 (x0 x1 x2 : S1024x1024.Idx → α)
    (h : Shape.Concatenates [S1024x1024, S1024x1024, S1024x1024] S3072x1024 0) (f e : Fin 1024) :
    concatenate S3072x1024 0 [⟨S1024x1024, x0⟩, ⟨S1024x1024, x1⟩, ⟨S1024x1024, x2⟩] h
        (ix2 (⟨1024 + f.val, by have := f.isLt; omega⟩ : Fin 3072) e) = x1 (ix2 f e) :=
  concatenate_apply_piece (t := S3072x1024) 0 [⟨S1024x1024, x0⟩, ⟨S1024x1024, x1⟩, ⟨S1024x1024, x2⟩] h _ 1 (show (1 : ℕ) < 3 by decide) S1024x1024 x1 rfl rfl 1024 rfl (ix2 f e)
    (fun (b : Fin 2) hb => match b, hb with
      | ⟨0, _⟩, hb => absurd rfl hb
      | ⟨1, _⟩, _ => rfl)
    rfl

/-- Rows `2048 … 3071` are the third matrix. -/
theorem cat_rows_2 (x0 x1 x2 : S1024x1024.Idx → α)
    (h : Shape.Concatenates [S1024x1024, S1024x1024, S1024x1024] S3072x1024 0) (f e : Fin 1024) :
    concatenate S3072x1024 0 [⟨S1024x1024, x0⟩, ⟨S1024x1024, x1⟩, ⟨S1024x1024, x2⟩] h
        (ix2 (⟨2048 + f.val, by have := f.isLt; omega⟩ : Fin 3072) e) = x2 (ix2 f e) :=
  concatenate_apply_piece (t := S3072x1024) 0 [⟨S1024x1024, x0⟩, ⟨S1024x1024, x1⟩, ⟨S1024x1024, x2⟩] h _ 2 (show (2 : ℕ) < 3 by decide) S1024x1024 x2 rfl rfl 2048 rfl (ix2 f e)
    (fun (b : Fin 2) hb => match b, hb with
      | ⟨0, _⟩, hb => absurd rfl hb
      | ⟨1, _⟩, _ => rfl)
    rfl

/-- Entries `0 … 1023` of three vectors laid end to end are the first vector. -/
theorem cat_vec_0 (x0 x1 x2 : S1024.Idx → α) (h : Shape.Concatenates [S1024, S1024, S1024] S3072 0) (f : Fin 1024) :
    concatenate S3072 0 [⟨S1024, x0⟩, ⟨S1024, x1⟩, ⟨S1024, x2⟩] h
        (ix1 (⟨f.val, Nat.lt_trans f.isLt (by decide)⟩ : Fin 3072)) = x0 (ix1 f) :=
  concatenate_apply_piece (t := S3072) 0 [⟨S1024, x0⟩, ⟨S1024, x1⟩, ⟨S1024, x2⟩] h _ 0 (show (0 : ℕ) < 3 by decide) S1024 x0 rfl rfl 0 rfl (ix1 f)
    (fun (b : Fin 1) hb => match b, hb with
      | ⟨0, _⟩, hb => absurd rfl hb)
    (Nat.zero_add _)

/-- Entries `1024 … 2047` are the second vector. -/
theorem cat_vec_1 (x0 x1 x2 : S1024.Idx → α) (h : Shape.Concatenates [S1024, S1024, S1024] S3072 0) (f : Fin 1024) :
    concatenate S3072 0 [⟨S1024, x0⟩, ⟨S1024, x1⟩, ⟨S1024, x2⟩] h
        (ix1 (⟨1024 + f.val, by have := f.isLt; omega⟩ : Fin 3072)) = x1 (ix1 f) :=
  concatenate_apply_piece (t := S3072) 0 [⟨S1024, x0⟩, ⟨S1024, x1⟩, ⟨S1024, x2⟩] h _ 1 (show (1 : ℕ) < 3 by decide) S1024 x1 rfl rfl 1024 rfl (ix1 f)
    (fun (b : Fin 1) hb => match b, hb with
      | ⟨0, _⟩, hb => absurd rfl hb)
    rfl

/-- Entries `2048 … 3071` are the third vector. -/
theorem cat_vec_2 (x0 x1 x2 : S1024.Idx → α) (h : Shape.Concatenates [S1024, S1024, S1024] S3072 0) (f : Fin 1024) :
    concatenate S3072 0 [⟨S1024, x0⟩, ⟨S1024, x1⟩, ⟨S1024, x2⟩] h
        (ix1 (⟨2048 + f.val, by have := f.isLt; omega⟩ : Fin 3072)) = x2 (ix1 f) :=
  concatenate_apply_piece (t := S3072) 0 [⟨S1024, x0⟩, ⟨S1024, x1⟩, ⟨S1024, x2⟩] h _ 2 (show (2 : ℕ) < 3 by decide) S1024 x2 rfl rfl 2048 rfl (ix1 f)
    (fun (b : Fin 1) hb => match b, hb with
      | ⟨0, _⟩, hb => absurd rfl hb)
    rfl

/-! ## The reshapes, read at an index -/

/-- `[4, 2048, 1024]` flattened to `[8192, 1024]`: row `2048 · b + s` is entry `(b, s)`. -/
theorem flatten_apply (x : S4x2048x1024.Idx → α) (h : S4x2048x1024.ShapeCasts S8192x1024)
    (b : Fin 4) (s : Fin 2048) (e : Fin 1024) :
    shapeCast S8192x1024 x h (ix2 (⟨2048 * b.val + s.val, by have := b.isLt; have := s.isLt; omega⟩ : Fin 8192) e)
      = x (ix3 b s e) :=
  shapeCast_apply x h _ _ (by
    rw [Shape.rowMajor_val_three, Shape.rowMajor_val_two]
    show (b.val * 2048 + s.val) * 1024 + e.val = (2048 * b.val + s.val) * 1024 + e.val
    omega)

/-- The same by the row: row `r` is entry `(r / 2048, r % 2048)`. -/
theorem flatten_apply_row (x : S4x2048x1024.Idx → α) (h : S4x2048x1024.ShapeCasts S8192x1024)
    (r : Fin 8192) (e : Fin 1024) :
    shapeCast S8192x1024 x h (ix2 r e)
      = x (ix3 (⟨r.val / 2048, by have := r.isLt; omega⟩ : Fin 4) (⟨r.val % 2048, by omega⟩ : Fin 2048) e) :=
  shapeCast_apply x h _ _ (by
    rw [Shape.rowMajor_val_three, Shape.rowMajor_val_two]
    show (r.val / 2048 * 2048 + r.val % 2048) * 1024 + e.val = r.val * 1024 + e.val
    omega)

/-- `[8192, 1024]` unflattened to `[4, 2048, 1024]`: entry `(b, s)` is row `2048 · b + s`. -/
theorem unflatten_apply (x : S8192x1024.Idx → α) (h : S8192x1024.ShapeCasts S4x2048x1024)
    (b : Fin 4) (s : Fin 2048) (d : Fin 1024) :
    shapeCast S4x2048x1024 x h (ix3 b s d)
      = x (ix2 (⟨2048 * b.val + s.val, by have := b.isLt; have := s.isLt; omega⟩ : Fin 8192) d) :=
  shapeCast_apply x h _ _ (by
    rw [Shape.rowMajor_val_three, Shape.rowMajor_val_two]
    show (2048 * b.val + s.val) * 1024 + d.val = (b.val * 2048 + s.val) * 1024 + d.val
    omega)

/-- A vector of `3072` given a leading unit axis: entry `(0, g)` is entry `g`. -/
theorem unit_row_apply (x : S3072.Idx → α) (h : S3072.ShapeCasts S1x3072) (g : Fin 3072) :
    shapeCast S1x3072 x h (ix2 (0 : Fin 1) g) = x (ix1 g) :=
  shapeCast_apply x h _ _ (by
    rw [Shape.rowMajor_val_two, Shape.rowMajor_val_one]
    show g.val = 0 * 3072 + g.val
    omega)

end pieces

/-! ## The host operations' results as terms over the starting valuation -/

section results

variable {Val : EltTy → Type} {x a b y : Ref sig .tc}

/-- An operation of three operands leaves, in its result buffer, its function of the three operands' contents, each
    read at its own buffer. -/
theorem nary3_result
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a))
          (Fin.cons (F (Proc.devRef .tc b)) (fun i => i.elim0)))) := by
  rw [StableHlo.nary_result]; congr 1; funext k; fin_cases k <;> rfl

end results

section buffers

variable (W : Valuation τ sig (Elt Ideal))

/-- After the first stretch the flattened input buffer holds the input, reshaped. -/
theorem after0_v4 :
    (StableHlo.after (hostOps0 (F := Ideal)) W (Proc.devRef .tc main_v4) : S8192x1024.Idx → EReal)
      = fun i => shapeCast S8192x1024 (W (Proc.devRef .tc main_arg0) : S4x2048x1024.Idx → EReal)
          shapeCasts_S4x2048x1024_S8192x1024 i := by
  dsimp only [hostOps0]
  after_results
  rfl

/-- After the first stretch the stacked weight buffer holds the three weight matrices stacked by rows, converted. -/
theorem after0_v1 :
    (StableHlo.after (hostOps0 (F := Ideal)) W (Proc.devRef .tc main_v1) : S3072x1024.Idx → EReal)
      = (truncf .bf16 (concatenate S3072x1024 0
          [⟨S1024x1024, (W (Proc.devRef .tc main_arg1) : S1024x1024.Idx → EReal)⟩,
           ⟨S1024x1024, (W (Proc.devRef .tc main_arg3) : S1024x1024.Idx → EReal)⟩,
           ⟨S1024x1024, (W (Proc.devRef .tc main_arg5) : S1024x1024.Idx → EReal)⟩]
          concatenates_S1024x1024_S1024x1024_S1024x1024_S3072x1024_d0 : FVec Ideal S3072x1024 .f32)
          bitsLt_bf16_f32 : FVec Ideal S3072x1024 .bf16) := by
  dsimp only [hostOps0]
  after_results
  rfl

/-- After the first stretch the bias row holds the three bias vectors laid end to end, with a leading unit axis. -/
theorem after0_v3 :
    (StableHlo.after (hostOps0 (F := Ideal)) W (Proc.devRef .tc main_v3) : S1x3072.Idx → EReal)
      = fun i => shapeCast S1x3072 (concatenate S3072 0
          [⟨S1024, (W (Proc.devRef .tc main_arg2) : S1024.Idx → EReal)⟩,
           ⟨S1024, (W (Proc.devRef .tc main_arg4) : S1024.Idx → EReal)⟩,
           ⟨S1024, (W (Proc.devRef .tc main_arg6) : S1024.Idx → EReal)⟩]
          concatenates_S1024_S1024_S1024_S3072_d0) shapeCasts_S3072_S1x3072 i := by
  dsimp only [hostOps0]
  simp only [StableHlo.after_cons, StableHlo.after_nil]
  repeat (first
    | rw [nary3_result] | rw [StableHlo.unary_result] | rw [StableHlo.reshape_result]
    | (rw [StableHlo.unary_result_ne]; rotate_left; decide)
    | (rw [StableHlo.reshape_result_ne]; rotate_left; decide)
    | (rw [StableHlo.nary_result_ne]; rotate_left; decide))
  rfl

/-- After the second stretch each of the three unflattened buffers holds its source, reshaped. -/
theorem after1_v6 :
    (StableHlo.after (hostOps1 (F := Ideal)) W (Proc.devRef .tc main_v6) : S4x2048x1024.Idx → EReal)
      = fun i => shapeCast S4x2048x1024 (W (Proc.devRef .tc main_v5_0) : S8192x1024.Idx → EReal)
          shapeCasts_S8192x1024_S4x2048x1024 i := by
  dsimp only [hostOps1]
  after_results
  rfl

theorem after1_v7 :
    (StableHlo.after (hostOps1 (F := Ideal)) W (Proc.devRef .tc main_v7) : S4x2048x1024.Idx → EReal)
      = fun i => shapeCast S4x2048x1024 (W (Proc.devRef .tc main_v5_1) : S8192x1024.Idx → EReal)
          shapeCasts_S8192x1024_S4x2048x1024 i := by
  dsimp only [hostOps1]
  after_results
  rfl

theorem after1_v8 :
    (StableHlo.after (hostOps1 (F := Ideal)) W (Proc.devRef .tc main_v8) : S4x2048x1024.Idx → EReal)
      = fun i => shapeCast S4x2048x1024 (W (Proc.devRef .tc main_v5_2) : S8192x1024.Idx → EReal)
          shapeCasts_S8192x1024_S4x2048x1024 i := by
  dsimp only [hostOps1]
  after_results
  rfl

/-! ## The same, read at an index -/

/-- The flattened input: row `2048 · b + s` is the input's entry `(b, s)`. -/
theorem v4_at (b : Fin 4) (s : Fin 2048) (e : Fin 1024) :
    (StableHlo.after (hostOps0 (F := Ideal)) W (Proc.devRef .tc main_v4) : S8192x1024.Idx → EReal)
        (ix2 (⟨2048 * b.val + s.val, by have := b.isLt; have := s.isLt; omega⟩ : Fin 8192) e)
      = (W (Proc.devRef .tc main_arg0) : S4x2048x1024.Idx → EReal) (ix3 b s e) :=
  (congrFun (after0_v4 W) _).trans (flatten_apply _ _ b s e)

/-- The flattened input by the row: row `r` is the input's entry `(r / 2048, r % 2048)`. -/
theorem v4_at_row (r : Fin 8192) (e : Fin 1024) :
    (StableHlo.after (hostOps0 (F := Ideal)) W (Proc.devRef .tc main_v4) : S8192x1024.Idx → EReal) (ix2 r e)
      = (W (Proc.devRef .tc main_arg0) : S4x2048x1024.Idx → EReal)
          (ix3 (⟨r.val / 2048, by have := r.isLt; omega⟩ : Fin 4) (⟨r.val % 2048, by omega⟩ : Fin 2048) e) :=
  (congrFun (after0_v4 W) _).trans (flatten_apply_row _ _ r e)

/-- The stacked weights: rows `0 … 1023` are the first weight matrix, -/
theorem v1_at_0 (f e : Fin 1024) :
    (StableHlo.after (hostOps0 (F := Ideal)) W (Proc.devRef .tc main_v1) : S3072x1024.Idx → EReal)
        (ix2 (⟨f.val, Nat.lt_trans f.isLt (by decide)⟩ : Fin 3072) e)
      = (W (Proc.devRef .tc main_arg1) : S1024x1024.Idx → EReal) (ix2 f e) :=
  (congrFun (after0_v1 W) _).trans ((truncf_apply (s := S3072x1024) (φ := .f32) (ψ := .bf16) _ bitsLt_bf16_f32 _).trans (cat_rows_0 _ _ _ _ f e))

/-- rows `1024 … 2047` the second, -/
theorem v1_at_1 (f e : Fin 1024) :
    (StableHlo.after (hostOps0 (F := Ideal)) W (Proc.devRef .tc main_v1) : S3072x1024.Idx → EReal)
        (ix2 (⟨1024 + f.val, by have := f.isLt; omega⟩ : Fin 3072) e)
      = (W (Proc.devRef .tc main_arg3) : S1024x1024.Idx → EReal) (ix2 f e) :=
  (congrFun (after0_v1 W) _).trans ((truncf_apply (s := S3072x1024) (φ := .f32) (ψ := .bf16) _ bitsLt_bf16_f32 _).trans (cat_rows_1 _ _ _ _ f e))

/-- rows `2048 … 3071` the third. -/
theorem v1_at_2 (f e : Fin 1024) :
    (StableHlo.after (hostOps0 (F := Ideal)) W (Proc.devRef .tc main_v1) : S3072x1024.Idx → EReal)
        (ix2 (⟨2048 + f.val, by have := f.isLt; omega⟩ : Fin 3072) e)
      = (W (Proc.devRef .tc main_arg5) : S1024x1024.Idx → EReal) (ix2 f e) :=
  (congrFun (after0_v1 W) _).trans ((truncf_apply (s := S3072x1024) (φ := .f32) (ψ := .bf16) _ bitsLt_bf16_f32 _).trans (cat_rows_2 _ _ _ _ f e))

/-- The bias row: entries `0 … 1023` are the first bias vector, -/
theorem v3_at_0 (f : Fin 1024) :
    (StableHlo.after (hostOps0 (F := Ideal)) W (Proc.devRef .tc main_v3) : S1x3072.Idx → EReal)
        (ix2 (0 : Fin 1) (⟨f.val, Nat.lt_trans f.isLt (by decide)⟩ : Fin 3072))
      = (W (Proc.devRef .tc main_arg2) : S1024.Idx → EReal) (ix1 f) :=
  (congrFun (after0_v3 W) _).trans ((unit_row_apply _ _ _).trans (cat_vec_0 _ _ _ _ f))

/-- entries `1024 … 2047` the second, -/
theorem v3_at_1 (f : Fin 1024) :
    (StableHlo.after (hostOps0 (F := Ideal)) W (Proc.devRef .tc main_v3) : S1x3072.Idx → EReal)
        (ix2 (0 : Fin 1) (⟨1024 + f.val, by have := f.isLt; omega⟩ : Fin 3072))
      = (W (Proc.devRef .tc main_arg4) : S1024.Idx → EReal) (ix1 f) :=
  (congrFun (after0_v3 W) _).trans ((unit_row_apply _ _ _).trans (cat_vec_1 _ _ _ _ f))

/-- entries `2048 … 3071` the third. -/
theorem v3_at_2 (f : Fin 1024) :
    (StableHlo.after (hostOps0 (F := Ideal)) W (Proc.devRef .tc main_v3) : S1x3072.Idx → EReal)
        (ix2 (0 : Fin 1) (⟨2048 + f.val, by have := f.isLt; omega⟩ : Fin 3072))
      = (W (Proc.devRef .tc main_arg6) : S1024.Idx → EReal) (ix1 f) :=
  (congrFun (after0_v3 W) _).trans ((unit_row_apply _ _ _).trans (cat_vec_2 _ _ _ _ f))

/-- The unflattened results: entry `(b, s)` is row `2048 · b + s` of the source. -/
theorem v6_at (b : Fin 4) (s : Fin 2048) (d : Fin 1024) :
    (StableHlo.after (hostOps1 (F := Ideal)) W (Proc.devRef .tc main_v6) : S4x2048x1024.Idx → EReal) (ix3 b s d)
      = (W (Proc.devRef .tc main_v5_0) : S8192x1024.Idx → EReal)
          (ix2 (⟨2048 * b.val + s.val, by have := b.isLt; have := s.isLt; omega⟩ : Fin 8192) d) :=
  (congrFun (after1_v6 W) _).trans (unflatten_apply _ _ b s d)

theorem v7_at (b : Fin 4) (s : Fin 2048) (d : Fin 1024) :
    (StableHlo.after (hostOps1 (F := Ideal)) W (Proc.devRef .tc main_v7) : S4x2048x1024.Idx → EReal) (ix3 b s d)
      = (W (Proc.devRef .tc main_v5_1) : S8192x1024.Idx → EReal)
          (ix2 (⟨2048 * b.val + s.val, by have := b.isLt; have := s.isLt; omega⟩ : Fin 8192) d) :=
  (congrFun (after1_v7 W) _).trans (unflatten_apply _ _ b s d)

theorem v8_at (b : Fin 4) (s : Fin 2048) (d : Fin 1024) :
    (StableHlo.after (hostOps1 (F := Ideal)) W (Proc.devRef .tc main_v8) : S4x2048x1024.Idx → EReal) (ix3 b s d)
      = (W (Proc.devRef .tc main_v5_2) : S8192x1024.Idx → EReal)
          (ix2 (⟨2048 * b.val + s.val, by have := b.isLt; have := s.isLt; omega⟩ : Fin 8192) d) :=
  (congrFun (after1_v8 W) _).trans (unflatten_apply _ _ b s d)

end buffers

end Cert.KernelIdeal.KHost

end
-- ==== Proof.SoftmaxMath.lean ====
/-
  The streaming (two-tile) causal softmax equals the one-pass causal softmax, for real inputs.

  With real projections every logit is a real number; the two spellings of the scale agree
  (`x / √1024 = x · (1/32)`, and a real factor moves through a finite sum of reals). Every row has
  the unmasked column `0`, so every running maximum is a real number. For a real shift `m` the
  weight of column `t` is `u t · exp (-m)` with `u t = exp (logit t)` on the allowed columns and `0`
  on the masked ones; hence both forms reduce to `(∑ u t · v t) / (∑ u t)`, the shift cancelling.
-/
import proofs.«158006_j27814208209133_2_alg».proof.Proof.Spec
import Mathlib

noncomputable section

open scoped BigOperators

namespace Cert.AttnSpec

open Idealize.ShloMosaic

/-! ## Extended-real helpers -/

/-- The coercion of a finite real sum is the sum of the coercions. -/
theorem coe_fsum {ι : Type*} (S : Finset ι) (f : ι → ℝ) :
    ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

/-- An extended real between two reals is a real. -/
theorem real_of_between {x : EReal} {lb ub : ℝ} (h1 : (lb : EReal) ≤ x) (h2 : x ≤ (ub : EReal)) :
    ∃ r : ℝ, x = (r : EReal) := by
  have hbot : x ≠ ⊥ := fun h => by rw [h] at h1; exact absurd (le_bot_iff.mp h1) (EReal.coe_ne_bot lb)
  have htop : x ≠ ⊤ := fun h => by rw [h] at h2; exact absurd (top_le_iff.mp h2) (EReal.coe_ne_top ub)
  exact ⟨x.toReal, (EReal.coe_toReal htop hbot).symm⟩

/-- A sum over the `2048` columns is the sum over the first tile plus the sum over the second. -/
theorem sum_tiles {M : Type*} [AddCommMonoid M] (f : Fin 2048 → M) :
    ∑ t, f t = ∑ c : Fin 1024, f (lo c) + ∑ c : Fin 1024, f (hi c) := by
  have h := Fin.sum_univ_add (a := 1024) (b := 1024) (f : Fin (1024 + 1024) → M)
  exact h

/-! ## The two constants -/

/-- The pattern `0x3D000000` denotes `1/32`. -/
theorem c32_eq : c32 = ((1 / 32 : ℝ) : EReal) := by
  unfold c32
  simp [Ideal.ofBits, Ideal.ieee, -EReal.coe_mul]
  norm_num

/-- The pattern `0x44800000` denotes `1024`, whose square root is `32`. -/
theorem sqrt1024_eq : Ideal.sqrt (Ideal.ofBits .f32 0x44800000#32) = ((32 : ℝ) : EReal) := by
  have h : Ideal.ofBits .f32 0x44800000#32 = ((1024 : ℝ) : EReal) := by
    simp [Ideal.ofBits, Ideal.ieee, -EReal.coe_mul]
    norm_num
  rw [h, Ideal.sqrt_coe, if_neg (by norm_num)]
  have : Real.sqrt 1024 = 32 := by
    rw [show (1024 : ℝ) = 32 ^ 2 by norm_num, Real.sqrt_sq (by norm_num)]
  rw [this]

/-! ## One row, in real data -/

section row

variable (a v : Fin 2048 → ℝ) (s : Fin 2048)

/-- The masked logits of row `s`: the real logit on the allowed columns, `-∞` on the others. -/
def msk (t : Fin 2048) : EReal := if t.val ≤ s.val then (a t : EReal) else ⊥

/-- The unshifted weight of column `t`: `exp (logit)` on the allowed columns, `0` on the others. -/
def u (t : Fin 2048) : ℝ := if t.val ≤ s.val then Real.exp (a t) else 0

theorem u_nonneg (t : Fin 2048) : 0 ≤ u a s t := by
  unfold u
  split_ifs
  · exact (Real.exp_pos _).le
  · exact le_rfl

theorem lo_zero_le : (lo 0).val ≤ s.val := by
  show (0 : ℕ) ≤ s.val
  exact Nat.zero_le _

theorem u_lo_zero_pos : 0 < u a s (lo 0) := by
  unfold u
  rw [if_pos (lo_zero_le s)]
  exact Real.exp_pos _

/-- Column `hi c` is masked for a row of the first tile. -/
theorem u_hi_zero (hs : s.val < 1024) (c : Fin 1024) : u a s (hi c) = 0 := by
  unfold u
  rw [if_neg]
  show ¬ (1024 + c.val ≤ s.val)
  omega

/-- The weight of a column relative to a real shift `m`. -/
theorem exp_msk (m : ℝ) (t : Fin 2048) :
    Ideal.exp (msk a s t - (m : EReal)) = ((u a s t * Real.exp (-m) : ℝ) : EReal) := by
  unfold msk u
  split_ifs with h
  · rw [← EReal.coe_sub, Ideal.exp_coe, sub_eq_add_neg, Real.exp_add]
  · rw [EReal.bot_sub, Ideal.exp_bot, zero_mul, EReal.coe_zero]

/-- The masked logits of a row are bounded above by a real. -/
theorem msk_le : ∃ B : ℝ, ∀ t, msk a s t ≤ (B : EReal) := by
  obtain ⟨B, hB⟩ := (Set.finite_range a).bddAbove
  refine ⟨B, fun t => ?_⟩
  unfold msk
  split_ifs
  · exact EReal.coe_le_coe_iff.mpr (hB (Set.mem_range_self t))
  · exact bot_le

theorem msk_lo_zero : msk a s (lo 0) = (a (lo 0) : EReal) := by
  unfold msk
  rw [if_pos (lo_zero_le s)]

/-- The row's maximum is a real number: column `0` is allowed. -/
theorem maxAll_real : ∃ r : ℝ, max ⊥ (⨆ t, msk a s t) = (r : EReal) := by
  obtain ⟨B, hB⟩ := msk_le a s
  rw [max_eq_right bot_le]
  refine real_of_between (lb := a (lo 0)) (ub := B) ?_ (iSup_le hB)
  rw [← msk_lo_zero a s]
  exact le_iSup (msk a s) (lo 0)

/-- The first tile's maximum is a real number. -/
theorem maxLo_real : ∃ r : ℝ, max ⊥ (⨆ c : Fin 1024, msk a s (lo c)) = (r : EReal) := by
  obtain ⟨B, hB⟩ := msk_le a s
  rw [max_eq_right bot_le]
  refine real_of_between (lb := a (lo 0)) (ub := B) ?_ (iSup_le fun c => hB (lo c))
  rw [← msk_lo_zero a s]
  exact le_iSup (fun c : Fin 1024 => msk a s (lo c)) 0

/-- The maximum after the second tile is a real number. -/
theorem maxHi_real (m : ℝ) : ∃ r : ℝ, max (m : EReal) (⨆ c : Fin 1024, msk a s (hi c)) = (r : EReal) := by
  obtain ⟨B, hB⟩ := msk_le a s
  refine real_of_between (lb := m) (ub := max m B) (le_max_left _ _) (max_le ?_ ?_)
  · exact EReal.coe_le_coe_iff.mpr (le_max_left m B)
  · exact (iSup_le fun c => hB (hi c)).trans (EReal.coe_le_coe_iff.mpr (le_max_right m B))

theorem sumLo_pos : 0 < ∑ c : Fin 1024, u a s (lo c) :=
  Finset.sum_pos' (fun c _ => u_nonneg a s (lo c)) ⟨0, Finset.mem_univ _, u_lo_zero_pos a s⟩

theorem sumHi_nonneg : 0 ≤ ∑ c : Fin 1024, u a s (hi c) :=
  Finset.sum_nonneg fun c _ => u_nonneg a s (hi c)

/-- A common positive real factor cancels in a quotient. -/
theorem div_scaled (N D e : ℝ) (hD : D ≠ 0) (he : e ≠ 0) :
    Ideal.div ((N * e : ℝ) : EReal) ((D * e : ℝ) : EReal) = ((N / D : ℝ) : EReal) := by
  rw [Ideal.div_coe (mul_ne_zero hD he), ← EReal.coe_mul]
  congr 1
  field_simp

/-! ### The one-pass form of a row -/

theorem ref_row (m : ℝ) :
    (∑ t, Ideal.div (Ideal.exp (msk a s t - (m : EReal))) (0 + ∑ t, Ideal.exp (msk a s t - (m : EReal)))
        * (v t : EReal))
      = (((∑ c : Fin 1024, u a s (lo c) * v (lo c) + ∑ c : Fin 1024, u a s (hi c) * v (hi c))
          / (∑ c : Fin 1024, u a s (lo c) + ∑ c : Fin 1024, u a s (hi c)) : ℝ) : EReal) := by
  have hD : (∑ c : Fin 1024, u a s (lo c) + ∑ c : Fin 1024, u a s (hi c)) ≠ 0 :=
    (add_pos_of_pos_of_nonneg (sumLo_pos a s) (sumHi_nonneg a s)).ne'
  have he : Real.exp (-m) ≠ 0 := (Real.exp_pos _).ne'
  simp only [exp_msk]
  rw [zero_add, ← coe_fsum, ← Finset.sum_mul, sum_tiles (fun t => u a s t)]
  simp only [div_scaled _ _ _ hD he, ← EReal.coe_mul]
  rw [← coe_fsum]
  congr 1
  rw [sum_tiles, add_div, Finset.sum_div, Finset.sum_div]
  congr 1 <;> exact Finset.sum_congr rfl fun c _ => by ring

/-! ### The streaming form of a row -/

theorem l1_row (m : ℝ) :
    Ideal.exp (⊥ - (m : EReal)) * 0 + ∑ c : Fin 1024, Ideal.exp (msk a s (lo c) - (m : EReal))
      = (((∑ c : Fin 1024, u a s (lo c)) * Real.exp (-m) : ℝ) : EReal) := by
  simp only [exp_msk]
  rw [mul_zero, zero_add, ← coe_fsum, Finset.sum_mul]

theorem acc1_row (m : ℝ) :
    Ideal.exp (⊥ - (m : EReal)) * 0
        + ∑ c : Fin 1024, Ideal.exp (msk a s (lo c) - (m : EReal)) * (v (lo c) : EReal)
      = (((∑ c : Fin 1024, u a s (lo c) * v (lo c)) * Real.exp (-m) : ℝ) : EReal) := by
  simp only [exp_msk, ← EReal.coe_mul]
  rw [mul_zero, zero_add, ← coe_fsum, Finset.sum_mul]
  congr 1
  exact Finset.sum_congr rfl fun c _ => by ring

theorem l2_row (m m' : ℝ) :
    Ideal.exp ((m : EReal) - (m' : EReal)) * (((∑ c : Fin 1024, u a s (lo c)) * Real.exp (-m) : ℝ) : EReal)
        + ∑ c : Fin 1024, Ideal.exp (msk a s (hi c) - (m' : EReal))
      = (((∑ c : Fin 1024, u a s (lo c) + ∑ c : Fin 1024, u a s (hi c)) * Real.exp (-m') : ℝ) : EReal) := by
  simp only [exp_msk]
  rw [← EReal.coe_sub, Ideal.exp_coe, ← EReal.coe_mul, ← coe_fsum, ← EReal.coe_add, ← Finset.sum_mul]
  congr 1
  have h : Real.exp (m - m') * Real.exp (-m) = Real.exp (-m') := by
    rw [← Real.exp_add]; congr 1; ring
  rw [add_mul, ← h]
  ring

theorem acc2_row (m m' : ℝ) :
    Ideal.exp ((m : EReal) - (m' : EReal))
          * (((∑ c : Fin 1024, u a s (lo c) * v (lo c)) * Real.exp (-m) : ℝ) : EReal)
        + ∑ c : Fin 1024, Ideal.exp (msk a s (hi c) - (m' : EReal)) * (v (hi c) : EReal)
      = (((∑ c : Fin 1024, u a s (lo c) * v (lo c) + ∑ c : Fin 1024, u a s (hi c) * v (hi c))
          * Real.exp (-m') : ℝ) : EReal) := by
  simp only [exp_msk, ← EReal.coe_mul]
  rw [← EReal.coe_sub, Ideal.exp_coe, ← EReal.coe_mul, ← coe_fsum, ← EReal.coe_add]
  congr 1
  have h : Real.exp (m - m') * Real.exp (-m) = Real.exp (-m') := by
    rw [← Real.exp_add]; congr 1; ring
  have h2 : ∑ c : Fin 1024, u a s (hi c) * Real.exp (-m') * v (hi c)
      = (∑ c : Fin 1024, u a s (hi c) * v (hi c)) * Real.exp (-m') := by
    rw [Finset.sum_mul]; exact Finset.sum_congr rfl fun c _ => by ring
  rw [h2, add_mul, ← h]
  ring

end row

/-! ## The logits of the two forms -/

section logits

variable {K Q : Fin 2048 → Fin 1024 → EReal} {kr qr : Fin 2048 → Fin 1024 → ℝ}

/-- The real logit of the pair `(s, t)`. -/
def arow (kr qr : Fin 2048 → Fin 1024 → ℝ) (s t : Fin 2048) : ℝ := (∑ d, kr s d * qr t d) * (1 / 32)

/-- Dividing the dot product by `√1024` is multiplying it by `1/32`. -/
theorem simR_eq (hK : ∀ s d, K s d = (kr s d : EReal)) (hQ : ∀ s d, Q s d = (qr s d : EReal))
    (s t : Fin 2048) : simR K Q s t = (arow kr qr s t : EReal) := by
  unfold simR arow
  rw [sqrt1024_eq, Ideal.div_coe (y := 32) (by norm_num)]
  simp only [hK, hQ, ← EReal.coe_mul, ← coe_fsum]

/-- The scale multiplied into `K` first moves out of the finite sum of reals. -/
theorem simK_eq (hK : ∀ s d, K s d = (kr s d : EReal)) (hQ : ∀ s d, Q s d = (qr s d : EReal))
    (s t : Fin 2048) : simK K Q s t = (arow kr qr s t : EReal) := by
  unfold simK arow
  simp only [hK, hQ, c32_eq, ← EReal.coe_mul, ← coe_fsum]
  congr 1
  rw [Finset.sum_mul]
  exact Finset.sum_congr rfl fun d _ => by ring

theorem mskR_eq (hK : ∀ s d, K s d = (kr s d : EReal)) (hQ : ∀ s d, Q s d = (qr s d : EReal))
    (s t : Fin 2048) : mskR K Q s t = msk (arow kr qr s) s t := by
  unfold mskR msk
  rw [simR_eq hK hQ]

theorem mskK_eq (hK : ∀ s d, K s d = (kr s d : EReal)) (hQ : ∀ s d, Q s d = (qr s d : EReal))
    (s t : Fin 2048) : mskK K Q s t = msk (arow kr qr s) s t := by
  unfold mskK msk
  rw [simK_eq hK hQ]

end logits

/-! ## The two forms agree -/

theorem kerOut_eq_refOut (K Q V : Fin 2048 → Fin 1024 → EReal)
    (hK : ∀ s d, ∃ r : ℝ, K s d = (r : EReal)) (hQ : ∀ s d, ∃ r : ℝ, Q s d = (r : EReal))
    (hV : ∀ s d, ∃ r : ℝ, V s d = (r : EReal))
    (s : Fin 2048) (d : Fin 1024) : kerOut K Q V s d = refOut K Q V s d := by
  choose kr hkr using hK
  choose qr hqr using hQ
  choose vr hvr using hV
  -- the real data of row `s` and of column `d` of `V`
  have hmR : ∀ t, mskR K Q s t = msk (arow kr qr s) s t := mskR_eq hkr hqr s
  have hmK : ∀ t, mskK K Q s t = msk (arow kr qr s) s t := mskK_eq hkr hqr s
  generalize arow kr qr s = a at hmR hmK
  obtain ⟨v, hv⟩ : ∃ v : Fin 2048 → ℝ, ∀ t, V t d = (v t : EReal) := ⟨fun t => vr t d, fun t => hvr t d⟩
  have he : ∀ m : ℝ, Real.exp (-m) ≠ 0 := fun m => (Real.exp_pos _).ne'
  have hD : (∑ c : Fin 1024, u a s (lo c) + ∑ c : Fin 1024, u a s (hi c)) ≠ 0 :=
    (add_pos_of_pos_of_nonneg (sumLo_pos a s) (sumHi_nonneg a s)).ne'
  -- the one-pass form
  obtain ⟨μ, hμ'⟩ := maxAll_real a s
  have hμ : maxR K Q s = (μ : EReal) := by
    unfold maxR
    simp only [hmR]
    exact hμ'
  have hRef : refOut K Q V s d
      = (((∑ c : Fin 1024, u a s (lo c) * v (lo c) + ∑ c : Fin 1024, u a s (hi c) * v (hi c))
          / (∑ c : Fin 1024, u a s (lo c) + ∑ c : Fin 1024, u a s (hi c)) : ℝ) : EReal) := by
    unfold refOut sumR
    simp only [expR, hμ, hmR, hv]
    exact ref_row a v s μ
  -- the streaming form, first tile
  obtain ⟨μ1, h1'⟩ := maxLo_real a s
  have h1 : m1 K Q s = (μ1 : EReal) := by
    unfold m1
    simp only [hmK]
    exact h1'
  have hl1 : l1 K Q s = (((∑ c : Fin 1024, u a s (lo c)) * Real.exp (-μ1) : ℝ) : EReal) := by
    unfold l1
    simp only [a1, p1, h1, hmK]
    exact l1_row a s μ1
  have hacc1 : acc1 K Q V s d
      = (((∑ c : Fin 1024, u a s (lo c) * v (lo c)) * Real.exp (-μ1) : ℝ) : EReal) := by
    unfold acc1
    simp only [a1, p1, h1, hmK, hv]
    exact acc1_row a v s μ1
  rw [hRef]
  by_cases hs : s.val < 1024
  · -- rows of the first tile: every column of the second tile is masked
    unfold kerOut
    rw [if_pos hs, hacc1, hl1, div_scaled _ _ _ (sumLo_pos a s).ne' (he μ1)]
    have hN : ∑ c : Fin 1024, u a s (hi c) * v (hi c) = 0 :=
      Finset.sum_eq_zero fun c _ => by rw [u_hi_zero a s hs c, zero_mul]
    have hU : ∑ c : Fin 1024, u a s (hi c) = 0 :=
      Finset.sum_eq_zero fun c _ => u_hi_zero a s hs c
    rw [hN, hU, add_zero, add_zero]
  · -- the other rows: the second tile is added with the rescaling `exp (m1 - m2)`
    obtain ⟨μ2, h2'⟩ := maxHi_real a s μ1
    have h2 : m2 K Q s = (μ2 : EReal) := by
      unfold m2
      rw [h1]
      simp only [hmK]
      exact h2'
    have hl2 : l2 K Q s
        = (((∑ c : Fin 1024, u a s (lo c) + ∑ c : Fin 1024, u a s (hi c)) * Real.exp (-μ2) : ℝ) : EReal) := by
      unfold l2
      rw [hl1]
      simp only [a2, p2, h1, h2, hmK]
      exact l2_row a s μ1 μ2
    have hacc2 : acc2 K Q V s d
        = (((∑ c : Fin 1024, u a s (lo c) * v (lo c) + ∑ c : Fin 1024, u a s (hi c) * v (hi c))
            * Real.exp (-μ2) : ℝ) : EReal) := by
      unfold acc2
      rw [hacc1]
      simp only [a2, p2, h1, h2, hmK, hv]
      exact acc2_row a v s μ1 μ2
    unfold kerOut
    rw [if_neg hs, hacc2, hl2, div_scaled _ _ _ hD (he μ2)]

end Cert.AttnSpec

end
-- ==== Proof.KValue.lean ====
import proofs.«158006_j27814208209133_2_alg».proof.Proof.KFinal1
import proofs.«158006_j27814208209133_2_alg».proof.Proof.KVal0
import proofs.«158006_j27814208209133_2_alg».proof.Proof.KHost
import proofs.«158006_j27814208209133_2_alg».proof.Proof.SoftmaxMath

set_option maxRecDepth 16384

noncomputable section

open scoped BigOperators

namespace Cert.KernelIdeal.Hand

open Cert.KernelIdeal Cert.KernelIdeal.Gen Cert.KernelIdeal.KHost Cert.AttnSpec
open Idealize.ShloMosaic Idealize.ShloMosaic.TcCoe Idealize.ShloMosaic.ValueIdx
open Idealize.SL Idealize.SL.Sem
open Idealize.ShloMosaic.Pipeline (Dat)

/-! # The kernel program's result as a function of its arguments

At the extended reals: the stacked weights and biases and the reshaped input make the projection region's three
result arrays the three linear layers (the first one scaled by 1/32); reshaped back, they are what the attention
region reads; its result array is the streaming form over them, which on real projections is the one-pass form. -/

section Value
variable (m : (ℓ : Loc nD τ sig) → Buf (Elt Ideal) ℓ) (ρ : Dev nD → PrngReg) (c : Dev nD)

/-- A linear layer of the stacked tables at the row of `(b, s)` is the layer of its own weights and bias. -/
theorem lin_k (b : Fin 4) (s : Fin 2048) (f : Fin 1024) :
    lin (V1 m ρ c main_v4) (V1 m ρ c main_v1) (V1 m ρ c main_v3) (⟨2048 * b.val + s.val, by have := b.isLt; have := s.isLt; omega⟩ : Fin 8192)
        (⟨f.val, Nat.lt_trans f.isLt (by decide)⟩ : Fin 3072)
      = proj (m ((c.tc : Thread nD τ).loc main_arg0)) (m ((c.tc : Thread nD τ).loc main_arg1)) (m ((c.tc : Thread nD τ).loc main_arg2)) b s f := by
  unfold lin proj
  exact congrArg₂ (· + ·) (Finset.sum_congr rfl fun e _ => congrArg₂ (· * ·) (v4_at (W0 m ρ c) b s e) (v1_at_0 (W0 m ρ c) f e))
    (v3_at_0 (W0 m ρ c) f)
theorem lin_q (b : Fin 4) (s : Fin 2048) (f : Fin 1024) :
    lin (V1 m ρ c main_v4) (V1 m ρ c main_v1) (V1 m ρ c main_v3) (⟨2048 * b.val + s.val, by have := b.isLt; have := s.isLt; omega⟩ : Fin 8192)
        (⟨1024 + f.val, by have := f.isLt; omega⟩ : Fin 3072)
      = proj (m ((c.tc : Thread nD τ).loc main_arg0)) (m ((c.tc : Thread nD τ).loc main_arg3)) (m ((c.tc : Thread nD τ).loc main_arg4)) b s f := by
  unfold lin proj
  exact congrArg₂ (· + ·) (Finset.sum_congr rfl fun e _ => congrArg₂ (· * ·) (v4_at (W0 m ρ c) b s e) (v1_at_1 (W0 m ρ c) f e))
    (v3_at_1 (W0 m ρ c) f)
theorem lin_v (b : Fin 4) (s : Fin 2048) (f : Fin 1024) :
    lin (V1 m ρ c main_v4) (V1 m ρ c main_v1) (V1 m ρ c main_v3) (⟨2048 * b.val + s.val, by have := b.isLt; have := s.isLt; omega⟩ : Fin 8192)
        (⟨2048 + f.val, by have := f.isLt; omega⟩ : Fin 3072)
      = proj (m ((c.tc : Thread nD τ).loc main_arg0)) (m ((c.tc : Thread nD τ).loc main_arg5)) (m ((c.tc : Thread nD τ).loc main_arg6)) b s f := by
  unfold lin proj
  exact congrArg₂ (· + ·) (Finset.sum_congr rfl fun e _ => congrArg₂ (· * ·) (v4_at (W0 m ρ c) b s e) (v1_at_2 (W0 m ρ c) f e))
    (v3_at_2 (W0 m ρ c) f)

/-- What the attention region reads: the first projection scaled, the second and third as they are. -/
theorem KS_eq (b : Fin 4) : KS (V3 m ρ) c b
    = fun s d => proj (m ((c.tc : Thread nD τ).loc main_arg0)) (m ((c.tc : Thread nD τ).loc main_arg1)) (m ((c.tc : Thread nD τ).loc main_arg2)) b s d * c32 := by
  funext s d
  unfold KS
  refine (v6_at (W2 m ρ c) b s d).trans ?_
  refine (congrFun (W2_arr m ρ c 3) _).trans ?_
  rw [final0_3 (V1 m ρ) c b s d, lin_k m ρ c b s d]
  rfl
theorem QS_eq (b : Fin 4) : QS (V3 m ρ) c b
    = fun s d => proj (m ((c.tc : Thread nD τ).loc main_arg0)) (m ((c.tc : Thread nD τ).loc main_arg3)) (m ((c.tc : Thread nD τ).loc main_arg4)) b s d := by
  funext s d
  unfold QS
  refine (v7_at (W2 m ρ c) b s d).trans ?_
  refine (congrFun (W2_arr m ρ c 4) _).trans ?_
  rw [final0_4 (V1 m ρ) c b s d, lin_q m ρ c b s d]
theorem VS_eq (b : Fin 4) : VS (V3 m ρ) c b
    = fun s d => proj (m ((c.tc : Thread nD τ).loc main_arg0)) (m ((c.tc : Thread nD τ).loc main_arg5)) (m ((c.tc : Thread nD τ).loc main_arg6)) b s d := by
  funext s d
  unfold VS
  refine (v8_at (W2 m ρ c) b s d).trans ?_
  refine (congrFun (W2_arr m ρ c 5) _).trans ?_
  rw [final0_5 (V1 m ρ) c b s d, lin_v m ρ c b s d]

/-- The result array, entry by entry: the one-pass form over the three projections, when those are real. -/
theorem result_eq
    (hK : ∀ b s f, ∃ r : ℝ, proj (m ((c.tc : Thread nD τ).loc main_arg0)) (m ((c.tc : Thread nD τ).loc main_arg1)) (m ((c.tc : Thread nD τ).loc main_arg2)) b s f = (r : EReal))
    (hQ : ∀ b s f, ∃ r : ℝ, proj (m ((c.tc : Thread nD τ).loc main_arg0)) (m ((c.tc : Thread nD τ).loc main_arg3)) (m ((c.tc : Thread nD τ).loc main_arg4)) b s f = (r : EReal))
    (hV : ∀ b s f, ∃ r : ℝ, proj (m ((c.tc : Thread nD τ).loc main_arg0)) (m ((c.tc : Thread nD τ).loc main_arg5)) (m ((c.tc : Thread nD τ).loc main_arg6)) b s f = (r : EReal)) :
    (W4 m ρ c (Proc.devRef .tc main_v9) : S4x2048x1024.Idx → EReal)
      = fun i => refOut
          (fun s f => proj (m ((c.tc : Thread nD τ).loc main_arg0)) (m ((c.tc : Thread nD τ).loc main_arg1)) (m ((c.tc : Thread nD τ).loc main_arg2)) (i 0) s f)
          (fun s f => proj (m ((c.tc : Thread nD τ).loc main_arg0)) (m ((c.tc : Thread nD τ).loc main_arg3)) (m ((c.tc : Thread nD τ).loc main_arg4)) (i 0) s f)
          (fun s f => proj (m ((c.tc : Thread nD τ).loc main_arg0)) (m ((c.tc : Thread nD τ).loc main_arg5)) (m ((c.tc : Thread nD τ).loc main_arg6)) (i 0) s f)
          (i 1) (i 2) := by
  refine (W4_arr m ρ c 3).trans ((final1 (V3 m ρ) c).trans (funext fun i => ?_))
  unfold G1
  rw [KS_eq m ρ c (i 0), QS_eq m ρ c (i 0), VS_eq m ρ c (i 0)]
  exact (kerOut_eq_outRow
      (fun s f => proj (m ((c.tc : Thread nD τ).loc main_arg0)) (m ((c.tc : Thread nD τ).loc main_arg1)) (m ((c.tc : Thread nD τ).loc main_arg2)) (i 0) s f)
      (fun s f => proj (m ((c.tc : Thread nD τ).loc main_arg0)) (m ((c.tc : Thread nD τ).loc main_arg3)) (m ((c.tc : Thread nD τ).loc main_arg4)) (i 0) s f)
      (fun s f => proj (m ((c.tc : Thread nD τ).loc main_arg0)) (m ((c.tc : Thread nD τ).loc main_arg5)) (m ((c.tc : Thread nD τ).loc main_arg6)) (i 0) s f)
      (i 1) (i 2)).symm.trans
    (kerOut_eq_refOut _ _ _ (hK (i 0)) (hQ (i 0)) (hV (i 0)) (i 1) (i 2))

end Value

end Cert.KernelIdeal.Hand

end
-- ==== Proof.LibRealEntries.lean ====
/-
  Arrays of extended reals all of whose entries are real numbers.

  The property passes through everything a chain of dense layers is made of: reading an array at
  re-arranged indices (transposes, slices, reshapes, broadcasts are all of the form j ↦ x (f j)), entrywise
  sums, and a dot_general, whose entry is a finite sum of products of entries.  It is what a precondition
  "every input is finite" gives for the inputs: an entry whose absolute value is below +∞ is neither +∞ nor −∞.
-/
import Idealize.ShloMosaic.PureOps.Ideal.Laws
import Idealize.ShloMosaic.Lib.ReduceAll
import Idealize.ShloMosaic.Lib.ValueIdx

noncomputable section

namespace RealEntries

open Idealize.ShloMosaic

/-- Every entry of the array is a real number (neither infinity). -/
def IsReal {ι : Type} (v : ι → EReal) : Prop := ∀ i, ∃ r : ℝ, v i = (r : EReal)

/-- Reading a real-valued array at re-arranged indices gives a real-valued array. -/
theorem IsReal.comp {ι κ : Type} {v : ι → EReal} (h : IsReal v) (f : κ → ι) : IsReal (fun j => v (f j)) :=
  fun j => h (f j)

/-- The entrywise sum of two real-valued arrays is real-valued. -/
theorem IsReal.add {ι : Type} {v w : ι → EReal} (hv : IsReal v) (hw : IsReal w) : IsReal (fun i => v i + w i) := fun i => by
  obtain ⟨a, ha⟩ := hv i
  obtain ⟨b, hb⟩ := hw i
  exact ⟨a + b, by show v i + w i = _; rw [ha, hb, EReal.coe_add]⟩

/-- A finite sum of real numbers read in the extended reals is a real number. -/
theorem exists_real_sum {κ : Type} (s : Finset κ) (f : κ → EReal) (h : ∀ k, ∃ r : ℝ, f k = (r : EReal)) :
    ∃ r : ℝ, ∑ k ∈ s, f k = (r : EReal) := by
  classical
  refine Finset.induction_on s ⟨0, by simp⟩ ?_
  intro a s ha ⟨r, hr⟩
  obtain ⟨b, hb⟩ := h a
  exact ⟨b + r, by rw [Finset.sum_insert ha, hr, hb, EReal.coe_add]⟩

/-- An array whose entry at i is a finite sum over k of products of entries of two real-valued arrays is real-valued. -/
theorem isReal_sum_mul {ι κ α β : Type} [Fintype κ] {l : α → EReal} {r : β → EReal} (hl : IsReal l) (hr : IsReal r)
    (f : ι → κ → α) (g : ι → κ → β) : IsReal (fun i => ∑ k, l (f i k) * r (g i k)) := fun i =>
  exists_real_sum _ _ fun k => by
    obtain ⟨a, ha⟩ := hl (f i k)
    obtain ⟨b, hb⟩ := hr (g i k)
    exact ⟨a * b, by show l (f i k) * r (g i k) = _; rw [ha, hb, EReal.coe_mul]⟩

variable {s t : Shape} {φ : FTy}

theorem IsReal.addf {v w : FVec Ideal s φ} (hv : IsReal v) (hw : IsReal w) : IsReal (addf v w) := hv.add hw

theorem IsReal.transpose {v : s.Idx → EReal} (hv : IsReal v) (perm : List (Fin s.rank)) (h : s.Transposes perm t) :
    IsReal (transpose t perm v h) := fun j => hv _

theorem IsReal.broadcastInDim {v : s.Idx → EReal} (hv : IsReal v) (dims : Fin s.rank → Fin t.rank) (h : s.BroadcastsInDim t dims) :
    IsReal (broadcastInDim t dims h v) := fun j => hv _

theorem IsReal.extractStridedSlice {v : s.Idx → EReal} (hv : IsReal v) (off : Fin s.rank → Nat) (h : s.Slices off t) :
    IsReal (extractStridedSlice t off v h) := fun j => hv _

theorem IsReal.shapeCast {v : s.Idx → EReal} (hv : IsReal v) (h : s.ShapeCasts t) : IsReal (shapeCast t v h) := fun j => hv _

/-- The host's dot_general of two real-valued arrays is real-valued: each entry is the sum, over the contracted
    index set, of products of entries. -/
theorem IsReal.dotGeneral {sl sr so : Shape} {φ₁ φ₂ : FTy} (d : DotDims sl sr so) (prec : Option ContractPrecision)
    {l : FVec Ideal sl φ₁} {r : FVec Ideal sr φ₂} (hl : IsReal l) (hr : IsReal r) :
    IsReal (Host.dotGeneral d prec l r : FVec Ideal so φ₁) := fun j => by
  simp only [Host.dotGeneral]
  rw [Ideal.dotGeneral_apply]
  exact isReal_sum_mul hl hr (fun j k => d.lhsIdx j k) (fun j k => d.rhsIdx j k) j

/-- An extended real whose absolute value is below +∞ is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- One conjunct of a "finite inputs" precondition: where the reduction by `and` of the entrywise comparison
    |x| < +∞ (the word 0x7F800000 broadcast from a scalar) is 1, every entry of x is a real number. -/
theorem isReal_of_all_lt_inf {axes : List (Fin s.rank)} {u : Shape} [Subsingleton t.Idx] (x : FVec Ideal s .f32)
    (bound : FVec Ideal s .f32) (hb : ∀ i, bound i = Ideal.ofBits .f32 0x7F800000#32)
    (init : u.Idx → BitVec 1) (h : s.ReducesTo axes t) (hu : 0 < u.numel) (j : t.Idx)
    (e : Host.reduce IntOp.andi (cmpf .olt (Host.absf x) bound) init h hu j = 1#1) : IsReal x := fun i => by
  have hi := Host.reduce_andi_all _ init h hu j e i
  have htop : Ideal.ofBits .f32 0x7F800000#32 = ⊤ := by simp [Ideal.ofBits, Ideal.ieee]
  rw [ValueIdx.cmpf_apply, hb i, htop] at hi
  apply exists_real_of_abs_lt_top
  have h2 : Ideal.cmp .olt (max (x i) (-(x i))) ⊤ = 1#1 := hi
  by_contra hne
  simp [Ideal.cmp, hne] at h2

end RealEntries

end
-- ==== Proof.RefSideReal.lean ====
/-
  Finite inputs give real projections.

  Under the precondition that every entry of the seven input arrays has absolute value below +∞, every entry
  of the inputs is a real number, and so is every entry of a linear layer x · Wᵀ + b over them: a finite sum
  of products of real numbers plus a real number.
-/
import proofs.«158006_j27814208209133_2_alg».proof.Pre_finite_inputs
import proofs.«158006_j27814208209133_2_alg».proof.Proof.Spec
import proofs.«158006_j27814208209133_2_alg».proof.Proof.LibRealEntries

noncomputable section

open scoped BigOperators

namespace Cert.ReferenceIdeal.RefValue

open Idealize.ShloMosaic Idealize.ShloMosaic.ValueIdx Cert.AttnSpec RealEntries

/-- A linear layer over real-valued arrays is real-valued. -/
theorem proj_isReal {x : (⟨3, ![4, 2048, 1024]⟩ : Shape).Idx → EReal} {W : (⟨2, ![1024, 1024]⟩ : Shape).Idx → EReal}
    {bias : (⟨1, ![1024]⟩ : Shape).Idx → EReal} (hx : IsReal x) (hW : IsReal W) (hb : IsReal bias)
    (b : Fin 4) (s : Fin 2048) (f : Fin 1024) : ∃ r : ℝ, proj x W bias b s f = (r : EReal) := by
  unfold proj
  obtain ⟨r1, h1⟩ := exists_real_sum Finset.univ (fun e : Fin 1024 => x (ix3 b s e) * W (ix2 f e)) (fun e => by
    obtain ⟨a, ha⟩ := hx (ix3 b s e)
    obtain ⟨c, hc⟩ := hW (ix2 f e)
    exact ⟨a * c, by rw [ha, hc, EReal.coe_mul]⟩)
  obtain ⟨r2, h2⟩ := hb (ix1 f)
  exact ⟨r1 + r2, by rw [h1, h2, EReal.coe_add]⟩

/-- The scalar shape has one index. -/
instance subsingleton_scalar_idx : Subsingleton Cert.Pre_finite_inputs.S_.Idx := ⟨fun a b => funext fun d => d.elim0⟩

/-- Where the entrywise conjunction of two one-bit arrays is 1, both are. -/
theorem andi_vec_eq_one {s : Shape} (x y : IVec s 1) (i : s.Idx) (h : andi x y i = 1#1) : x i = 1#1 ∧ y i = 1#1 :=
  IntOp.andi_eq_one.1 h

section
variable [Cert.Pre_finite_inputs.Facts]

/-- The precondition "every input is finite" makes each of the seven inputs real-valued. -/
theorem inputs_real (a0 : FVec Ideal Cert.Pre_finite_inputs.S4x2048x1024 .f32)
    (a1 : FVec Ideal Cert.Pre_finite_inputs.S1024x1024 .f32) (a2 : FVec Ideal Cert.Pre_finite_inputs.S1024 .f32)
    (a3 : FVec Ideal Cert.Pre_finite_inputs.S1024x1024 .f32) (a4 : FVec Ideal Cert.Pre_finite_inputs.S1024 .f32)
    (a5 : FVec Ideal Cert.Pre_finite_inputs.S1024x1024 .f32) (a6 : FVec Ideal Cert.Pre_finite_inputs.S1024 .f32)
    (h : Cert.Pre_finite_inputs.fn (F := Ideal) a0 a1 a2 a3 a4 a5 a6 = fun _ => 1#1) :
    IsReal a0 ∧ IsReal a1 ∧ IsReal a2 ∧ IsReal a3 ∧ IsReal a4 ∧ IsReal a5 ∧ IsReal a6 := by
  have h0 := congrFun h ix0
  dsimp only [Cert.Pre_finite_inputs.fn, Cert.Pre_finite_inputs.fn_part1] at h0
  obtain ⟨h28, h32⟩ := andi_vec_eq_one _ _ _ h0
  obtain ⟨h23, h27⟩ := andi_vec_eq_one _ _ _ h28
  obtain ⟨h18, h22⟩ := andi_vec_eq_one _ _ _ h23
  obtain ⟨h13, h17⟩ := andi_vec_eq_one _ _ _ h18
  obtain ⟨h8, h12⟩ := andi_vec_eq_one _ _ _ h13
  obtain ⟨h3, h7⟩ := andi_vec_eq_one _ _ _ h8
  exact ⟨isReal_of_all_lt_inf a0 _ (fun _ => rfl) _ _ _ _ h3, isReal_of_all_lt_inf a1 _ (fun _ => rfl) _ _ _ _ h7,
    isReal_of_all_lt_inf a2 _ (fun _ => rfl) _ _ _ _ h12, isReal_of_all_lt_inf a3 _ (fun _ => rfl) _ _ _ _ h17,
    isReal_of_all_lt_inf a4 _ (fun _ => rfl) _ _ _ _ h22, isReal_of_all_lt_inf a5 _ (fun _ => rfl) _ _ _ _ h27,
    isReal_of_all_lt_inf a6 _ (fun _ => rfl) _ _ _ _ h32⟩

/-- Under the precondition every entry of the three projections is a real number. -/
theorem proj_real (a0 : FVec Ideal Cert.Pre_finite_inputs.S4x2048x1024 .f32)
    (a1 : FVec Ideal Cert.Pre_finite_inputs.S1024x1024 .f32) (a2 : FVec Ideal Cert.Pre_finite_inputs.S1024 .f32)
    (a3 : FVec Ideal Cert.Pre_finite_inputs.S1024x1024 .f32) (a4 : FVec Ideal Cert.Pre_finite_inputs.S1024 .f32)
    (a5 : FVec Ideal Cert.Pre_finite_inputs.S1024x1024 .f32) (a6 : FVec Ideal Cert.Pre_finite_inputs.S1024 .f32)
    (h : Cert.Pre_finite_inputs.fn (F := Ideal) a0 a1 a2 a3 a4 a5 a6 = fun _ => 1#1) :
    (∀ b s f, ∃ r : ℝ, proj a0 a1 a2 b s f = (r : EReal)) ∧ (∀ b s f, ∃ r : ℝ, proj a0 a3 a4 b s f = (r : EReal))
      ∧ (∀ b s f, ∃ r : ℝ, proj a0 a5 a6 b s f = (r : EReal)) := by
  obtain ⟨r0, r1, r2, r3, r4, r5, r6⟩ := inputs_real a0 a1 a2 a3 a4 a5 a6 h
  exact ⟨proj_isReal r0 r1 r2, proj_isReal r0 r3 r4, proj_isReal r0 r5 r6⟩

end

end Cert.ReferenceIdeal.RefValue

end
-- ==== Proof.RefSide.lean ====
/-
  The reference program read as mathematics.

  Entry (b, s, d) of the reference program's result is the one-pass causal attention of the specification
  over the three linear projections of batch entry b; and under the precondition that every input is finite,
  every entry of the three projections is a real number.
-/
import proofs.«158006_j27814208209133_2_alg».proof.Proof.Gen.ReferenceIdeal.Read
import proofs.«158006_j27814208209133_2_alg».proof.Proof.Spec
import proofs.«158006_j27814208209133_2_alg».proof.Proof.LibMaxReduce
import proofs.«158006_j27814208209133_2_alg».proof.Proof.LibRealEntries
import proofs.«158006_j27814208209133_2_alg».proof.Proof.LibSignedIndex
import proofs.«158006_j27814208209133_2_alg».proof.Proof.RefSideReal

noncomputable section

open scoped BigOperators

namespace Cert.ReferenceIdeal.RefValue

open Cert.ReferenceIdeal Cert.ReferenceIdeal.Gen Cert.ReferenceIdeal.Read Idealize.ShloMosaic Idealize.ShloMosaic.ValueIdx Cert.AttnSpec

/-- The three-dimensional inputs, the weight matrices and the bias rows, as arrays of extended reals. -/
abbrev X3 := (⟨S4x2048x1024, .f32⟩ : BufTy).Contents (Elt Ideal)
abbrev W2 := (⟨S1024x1024, .f32⟩ : BufTy).Contents (Elt Ideal)
abbrev B1 := (⟨S1024, .f32⟩ : BufTy).Contents (Elt Ideal)

/-! ## The causal comparison on 32-bit words -/

/-- For row and column numbers below 2048 the signed comparison "row + 0 ≥ column" of their 32-bit words
    is the comparison of the numbers. -/
theorem tril_word (s t : Fin 2048) :
    IntOp.cmpi .sge (IntOp.addi (BitVec.ofNat 32 s.val) 0#32) (BitVec.ofNat 32 t.val)
      = if t.val ≤ s.val then 1#1 else 0#1 := by
  have hs := Cert.Lib.SignedIndex.toInt_ofNat_small s.val (by omega)
  have ht := Cert.Lib.SignedIndex.toInt_ofNat_small t.val (by omega)
  simp only [IntOp.cmpi, IntOp.addi, BitVec.add_zero, BitVec.sle, hs, ht]
  by_cases h : t.val ≤ s.val
  · simp [h]
  · simp [h]

/-! ## The three linear layers -/

theorem lidx_v0 (b : Fin 4) (s : Fin 2048) (f k : Fin 1024) : lidx_main_v0 (ix3 b s f) k = ix3 b s k :=
  funext fun a => Fin.ext (by match a with | ⟨0, _⟩ => rfl | ⟨1, _⟩ => rfl | ⟨2, _⟩ => rfl)
theorem ridx_v0 (b : Fin 4) (s : Fin 2048) (f k : Fin 1024) : ridx_main_v0 (ix3 b s f) k = ix2 f k :=
  funext fun a => Fin.ext (by match a with | ⟨0, _⟩ => rfl | ⟨1, _⟩ => rfl)
theorem idx_v1_v2 (b : Fin 4) (s : Fin 2048) (f : Fin 1024) : idx_main_v1 (idx_main_v2 (ix3 b s f)) = ix1 f :=
  funext fun a => Fin.ext (by match a with | ⟨0, _⟩ => rfl)

/-- The first linear layer at (b, s, f) is the specification's projection. -/
theorem v3_eq (x0 : X3) (x1 : W2) (x2 : B1) (b : Fin 4) (s : Fin 2048) (f : Fin 1024) :
    val_main_v3 (F := Ideal) x0 x1 x2 (ix3 b s f) = proj x0 x1 x2 b s f := by
  rw [val_main_v3_apply, val_main_v0_apply, val_main_v2_apply, val_main_v1_apply, idx_v1_v2]
  simp only [lidx_v0, ridx_v0]
  rfl

theorem lidx_v4 (b : Fin 4) (s : Fin 2048) (f k : Fin 1024) : lidx_main_v4 (ix3 b s f) k = ix3 b s k :=
  funext fun a => Fin.ext (by match a with | ⟨0, _⟩ => rfl | ⟨1, _⟩ => rfl | ⟨2, _⟩ => rfl)
theorem ridx_v4 (b : Fin 4) (s : Fin 2048) (f k : Fin 1024) : ridx_main_v4 (ix3 b s f) k = ix2 f k :=
  funext fun a => Fin.ext (by match a with | ⟨0, _⟩ => rfl | ⟨1, _⟩ => rfl)
theorem idx_v5_v6 (b : Fin 4) (s : Fin 2048) (f : Fin 1024) : idx_main_v5 (idx_main_v6 (ix3 b s f)) = ix1 f :=
  funext fun a => Fin.ext (by match a with | ⟨0, _⟩ => rfl)

/-- The second linear layer at (b, s, f). -/
theorem v7_eq (x0 : X3) (x3 : W2) (x4 : B1) (b : Fin 4) (s : Fin 2048) (f : Fin 1024) :
    val_main_v7 (F := Ideal) x0 x3 x4 (ix3 b s f) = proj x0 x3 x4 b s f := by
  rw [val_main_v7_apply, val_main_v4_apply, val_main_v6_apply, val_main_v5_apply, idx_v5_v6]
  simp only [lidx_v4, ridx_v4]
  rfl

theorem lidx_v8 (b : Fin 4) (s : Fin 2048) (f k : Fin 1024) : lidx_main_v8 (ix3 b s f) k = ix3 b s k :=
  funext fun a => Fin.ext (by match a with | ⟨0, _⟩ => rfl | ⟨1, _⟩ => rfl | ⟨2, _⟩ => rfl)
theorem ridx_v8 (b : Fin 4) (s : Fin 2048) (f k : Fin 1024) : ridx_main_v8 (ix3 b s f) k = ix2 f k :=
  funext fun a => Fin.ext (by match a with | ⟨0, _⟩ => rfl | ⟨1, _⟩ => rfl)
theorem idx_v9_v10 (b : Fin 4) (s : Fin 2048) (f : Fin 1024) : idx_main_v9 (idx_main_v10 (ix3 b s f)) = ix1 f :=
  funext fun a => Fin.ext (by match a with | ⟨0, _⟩ => rfl)

/-- The third linear layer at (b, s, f). -/
theorem v11_eq (x0 : X3) (x5 : W2) (x6 : B1) (b : Fin 4) (s : Fin 2048) (f : Fin 1024) :
    val_main_v11 (F := Ideal) x0 x5 x6 (ix3 b s f) = proj x0 x5 x6 b s f := by
  rw [val_main_v11_apply, val_main_v8_apply, val_main_v10_apply, val_main_v9_apply, idx_v9_v10]
  simp only [lidx_v8, ridx_v8]
  rfl

/-! ## The logits -/

section Attn
variable (x0 : X3) (x1 : W2) (x2 : B1) (x3 : W2) (x4 : B1) (b : Fin 4)

/-- The first projection of batch entry b, as the specification takes it. -/
abbrev Kp : Fin 2048 → Fin 1024 → EReal := fun s f => proj x0 x1 x2 b s f
/-- The second projection of batch entry b. -/
abbrev Qp : Fin 2048 → Fin 1024 → EReal := fun s f => proj x0 x3 x4 b s f

theorem lidx_v12 (s t : Fin 2048) (k : Fin 1024) : lidx_main_v12 (ix3 b s t) k = ix3 b s k :=
  funext fun a => Fin.ext (by match a with | ⟨0, _⟩ => rfl | ⟨1, _⟩ => rfl | ⟨2, _⟩ => rfl)
theorem ridx_v12 (s t : Fin 2048) (k : Fin 1024) : ridx_main_v12 (ix3 b s t) k = ix3 b t k :=
  funext fun a => Fin.ext (by match a with | ⟨0, _⟩ => rfl | ⟨1, _⟩ => rfl | ⟨2, _⟩ => rfl)

/-- The scaled dot product at (b, s, t) is the specification's logit. -/
theorem v15_eq (s t : Fin 2048) :
    val_main_v15 (F := Ideal) x0 x1 x2 x3 x4 (ix3 b s t) = simR (Kp x0 x1 x2 b) (Qp x0 x3 x4 b) s t := by
  rw [val_main_v15_apply, val_main_v12_apply, val_main_v14_apply, val_main_v13_apply, val_main_cst_apply]
  simp only [lidx_v12, ridx_v12, v3_eq, v7_eq]
  rfl

/-! ## The mask -/

/-- The lower-triangle mask at (b, s, t): one exactly when t ≤ s. -/
theorem mask_eq (s t : Fin 2048) :
    val_main_call1_v1 (F := Ideal) (ix3 b s t) = if t.val ≤ s.val then 1#1 else 0#1 := by
  rw [val_main_call1_v1_apply, val_main_v17_apply, val_main_call0_v4_apply, val_main_call0_v2_apply,
    val_main_call0_v0_apply, val_main_call0_v1_apply, val_main_call0_c_apply, val_main_call0_v3_apply,
    val_main_v16_apply, val_main_c_apply, val_main_call0_v5_apply, val_main_call0_c_0_apply]
  show Scalar.select (IntOp.cmpi .sge (IntOp.addi (BitVec.ofNat 32 s.val) 0#32) (BitVec.ofNat 32 t.val)) 1#1 0#1 = _
  rw [tril_word]
  by_cases h : t.val ≤ s.val
  · rw [if_pos h, select_one]
  · rw [if_neg h, select_zero]

/-- The masked logit at (b, s, t). -/
theorem v18_eq (s t : Fin 2048) :
    val_main_v18 (F := Ideal) x0 x1 x2 x3 x4 (ix3 b s t) = mskR (Kp x0 x1 x2 b) (Qp x0 x3 x4 b) s t := by
  rw [val_main_v18_apply, mask_eq, v15_eq, val_main_call1_v2_apply, val_main_call1_v0_apply, val_main_cst_0_apply]
  unfold mskR
  by_cases h : t.val ≤ s.val
  · rw [if_pos h, if_pos h, select_one]
  · rw [if_neg h, if_neg h, select_zero]
    exact Cert.Lib.MaxReduce.ofBits_neg_inf_f32

/-! ## The row maximum -/

/-- The lane form of the shape fact of the two row reductions. -/
theorem reduces_d2 : S4x2048x2048.Reduces [2] S4x2048 := by decide

/-- Row (b, s) with the column t put back is (b, s, t). -/
theorem lift_d2 (s : Fin 2048) (k : Fin (S4x2048x2048.size 2)) :
    reduces_d2.lift (ix2 b s) k = ix3 b s (k : Fin 2048) :=
  funext fun a => Fin.ext (by match a with | ⟨0, _⟩ => rfl | ⟨1, _⟩ => rfl | ⟨2, _⟩ => rfl)

/-- The maximum-reduction over the columns at row (b, s) is the supremum of the row's masked logits. -/
theorem v19_eq (s : Fin 2048) :
    val_main_v19 (F := Ideal) x0 x1 x2 x3 x4 (ix2 b s)
      = ⨆ t : Fin 2048, mskR (Kp x0 x1 x2 b) (Qp x0 x3 x4 b) s t := by
  unfold val_main_v19
  refine (Cert.Lib.MaxReduce.hostMaxReduce_single (val_main_v18 (F := Ideal) x0 x1 x2 x3 x4)
    reducesTo_S4x2048x2048_S4x2048_d2 reduces_d2 h_S_ (ix2 b s)).trans ?_
  refine iSup_congr fun k => ?_
  rw [lift_d2]
  exact v18_eq x0 x1 x2 x3 x4 b s k

/-- The row maximum at (b, s), taken once more against -∞. -/
theorem v21_eq (s : Fin 2048) :
    val_main_v21 (F := Ideal) x0 x1 x2 x3 x4 (ix2 b s) = maxR (Kp x0 x1 x2 b) (Qp x0 x3 x4 b) s := by
  rw [val_main_v21_apply, v19_eq, val_main_v20_apply, val_main_cst_2_apply]
  show max (Ideal.ofBits .f32 0xFF800000#32) _ = _
  rw [Cert.Lib.MaxReduce.ofBits_neg_inf_f32]
  rfl

/-! ## The weights, their sum, the division -/

theorem idx_v22_v23 (s t : Fin 2048) : idx_main_v22 (idx_main_v23 (ix3 b s t)) = ix2 b s :=
  funext fun a => Fin.ext (by match a with | ⟨0, _⟩ => rfl | ⟨1, _⟩ => rfl)
theorem idx_v27_v28 (s t : Fin 2048) : idx_main_v27 (idx_main_v28 (ix3 b s t)) = ix2 b s :=
  funext fun a => Fin.ext (by match a with | ⟨0, _⟩ => rfl | ⟨1, _⟩ => rfl)
theorem idx_v26 (s k : Fin 2048) : idx_main_v26 (ix2 b s) k = ix3 b s k :=
  funext fun a => Fin.ext (by match a with | ⟨0, _⟩ => rfl | ⟨1, _⟩ => rfl | ⟨2, _⟩ => rfl)

/-- The unnormalised weight at (b, s, t). -/
theorem v25_eq (s t : Fin 2048) :
    val_main_v25 (F := Ideal) x0 x1 x2 x3 x4 (ix3 b s t) = expR (Kp x0 x1 x2 b) (Qp x0 x3 x4 b) s t := by
  rw [val_main_v25_apply, val_main_v24_apply, val_main_v23_apply, val_main_v22_apply, idx_v22_v23, v21_eq, v18_eq]
  rfl

/-- The row's sum of weights at (b, s). -/
theorem v26_eq (s : Fin 2048) :
    val_main_v26 (F := Ideal) x0 x1 x2 x3 x4 (ix2 b s) = sumR (Kp x0 x1 x2 b) (Qp x0 x3 x4 b) s := by
  rw [val_main_v26_apply, val_main_cst_3_apply]
  simp only [idx_v26, v25_eq]
  show Ideal.ofBits .f32 0x00000000#32 + _ = _
  rw [Ideal.ofBits_zero_f32]
  rfl

/-- The normalised weight at (b, s, t). -/
theorem v29_eq (s t : Fin 2048) :
    val_main_v29 (F := Ideal) x0 x1 x2 x3 x4 (ix3 b s t)
      = Ideal.div (expR (Kp x0 x1 x2 b) (Qp x0 x3 x4 b) s t) (sumR (Kp x0 x1 x2 b) (Qp x0 x3 x4 b) s) := by
  rw [val_main_v29_apply, val_main_v28_apply, val_main_v27_apply, idx_v27_v28, v26_eq, v25_eq]
  rfl

end Attn

/-! ## The result -/

theorem lidx_v30 (b : Fin 4) (s : Fin 2048) (d : Fin 1024) (k : Fin 2048) : lidx_main_v30 (ix3 b s d) k = ix3 b s k :=
  funext fun a => Fin.ext (by match a with | ⟨0, _⟩ => rfl | ⟨1, _⟩ => rfl | ⟨2, _⟩ => rfl)
theorem ridx_v30 (b : Fin 4) (s : Fin 2048) (d : Fin 1024) (k : Fin 2048) : ridx_main_v30 (ix3 b s d) k = ix3 b k d :=
  funext fun a => Fin.ext (by match a with | ⟨0, _⟩ => rfl | ⟨1, _⟩ => rfl | ⟨2, _⟩ => rfl)

/-- Entry (b, s, d) of the reference program's result is the one-pass causal attention over the three
    projections of batch entry b. -/
theorem ref_eq (x0 : X3) (x1 : W2) (x2 : B1) (x3 : W2) (x4 : B1) (x5 : W2) (x6 : B1)
    (b : Fin 4) (s : Fin 2048) (d : Fin 1024) :
    val_main_v30 (F := Ideal) x0 x1 x2 x3 x4 x5 x6 (ix3 b s d)
      = refOut (fun s f => proj x0 x1 x2 b s f) (fun s f => proj x0 x3 x4 b s f)
          (fun s f => proj x0 x5 x6 b s f) s d := by
  rw [val_main_v30_apply]
  simp only [lidx_v30, ridx_v30, v29_eq, v11_eq]
  rfl

/-- The same at an arbitrary index of the result, read through its three coordinates. -/
theorem ref_eq_idx (x0 : X3) (x1 : W2) (x2 : B1) (x3 : W2) (x4 : B1) (x5 : W2) (x6 : B1) (i : S4x2048x1024.Idx) :
    val_main_v30 (F := Ideal) x0 x1 x2 x3 x4 x5 x6 i
      = refOut (fun s f => proj x0 x1 x2 (i 0) s f) (fun s f => proj x0 x3 x4 (i 0) s f)
          (fun s f => proj x0 x5 x6 (i 0) s f) (i 1) (i 2) := by
  exact (congrArg (val_main_v30 (F := Ideal) x0 x1 x2 x3 x4 x5 x6) (eq_ix3 i)).trans
    (ref_eq x0 x1 x2 x3 x4 x5 x6 (i 0) (i 1) (i 2))

end Cert.ReferenceIdeal.RefValue

end
-- ==== Proof.lean ====
/-
  Causal single-head attention, written as two kernels (a fused projection of the three linear layers, then a
  streaming softmax over two column tiles per row tile with the scale folded into the first projection and the
  tiles above the diagonal skipped), against the one-pass reference: at the extended reals the two programs compute
  the same array.

  * The three frames. The kernel program is host operations, the projection region, three reshapes and the attention
    region; its run (both at the word level and at the extended reals) goes region by region: each region's body is
    run once per control case, and the buffers' contents at every boundary are a fold from the launch memory. The
    reference is a straight line of host operations.
  * The one rewrite of the idealization names the finite stand-in for minus infinity that masks the logits.
  * The value. The attention region's result array is, row by row, the streaming form of the specification over the
    three projections (one step for a row of the first row tile, two for a row of the second); the reference's result is
    the one-pass form; on real projections the two forms agree, and the projections of finite inputs are real.
-/
import proofs.«158006_j27814208209133_2_alg».proof.Defs
import proofs.«158006_j27814208209133_2_alg».proof.Proof.Gen.Kernel
import proofs.«158006_j27814208209133_2_alg».proof.Proof.Gen.KernelIdeal
import proofs.«158006_j27814208209133_2_alg».proof.Proof.Gen.ReferenceIdeal
import proofs.«158006_j27814208209133_2_alg».proof.Proof.Gen.Pre_finite_inputs
import proofs.«158006_j27814208209133_2_alg».proof.Proof.Gen.ReferenceIdeal.Run
import proofs.«158006_j27814208209133_2_alg».proof.Proof.BRun
import proofs.«158006_j27814208209133_2_alg».proof.Proof.KRun
import proofs.«158006_j27814208209133_2_alg».proof.Proof.KValue
import proofs.«158006_j27814208209133_2_alg».proof.Proof.RefSide
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel :=
  fun m ρ _ => Cert.Kernel.Hand.frame (F := Bits) m ρ
theorem frame_ki [Cert.KernelIdeal.Facts] [Cert.Pre_finite_inputs.Facts] : Cert.frame_KernelIdeal :=
  fun m ρ _ => Cert.KernelIdeal.Hand.frame (F := Ideal) m ρ
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The mask's finite stand-in is named minus infinity. -/
theorem preserves : Cert.preserves_Kernel_KernelIdeal :=
  IdealRules.named_const.statement Cert.KernelIdeal.κ "neg_big" .f32 0xFF333332#32 ⊥ rfl

/-- From memories agreeing on the arguments both programs end with the one-pass attention of the three projections:
    the kernel program by its run read back region by region and the equality of the streaming and the one-pass form on
    real projections; the reference by its run read back one operation at a time. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => (fun i => Cert.AttnSpec.refOut
      (fun s f => Cert.AttnSpec.proj (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (i 0) s f)
      (fun s f => Cert.AttnSpec.proj (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (i 0) s f)
      (fun s f => Cert.AttnSpec.proj (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (i 0) s f)
      (i 1) (i 2)), ?_, ?_⟩
  · refine (θ_run Cert.KernelIdeal.defs _ _).mono (fun r h c => ?_) (Cert.KernelIdeal.Hand.run_all (F := Ideal) m ρ)
    obtain ⟨hK, hQ, hV⟩ := Cert.ReferenceIdeal.RefValue.proj_real _ _ _ _ _ _ _ (hpre c)
    exact ⟨(h c _ (Cert.KernelIdeal.Hand.mem_uc Cert.KernelIdeal.main_v9 (by decide))).trans (Cert.KernelIdeal.Hand.result_eq m ρ c hK hQ hV),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c),
      (h c _ (Cert.KernelIdeal.Hand.mem_uc Cert.KernelIdeal.main_arg6 (by decide))).trans (Cert.KernelIdeal.Hand.W4_main_arg6 m ρ c)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v30_eq, (hagree c).1, (hagree c).2.1, (hagree c).2.2.1, (hagree c).2.2.2.1,
      (hagree c).2.2.2.2.1, (hagree c).2.2.2.2.2.1, (hagree c).2.2.2.2.2.2]
    exact funext fun i => Cert.ReferenceIdeal.RefValue.ref_eq_idx _ _ _ _ _ _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
